-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S2x6400000 : Shape := ⟨2, ![2, 6400000]⟩
abbrev S6400000 : Shape := ⟨1, ![6400000]⟩
abbrev S10x30 : Shape := ⟨2, ![10, 30]⟩
abbrev S30 : Shape := ⟨1, ![30]⟩
abbrev S30x30 : Shape := ⟨2, ![30, 30]⟩
abbrev S30x10 : Shape := ⟨2, ![30, 10]⟩
abbrev S10 : Shape := ⟨1, ![10]⟩
abbrev S10x4 : Shape := ⟨2, ![10, 4]⟩
abbrev S4 : Shape := ⟨1, ![4]⟩
abbrev S_ : Shape := ⟨0, ![]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S6400000 : S_.BroadcastsInDim S6400000 (![] : Fin 0 → Fin S6400000.rank)
  reducesTo_S6400000_S_d0 : S6400000.ReducesTo [0] S_
  bcast_S_S10x30 : S_.BroadcastsInDim S10x30 (![] : Fin 0 → Fin S10x30.rank)
  reducesTo_S10x30_S_d0_1 : S10x30.ReducesTo [0, 1] S_
  bcast_S_S30 : S_.BroadcastsInDim S30 (![] : Fin 0 → Fin S30.rank)
  reducesTo_S30_S_d0 : S30.ReducesTo [0] S_
  bcast_S_S30x30 : S_.BroadcastsInDim S30x30 (![] : Fin 0 → Fin S30x30.rank)
  reducesTo_S30x30_S_d0_1 : S30x30.ReducesTo [0, 1] S_
  bcast_S_S30x10 : S_.BroadcastsInDim S30x10 (![] : Fin 0 → Fin S30x10.rank)
  reducesTo_S30x10_S_d0_1 : S30x10.ReducesTo [0, 1] S_
  bcast_S_S10 : S_.BroadcastsInDim S10 (![] : Fin 0 → Fin S10.rank)
  reducesTo_S10_S_d0 : S10.ReducesTo [0] S_
  bcast_S_S10x4 : S_.BroadcastsInDim S10x4 (![] : Fin 0 → Fin S10x4.rank)
  reducesTo_S10x4_S_d0_1 : S10x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg12 : FVec F S4 .f32) (main_v48 : IVec S_ 1) (main_v49 : FVec F S10x4 .f32) (main_v50 : FVec F S10x4 .f32) : IVec S_ 1 :=
  let main_v51 : IVec S10x4 1 := cmpf .olt main_v49 main_v50
  let main_c_19 : IVec S_ 1 := constantI S_ 1 1#1
  let main_v52 : IVec S_ 1 := (fun x v => Host.reduce IntOp.andi x v reducesTo_S10x4_S_d0_1 h_S_) main_v51 main_c_19
  let main_v53 : IVec S_ 1 := andi main_v48 main_v52
  let main_v54 : FVec F S4 .f32 := Host.absf main_arg12
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  main_v58

def fn_part2 {F : FTy → Type} [FloatOps F] (main_arg8 : FVec F S30 .f32) (main_arg9 : FVec F S30x10 .f32) (main_arg10 : FVec F S10 .f32) (main_arg11 : FVec F S10x4 .f32) (main_arg12 : FVec F S4 .f32) (main_v33 : IVec S_ 1) : IVec S_ 1 :=
  let main_v34 : FVec F S30 .f32 := Host.absf main_arg8
  let main_cst_12 : FVec F S_ .f32 := constant S_ .f32 0x7F800000#32
  let main_v35 : FVec F S30 .f32 := broadcastInDim S30 ![] bcast_S_S30 main_cst_12
  let main_v36 : IVec S30 1 := cmpf .olt main_v34 main_v35
  let main_c_13 : IVec S_ 1 := constantI S_ 1 1#1
  let main_v37 : IVec S_ 1 := (fun x v => Host.reduce IntOp.andi x v reducesTo_S30_S_d0 h_S_) main_v36 main_c_13
  let main_v38 : IVec S_ 1 := andi main_v33 main_v37
  let main_v39 : FVec F S30x10 .f32 := Host.absf main_arg9
  let main_cst_14 : FVec F S_ .f32 := constant S_ .f32 0x7F800000#32
  let main_v40 : FVec F S30x10 .f32 := broadcastInDim S30x10 ![] bcast_S_S30x10 main_cst_14
  let main_v41 : IVec S30x10 1 := cmpf .olt main_v39 main_v40
  let main_c_15 : IVec S_ 1 := constantI S_ 1 1#1
  let main_v42 : IVec S_ 1 := (fun x v => Host.reduce IntOp.andi x v reducesTo_S30x10_S_d0_1 h_S_) main_v41 main_c_15
  let main_v43 : IVec S_ 1 := andi main_v38 main_v42
  let main_v44 : FVec F S10 .f32 := Host.absf main_arg10
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_v49 : FVec F S10x4 .f32 := Host.absf main_arg11
  let main_cst_18 : FVec F S_ .f32 := constant S_ .f32 0x7F800000#32
  let main_v50 : FVec F S10x4 .f32 := broadcastInDim S10x4 ![] bcast_S_S10x4 main_cst_18
  fn_part3 (F := F) main_arg12 main_v48 main_v49 main_v50

def fn_part1 {F : FTy → Type} [FloatOps F] (main_arg5 : FVec F S30x30 .f32) (main_arg6 : FVec F S30 .f32) (main_arg7 : FVec F S30x30 .f32) (main_arg8 : FVec F S30 .f32) (main_arg9 : FVec F S30x10 .f32) (main_arg10 : FVec F S10 .f32) (main_arg11 : FVec F S10x4 .f32) (main_arg12 : FVec F S4 .f32) (main_v13 : IVec S_ 1) (main_v16 : IVec S30 1) : IVec S_ 1 :=
  let main_c_5 : IVec S_ 1 := constantI S_ 1 1#1
  let main_v17 : IVec S_ 1 := (fun x v => Host.reduce IntOp.andi x v reducesTo_S30_S_d0 h_S_) main_v16 main_c_5
  let main_v18 : IVec S_ 1 := andi main_v13 main_v17
  let main_v19 : FVec F S30x30 .f32 := Host.absf main_arg5
  let main_cst_6 : FVec F S_ .f32 := constant S_ .f32 0x7F800000#32
  let main_v20 : FVec F S30x30 .f32 := broadcastInDim S30x30 ![] bcast_S_S30x30 main_cst_6
  let main_v21 : IVec S30x30 1 := cmpf .olt main_v19 main_v20
  let main_c_7 : IVec S_ 1 := constantI S_ 1 1#1
  let main_v22 : IVec S_ 1 := (fun x v => Host.reduce IntOp.andi x v reducesTo_S30x30_S_d0_1 h_S_) main_v21 main_c_7
  let main_v23 : IVec S_ 1 := andi main_v18 main_v22
  let main_v24 : FVec F S30 .f32 := Host.absf main_arg6
  let main_cst_8 : FVec F S_ .f32 := constant S_ .f32 0x7F800000#32
  let main_v25 : FVec F S30 .f32 := broadcastInDim S30 ![] bcast_S_S30 main_cst_8
  let main_v26 : IVec S30 1 := cmpf .olt main_v24 main_v25
  let main_c_9 : IVec S_ 1 := constantI S_ 1 1#1
  let main_v27 : IVec S_ 1 := (fun x v => Host.reduce IntOp.andi x v reducesTo_S30_S_d0 h_S_) main_v26 main_c_9
  let main_v28 : IVec S_ 1 := andi main_v23 main_v27
  let main_v29 : FVec F S30x30 .f32 := Host.absf main_arg7
  let main_cst_10 : FVec F S_ .f32 := constant S_ .f32 0x7F800000#32
  let main_v30 : FVec F S30x30 .f32 := broadcastInDim S30x30 ![] bcast_S_S30x30 main_cst_10
  let main_v31 : IVec S30x30 1 := cmpf .olt main_v29 main_v30
  let main_c_11 : IVec S_ 1 := constantI S_ 1 1#1
  let main_v32 : IVec S_ 1 := (fun x v => Host.reduce IntOp.andi x v reducesTo_S30x30_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x10 .f32) (main_arg1 : IVec S2x6400000 32) (main_arg2 : FVec F S6400000 .f32) (main_arg3 : FVec F S10x30 .f32) (main_arg4 : FVec F S30 .f32) (main_arg5 : FVec F S30x30 .f32) (main_arg6 : FVec F S30 .f32) (main_arg7 : FVec F S30x30 .f32) (main_arg8 : FVec F S30 .f32) (main_arg9 : FVec F S30x10 .f32) (main_arg10 : FVec F S10 .f32) (main_arg11 : FVec F S10x4 .f32) (main_arg12 : FVec F S4 .f32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S6400000 .f32 := Host.absf main_arg2
  let main_cst_0 : FVec F S_ .f32 := constant S_ .f32 0x7F800000#32
  let main_v5 : FVec F S6400000 .f32 := broadcastInDim S6400000 ![] bcast_S_S6400000 main_cst_0
  let main_v6 : IVec S6400000 1 := cmpf .olt main_v4 main_v5
  let main_c_1 : IVec S_ 1 := constantI S_ 1 1#1
  let main_v7 : IVec S_ 1 := (fun x v => Host.reduce IntOp.andi x v reducesTo_S6400000_S_d0 h_S_) main_v6 main_c_1
  let main_v8 : IVec S_ 1 := andi main_v3 main_v7
  let main_v9 : FVec F S10x30 .f32 := Host.absf main_arg3
  let main_cst_2 : FVec F S_ .f32 := constant S_ .f32 0x7F800000#32
  let main_v10 : FVec F S10x30 .f32 := broadcastInDim S10x30 ![] bcast_S_S10x30 main_cst_2
  let main_v11 : IVec S10x30 1 := cmpf .olt main_v9 main_v10
  let main_c_3 : IVec S_ 1 := constantI S_ 1 1#1
  let main_v12 : IVec S_ 1 := (fun x v => Host.reduce IntOp.andi x v reducesTo_S10x30_S_d0_1 h_S_) main_v11 main_c_3
  let main_v13 : IVec S_ 1 := andi main_v8 main_v12
  let main_v14 : FVec F S30 .f32 := Host.absf main_arg4
  let main_cst_4 : FVec F S_ .f32 := constant S_ .f32 0x7F800000#32
  let main_v15 : FVec F S30 .f32 := broadcastInDim S30 ![] bcast_S_S30 main_cst_4
  let main_v16 : IVec S30 1 := cmpf .olt main_v14 main_v15
  fn_part1 (F := F) main_arg5 main_arg6 main_arg7 main_arg8 main_arg9 main_arg10 main_arg11 main_arg12 main_v13 main_v16
-- ==== Kernel.lean ====
abbrev S100000x10 : Shape := ⟨2, ![100000, 10]⟩
abbrev S2x6400000 : Shape := ⟨2, ![2, 6400000]⟩
abbrev S6400000 : Shape := ⟨1, ![6400000]⟩
abbrev S10x30 : Shape := ⟨2, ![10, 30]⟩
abbrev S30 : Shape := ⟨1, ![30]⟩
abbrev S30x30 : Shape := ⟨2, ![30, 30]⟩
abbrev S30x10 : Shape := ⟨2, ![30, 10]⟩
abbrev S10 : Shape := ⟨1, ![10]⟩
abbrev S10x4 : Shape := ⟨2, ![10, 4]⟩
abbrev S4 : Shape := ⟨1, ![4]⟩
abbrev S100000 : Shape := ⟨1, ![100000]⟩
abbrev S1x6400000 : Shape := ⟨2, ![1, 6400000]⟩
abbrev S6500000 : Shape := ⟨1, ![6500000]⟩
abbrev S_ : Shape := ⟨0, ![]⟩
abbrev S6500000x1 : Shape := ⟨2, ![6500000, 1]⟩
abbrev S1x30 : Shape := ⟨2, ![1, 30]⟩
abbrev S100000x30 : Shape := ⟨2, ![100000, 30]⟩
abbrev S5000x10 : Shape := ⟨2, ![5000, 10]⟩
abbrev S5000x30 : Shape := ⟨2, ![5000, 30]⟩
abbrev S6500000x30 : Shape := ⟨2, ![6500000, 30]⟩
abbrev S10000x30 : Shape := ⟨2, ![10000, 30]⟩
abbrev S10000x1 : Shape := ⟨2, ![10000, 1]⟩
abbrev S1x10 : Shape := ⟨2, ![1, 10]⟩
abbrev S1x4 : Shape := ⟨2, ![1, 4]⟩
abbrev S100000x4 : Shape := ⟨2, ![100000, 4]⟩
abbrev S5000x4 : Shape := ⟨2, ![5000, 4]⟩

abbrev nBuf : Space → Nat
  | .hbm => 120
  | .vmem => 63
  | .smem => 0
  | _ => 0

abbrev bufTy : (tb : Table) → Fin (tcTables nBuf tb) → BufTy
  | .hbm, ⟨0, _⟩ => ⟨S100000x10, .f32⟩
  | .hbm, ⟨1, _⟩ => ⟨S2x6400000, .i32⟩
  | .hbm, ⟨2, _⟩ => ⟨S6400000, .f32⟩
  | .hbm, ⟨3, _⟩ => ⟨S10x30, .f32⟩
  | .hbm, ⟨4, _⟩ => ⟨S30, .f32⟩
  | .hbm, ⟨5, _⟩ => ⟨S30x30, .f32⟩
  | .hbm, ⟨6, _⟩ => ⟨S30, .f32⟩
  | .hbm, ⟨7, _⟩ => ⟨S30x30, .f32⟩
  | .hbm, ⟨8, _⟩ => ⟨S30, .f32⟩
  | .hbm, ⟨9, _⟩ => ⟨S30x10, .f32⟩
  | .hbm, ⟨10, _⟩ => ⟨S10, .f32⟩
  | .hbm, ⟨11, _⟩ => ⟨S10x4, .f32⟩
  | .hbm, ⟨12, _⟩ => ⟨S4, .f32⟩
  | .hbm, ⟨13, _⟩ => ⟨S100000, .i32⟩
  | .hbm, ⟨14, _⟩ => ⟨S1x6400000, .i32⟩
  | .hbm, ⟨15, _⟩ => ⟨S6400000, .i32⟩
  | .hbm, ⟨16, _⟩ => ⟨S6500000, .i32⟩
  | .hbm, ⟨17, _⟩ => ⟨S1x6400000, .i32⟩
  | .hbm, ⟨18, _⟩ => ⟨S6400000, .i32⟩
  | .hbm, ⟨19, _⟩ => ⟨S6500000, .i32⟩
  | .hbm, ⟨20, _⟩ => ⟨S_, .f32⟩
  | .hbm, ⟨21, _⟩ => ⟨S100000, .f32⟩
  | .hbm, ⟨22, _⟩ => ⟨S6500000, .f32⟩
  | .hbm, ⟨23, _⟩ => ⟨S_, .f32⟩
  | .hbm, ⟨24, _⟩ => ⟨S100000, .f32⟩
  | .hbm, ⟨25, _⟩ => ⟨S6500000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S6500000, .i32⟩
  | .hbm, ⟨37, _⟩ => ⟨S6500000, .i1⟩
  | .hbm, ⟨38, _⟩ => ⟨S_, .i32⟩
  | .hbm, ⟨39, _⟩ => ⟨S6500000, .i32⟩
  | .hbm, ⟨40, _⟩ => ⟨S6500000, .i32⟩
  | .hbm, ⟨41, _⟩ => ⟨S6500000, .i32⟩
  | .hbm, ⟨42, _⟩ => ⟨S6500000x1, .i32⟩
  | .hbm, ⟨43, _⟩ => ⟨S6500000, .f32⟩
  | .hbm, ⟨44, _⟩ => ⟨S6500000, .f32⟩
  | .hbm, ⟨45, _⟩ => ⟨S_, .i32⟩
  | .hbm, ⟨46, _⟩ => ⟨S6500000, .i32⟩
  | .hbm, ⟨47, _⟩ => ⟨S6500000, .i1⟩
  | .hbm, ⟨48, _⟩ => ⟨S_, .i32⟩
  | .hbm, ⟨49, _⟩ => ⟨S6500000, .i32⟩
  | .hbm, ⟨50, _⟩ => ⟨S6500000, .i32⟩
  | .hbm, ⟨51, _⟩ => ⟨S6500000, .i32⟩
  | .hbm, ⟨52, _⟩ => ⟨S6500000x1, .i32⟩
  | .hbm, ⟨53, _⟩ => ⟨S6500000, .f32⟩
  | .hbm, ⟨54, _⟩ => ⟨S6500000, .f32⟩
  | .hbm, ⟨55, _⟩ => ⟨S6500000x1, .f32⟩
  | .hbm, ⟨56, _⟩ => ⟨S_, .f32⟩
  | .hbm, ⟨57, _⟩ => ⟨S30, .f32⟩
  | .hbm, ⟨58, _⟩ => ⟨S1x30, .f32⟩
  | .hbm, ⟨59, _⟩ => ⟨S100000x30, .f32⟩
  | .hbm, ⟨60, _⟩ => ⟨S_, .i32⟩
  | .hbm, ⟨61, _⟩ => ⟨S6500000, .i32⟩
  | .hbm, ⟨62, _⟩ => ⟨S6500000, .i1⟩
  | .hbm, ⟨63, _⟩ => ⟨S_, .i32⟩
  | .hbm, ⟨64, _⟩ => ⟨S6500000, .i32⟩
  | .hbm, ⟨65, _⟩ => ⟨S6500000, .i32⟩
  | .hbm, ⟨66, _⟩ => ⟨S6500000, .i32⟩
  | .hbm, ⟨67, _⟩ => ⟨S6500000x1, .i32⟩
  | .hbm, ⟨68, _⟩ => ⟨S6500000x30, .f32⟩
  | .hbm, ⟨69, _⟩ => ⟨S6500000x30, .f32⟩
  | .hbm, ⟨70, _⟩ => ⟨S_, .f32⟩
  | .hbm, ⟨71, _⟩ => ⟨S100000x30, .f32⟩
  | .hbm, ⟨72, _⟩ => ⟨S6500000x1, .i32⟩
  | .hbm, ⟨73, _⟩ => ⟨S100000x30, .f32⟩
  | .hbm, ⟨74, _⟩ => ⟨S1x30, .f32⟩
  | .hbm, ⟨75, _⟩ => ⟨S100000x30, .f32⟩
  | .hbm, ⟨76, _⟩ => ⟨S_, .f32⟩
  | .hbm, ⟨77, _⟩ => ⟨S30, .f32⟩
  | .hbm, ⟨78, _⟩ => ⟨S1x30, .f32⟩
  | .hbm, ⟨79, _⟩ => ⟨S100000x30, .f32⟩
  | .hbm, ⟨80, _⟩ => ⟨S_, .i32⟩
  | .hbm, ⟨81, _⟩ => ⟨S6500000, .i32⟩
  | .hbm, ⟨82, _⟩ => ⟨S6500000, .i1⟩
  | .hbm, ⟨83, _⟩ => ⟨S_, .i32⟩
  | .hbm, ⟨84, _⟩ => ⟨S6500000, .i32⟩
  | .hbm, ⟨85, _⟩ => ⟨S6500000, .i32⟩
  | .hbm, ⟨86, _⟩ => ⟨S6500000, .i32⟩
  | .hbm, ⟨87, _⟩ => ⟨S6500000x1, .i32⟩
  | .hbm, ⟨88, _⟩ => ⟨S6500000x30, .f32⟩
  | .hbm, ⟨89, _⟩ => ⟨S6500000x30, .f32⟩
  | .hbm, ⟨90, _⟩ => ⟨S_, .f32⟩
  | .hbm, ⟨91, _⟩ => ⟨S100000x30, .f32⟩
  | .hbm, ⟨92, _⟩ => ⟨S6500000x1, .i32⟩
  | .hbm, ⟨93, _⟩ => ⟨S100000x30, .f32⟩
  | .hbm, ⟨94, _⟩ => ⟨S1x30, .f32⟩
  | .hbm, ⟨95, _⟩ => ⟨S100000x30, .f32⟩
  | .hbm, ⟨96, _⟩ => ⟨S_, .f32⟩
  | .hbm, ⟨97, _⟩ => ⟨S30, .f32⟩
  | .hbm, ⟨98, _⟩ => ⟨S1x30, .f32⟩
  | .hbm, ⟨99, _⟩ => ⟨S100000x30, .f32⟩
  | .hbm, ⟨100, _⟩ => ⟨S_, .i32⟩
  | .hbm, ⟨101, _⟩ => ⟨S6500000, .i32⟩
  | .hbm, ⟨102, _⟩ => ⟨S6500000, .i1⟩
  | .hbm, ⟨103, _⟩ => ⟨S_, .i32⟩
  | .hbm, ⟨104, _⟩ => ⟨S6500000, .i32⟩
  | .hbm, ⟨105, _⟩ => ⟨S6500000, .i32⟩
  | .hbm, ⟨106, _⟩ => ⟨S6500000, .i32⟩
  | .hbm, ⟨107, _⟩ => ⟨S6500000x1, .i32⟩
  | .hbm, ⟨108, _⟩ => ⟨S6500000x30, .f32⟩
  | .hbm, ⟨109, _⟩ => ⟨S6500000x30, .f32⟩
  | .hbm, ⟨110, _⟩ => ⟨S_, .f32⟩
  | .hbm, ⟨111, _⟩ => ⟨S100000x30, .f32⟩
  | .hbm, ⟨112, _⟩ => ⟨S6500000x1, .i32⟩
  | .hbm, ⟨113, _⟩ => ⟨S100000x30, .f32⟩
  | .hbm, ⟨114, _⟩ => ⟨S1x30, .f32⟩
  | .hbm, ⟨115, _⟩ => ⟨S100000x30, .f32⟩
  | .hbm, ⟨116, _⟩ => ⟨S1x10, .f32⟩
  | .hbm, ⟨117, _⟩ => ⟨S100000x10, .f32⟩
  | .hbm, ⟨118, _⟩ => ⟨S1x4, .f32⟩
  | .hbm, ⟨119, _⟩ => ⟨S100000x4, .f32⟩
  | .local _ .vmem, ⟨0, _⟩ => ⟨S5000x10, .f32⟩
  | .local _ .vmem, ⟨1, _⟩ => ⟨S5000x10, .f32⟩
  | .local _ .vmem, ⟨2, _⟩ => ⟨S10x30, .f32⟩
  | .local _ .vmem, ⟨3, _⟩ => ⟨S1x30, .f32⟩
  | .local _ .vmem, ⟨4, _⟩ => ⟨S5000x30, .f32⟩
  | .local _ .vmem, ⟨5, _⟩ => ⟨S5000x30, .f32⟩
  | .local _ .vmem, ⟨6, _⟩ => ⟨S10000x30, .f32⟩
  | .local _ .vmem, ⟨7, _⟩ => ⟨S10000x30, .f32⟩
  | .local _ .vmem, ⟨8, _⟩ => ⟨S10000x1, .f32⟩
  | .local _ .vmem, ⟨9, _⟩ => ⟨S10000x1, .f32⟩
  | .local _ .vmem, ⟨10, _⟩ => ⟨S10000x30, .f32⟩
  | .local _ .vmem, ⟨11, _⟩ => ⟨S10000x30, .f32⟩
  | .local _ .vmem, ⟨12, _⟩ => ⟨S5000x30, .f32⟩
  | .local _ .vmem, ⟨13, _⟩ => ⟨S5000x30, .f32⟩
  | .local _ .vmem, ⟨14, _⟩ => ⟨S1x30, .f32⟩
  | .local _ .vmem, ⟨15, _⟩ => ⟨S5000x30, .f32⟩
  | .local _ .vmem, ⟨16, _⟩ => ⟨S5000x30, .f32⟩
  | .local _ .vmem, ⟨17, _⟩ => ⟨S5000x30, .f32⟩
  | .local _ .vmem, ⟨18, _⟩ => ⟨S5000x30, .f32⟩
  | .local _ .vmem, ⟨19, _⟩ => ⟨S30x30, .f32⟩
  | .local _ .vmem, ⟨20, _⟩ => ⟨S1x30, .f32⟩
  | .local _ .vmem, ⟨21, _⟩ => ⟨S5000x30, .f32⟩
  | .local _ .vmem, ⟨22, _⟩ => ⟨S5000x30, .f32⟩
  | .local _ .vmem, ⟨23, _⟩ => ⟨S10000x30, .f32⟩
  | .local _ .vmem, ⟨24, _⟩ => ⟨S10000x30, .f32⟩
  | .local _ .vmem, ⟨25, _⟩ => ⟨S10000x1, .f32⟩
  | .local _ .vmem, ⟨26, _⟩ => ⟨S10000x1, .f32⟩
  | .local _ .vmem, ⟨27, _⟩ => ⟨S10000x30, .f32⟩
  | .local _ .vmem, ⟨28, _⟩ => ⟨S10000x30, .f32⟩
  | .local _ .vmem, ⟨29, _⟩ => ⟨S5000x30, .f32⟩
  | .local _ .vmem, ⟨30, _⟩ => ⟨S5000x30, .f32⟩
  | .local _ .vmem, ⟨31, _⟩ => ⟨S1x30, .f32⟩
  | .local _ .vmem, ⟨32, _⟩ => ⟨S5000x30, .f32⟩
  | .local _ .vmem, ⟨33, _⟩ => ⟨S5000x30, .f32⟩
  | .local _ .vmem, ⟨34, _⟩ => ⟨S5000x30, .f32⟩
  | .local _ .vmem, ⟨35, _⟩ => ⟨S5000x30, .f32⟩
  | .local _ .vmem, ⟨36, _⟩ => ⟨S30x30, .f32⟩
  | .local _ .vmem, ⟨37, _⟩ => ⟨S1x30, .f32⟩
  | .local _ .vmem, ⟨38, _⟩ => ⟨S5000x30, .f32⟩
  | .local _ .vmem, ⟨39, _⟩ => ⟨S5000x30, .f32⟩
  | .local _ .vmem, ⟨40, _⟩ => ⟨S10000x30, .f32⟩
  | .local _ .vmem, ⟨41, _⟩ => ⟨S10000x30, .f32⟩
  | .local _ .vmem, ⟨42, _⟩ => ⟨S10000x1, .f32⟩
  | .local _ .vmem, ⟨43, _⟩ => ⟨S10000x1, .f32⟩
  | .local _ .vmem, ⟨44, _⟩ => ⟨S10000x30, .f32⟩
  | .local _ .vmem, ⟨45, _⟩ => ⟨S10000x30, .f32⟩
  | .local _ .vmem, ⟨46, _⟩ => ⟨S5000x30, .f32⟩
  | .local _ .vmem, ⟨47, _⟩ => ⟨S5000x30, .f32⟩
  | .local _ .vmem, ⟨48, _⟩ => ⟨S1x30, .f32⟩
  | .local _ .vmem, ⟨49, _⟩ => ⟨S5000x30, .f32⟩
  | .local _ .vmem, ⟨50, _⟩ => ⟨S5000x30, .f32⟩
  | .local _ .vmem, ⟨51, _⟩ => ⟨S5000x30, .f32⟩
  | .local _ .vmem, ⟨52, _⟩ => ⟨S5000x30, .f32⟩
  | .local _ .vmem, ⟨53, _⟩ => ⟨S30x10, .f32⟩
  | .local _ .vmem, ⟨54, _⟩ => ⟨S1x10, .f32⟩
  | .local _ .vmem, ⟨55, _⟩ => ⟨S5000x10, .f32⟩
  | .local _ .vmem, ⟨56, _⟩ => ⟨S5000x10, .f32⟩
  | .local _ .vmem, ⟨57, _⟩ => ⟨S5000x10, .f32⟩
  | .local _ .vmem, ⟨58, _⟩ => ⟨S5000x10, .f32⟩
  | .local _ .vmem, ⟨59, _⟩ => ⟨S10x4, .f32⟩
  | .local _ .vmem, ⟨60, _⟩ => ⟨S1x4, .f32⟩
  | .local _ .vmem, ⟨61, _⟩ => ⟨S5000x4, .f32⟩
  | .local _ .vmem, ⟨62, _⟩ => ⟨S5000x4, .f32⟩
  | _, _ => ⟨S100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_10 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_11 : Ref sig .tc := ⟨.hbm, 80, rfl⟩
abbrev main_v52 : Ref sig .tc := ⟨.hbm, 81, rfl⟩
abbrev main_v53 : Ref sig .tc := ⟨.hbm, 82, rfl⟩
abbrev main_c_12 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_c_16 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_17 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg3_0 : Ref sig .tc := ⟨.vmem, 38, rfl⟩
abbrev cc6_stg3_1 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg1_1 : Ref sig .tc := ⟨.vmem, 43, rfl⟩
abbrev cc7_stg2_0 : Ref sig .tc := ⟨.vmem, 44, rfl⟩
abbrev cc7_stg2_1 : Ref sig .tc := ⟨.vmem, 45, rfl⟩
abbrev cc8_stg0_0 : Ref sig .tc := ⟨.vmem, 46, rfl⟩
abbrev cc8_stg0_1 : Ref sig .tc := ⟨.vmem, 47, rfl⟩
abbrev cc8_stg1_0 : Ref sig .tc := ⟨.vmem, 48, rfl⟩
abbrev cc8_stg2_0 : Ref sig .tc := ⟨.vmem, 49, rfl⟩
abbrev cc8_stg2_1 : Ref sig .tc := ⟨.vmem, 50, rfl⟩
abbrev cc9_stg0_0 : Ref sig .tc := ⟨.vmem, 51, rfl⟩
abbrev cc9_stg0_1 : Ref sig .tc := ⟨.vmem, 52, rfl⟩
abbrev cc9_stg1_0 : Ref sig .tc := ⟨.vmem, 53, rfl⟩
abbrev cc9_stg2_0 : Ref sig .tc := ⟨.vmem, 54, rfl⟩
abbrev cc9_stg3_0 : Ref sig .tc := ⟨.vmem, 55, rfl⟩
abbrev cc9_stg3_1 : Ref sig .tc := ⟨.vmem, 56, rfl⟩
abbrev cc10_stg0_0 : Ref sig .tc := ⟨.vmem, 57, rfl⟩
abbrev cc10_stg0_1 : Ref sig .tc := ⟨.vmem, 58, rfl⟩
abbrev cc10_stg1_0 : Ref sig .tc := ⟨.vmem, 59, rfl⟩
abbrev cc10_stg2_0 : Ref sig .tc := ⟨.vmem, 60, rfl⟩
abbrev cc10_stg3_0 : Ref sig .tc := ⟨.vmem, 61, rfl⟩
abbrev cc10_stg3_1 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem3_0 : DmaSem sig := 38
abbrev cc6_sem3_1 : DmaSem sig := 39
abbrev cc7_sem0_0 : DmaSem sig := 40
abbrev cc7_sem0_1 : DmaSem sig := 41
abbrev cc7_sem1_0 : DmaSem sig := 42
abbrev cc7_sem1_1 : DmaSem sig := 43
abbrev cc7_sem2_0 : DmaSem sig := 44
abbrev cc7_sem2_1 : DmaSem sig := 45
abbrev cc8_sem0_0 : DmaSem sig := 46
abbrev cc8_sem0_1 : DmaSem sig := 47
abbrev cc8_sem1_0 : DmaSem sig := 48
abbrev cc8_sem2_0 : DmaSem sig := 49
abbrev cc8_sem2_1 : DmaSem sig := 50
abbrev cc9_sem0_0 : DmaSem sig := 51
abbrev cc9_sem0_1 : DmaSem sig := 52
abbrev cc9_sem1_0 : DmaSem sig := 53
abbrev cc9_sem2_0 : DmaSem sig := 54
abbrev cc9_sem3_0 : DmaSem sig := 55
abbrev cc9_sem3_1 : DmaSem sig := 56
abbrev cc10_sem0_0 : DmaSem sig := 57
abbrev cc10_sem0_1 : DmaSem sig := 58
abbrev cc10_sem1_0 : DmaSem sig := 59
abbrev cc10_sem2_0 : DmaSem sig := 60
abbrev cc10_sem3_0 : DmaSem sig := 61
abbrev cc10_sem3_1 : DmaSem sig := 62

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x30 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x30 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![650], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x30 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x30 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x30 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x30 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x30 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x30 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S30x30 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x30 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x30 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![650], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x30 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x30 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x30 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x30 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x30 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x30 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S30x30 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x30 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x30 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![650], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x30 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x30 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x30 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x30 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x30 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x30 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S30x10 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x10 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x10 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x10 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S10x4 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x4 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x4 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S100000 : S_.BroadcastsInDim S100000 (![] : Fin 0 → Fin S100000.rank)
  bcast_S6500000_S6500000x1_0 : S6500000.BroadcastsInDim S6500000x1 (![0] : Fin 1 → Fin S6500000x1.rank)
  bcast_S_S6500000 : S_.BroadcastsInDim S6500000 (![] : Fin 0 → Fin S6500000.rank)
  bcast_S_S30 : S_.BroadcastsInDim S30 (![] : Fin 0 → Fin S30.rank)
  shapeCasts_S30_S1x30 : S30.ShapeCasts S1x30
  inb_S5000x10_S5000x10_0_0 : ∀ a, (![0, 0] : Fin 2 → Nat) a + S5000x10.size a ≤ S5000x10.size a
  h_S5000x10 : 0 < S5000x10.numel
  bitsLt_bf16_f32 : FTy.bits .bf16 < FTy.bits .f32
  inb_S10x30_S10x30_0_0 : ∀ a, (![0, 0] : Fin 2 → Nat) a + S10x30.size a ≤ S10x30.size a
  h_S10x30 : 0 < S10x30.numel
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S5000x30 : S1x30.Broadcasts S5000x30
  inb_S5000x30_S5000x30_0_0 : ∀ a, (![0, 0] : Fin 2 → Nat) a + S5000x30.size a ≤ S5000x30.size a
  h_S5000x30 : 0 < S5000x30.numel
  inb_S10000x30_S10000x30_0_0 : ∀ a, (![0, 0] : Fin 2 → Nat) a + S10000x30.size a ≤ S10000x30.size a
  h_S10000x30 : 0 < S10000x30.numel
  shapeCasts_S10000x30_S10000x30 : S10000x30.ShapeCasts S10000x30
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x30 : S10000x1.Broadcasts S10000x30
  bcast_S_S100000x30 : S_.BroadcastsInDim S100000x30 (![] : Fin 0 → Fin S100000x30.rank)
  shapeCasts_S5000x30_S5000x30 : S5000x30.ShapeCasts S5000x30
  inb_S30x30_S30x30_0_0 : ∀ a, (![0, 0] : Fin 2 → Nat) a + S30x30.size a ≤ S30x30.size a
  h_S30x30 : 0 < S30x30.numel
  shapeCasts_S10_S1x10 : S10.ShapeCasts S1x10
  inb_S30x10_S30x10_0_0 : ∀ a, (![0, 0] : Fin 2 → Nat) a + S30x10.size a ≤ S30x10.size a
  h_S30x10 : 0 < S30x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  shapeCasts_S4_S1x4 : S4.ShapeCasts S1x4
  shapeCasts_S5000x10_S5000x10 : S5000x10.ShapeCasts S5000x10
  inb_S10x4_S10x4_0_0 : ∀ a, (![0, 0] : Fin 2 → Nat) a + S10x4.size a ≤ S10x4.size a
  h_S10x4 : 0 < S10x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S5000x10_S10x30_S5000x30_1_0_0_1_n_n_wf : DotDims.WF S5000x10 S10x30 S5000x30 [1] [0] [0] [1] [] []
  gather_S100000x30_S6500000x1_S6500000x30_1_0_n_n_0_1_130_wf : GatherDims.WF S100000x30 S6500000x1 S6500000x30 [1] [0] [] [0] [] 1 ![1, 30]
  scatter_S100000x30_S6500000x1_S6500000x30_1_0_0_1_wf : ScatterDims.WF S100000x30 S6500000x1 S6500000x30 [1] [0] [0] 1
  dot_S5000x30_S30x30_S5000x30_1_0_0_1_n_n_wf : DotDims.WF S5000x30 S30x30 S5000x30 [1] [0] [0] [1] [] []
  dot_S5000x30_S30x10_S5000x10_1_0_0_1_n_n_wf : DotDims.WF S5000x30 S30x10 S5000x10 [1] [0] [0] [1] [] []
  dot_S5000x10_S10x4_S5000x4_1_0_0_1_n_n_wf : DotDims.WF S5000x10 S10x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x10.size a ≤ S100000x10.size a
  hwx0_0 : ∀ i : grid0.Coords, EltTy.bits .f32 = 32 ∨ (Rect.block (s := S100000x10) S5000x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x30.size a ≤ S10x30.size a
  hwx0_1 : ∀ i : grid0.Coords, EltTy.bits .f32 = 32 ∨ (Rect.block (s := S10x30) S10x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x30.size a ≤ S1x30.size a
  hwx0_2 : ∀ i : grid0.Coords, EltTy.bits .f32 = 32 ∨ (Rect.block (s := S1x30) S1x30.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x30.size a ≤ S100000x30.size a
  hwx0_3 : ∀ i : grid0.Coords, EltTy.bits .f32 = 32 ∨ (Rect.block (s := S100000x30) S5000x30.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x30.size a ≤ S6500000x30.size a
  hwx1_0 : ∀ i : grid1.Coords, EltTy.bits .f32 = 32 ∨ (Rect.block (s := S6500000x30) S10000x30.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S6500000x1.size a
  hwx1_1 : ∀ i : grid1.Coords, EltTy.bits .f32 = 32 ∨ (Rect.block (s := S6500000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x30.size a ≤ S6500000x30.size a
  hwx1_2 : ∀ i : grid1.Coords, EltTy.bits .f32 = 32 ∨ (Rect.block (s := S6500000x30) S10000x30.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x30.size a ≤ S100000x30.size a
  hwx2_0 : ∀ i : grid2.Coords, EltTy.bits .f32 = 32 ∨ (Rect.block (s := S100000x30) S5000x30.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x30.size a ≤ S1x30.size a
  hwx2_1 : ∀ i : grid2.Coords, EltTy.bits .f32 = 32 ∨ (Rect.block (s := S1x30) S1x30.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x30.size a ≤ S100000x30.size a
  hwx2_2 : ∀ i : grid2.Coords, EltTy.bits .f32 = 32 ∨ (Rect.block (s := S100000x30) S5000x30.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x30.size a ≤ S100000x30.size a
  hwx3_0 : ∀ i : grid3.Coords, EltTy.bits .f32 = 32 ∨ (Rect.block (s := S100000x30) S5000x30.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S30x30.size a ≤ S30x30.size a
  hwx3_1 : ∀ i : grid3.Coords, EltTy.bits .f32 = 32 ∨ (Rect.block (s := S30x30) S30x30.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x30.size a ≤ S1x30.size a
  hwx3_2 : ∀ i : grid3.Coords, EltTy.bits .f32 = 32 ∨ (Rect.block (s := S1x30) S1x30.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x30.size a ≤ S100000x30.size a
  hwx3_3 : ∀ i : grid3.Coords, EltTy.bits .f32 = 32 ∨ (Rect.block (s := S100000x30) S5000x30.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x30.size a ≤ S6500000x30.size a
  hwx4_0 : ∀ i : grid4.Coords, EltTy.bits .f32 = 32 ∨ (Rect.block (s := S6500000x30) S10000x30.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S6500000x1.size a
  hwx4_1 : ∀ i : grid4.Coords, EltTy.bits .f32 = 32 ∨ (Rect.block (s := S6500000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x30.size a ≤ S6500000x30.size a
  hwx4_2 : ∀ i : grid4.Coords, EltTy.bits .f32 = 32 ∨ (Rect.block (s := S6500000x30) S10000x30.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x30.size a ≤ S100000x30.size a
  hwx5_0 : ∀ i : grid5.Coords, EltTy.bits .f32 = 32 ∨ (Rect.block (s := S100000x30) S5000x30.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x30.size a ≤ S1x30.size a
  hwx5_1 : ∀ i : grid5.Coords, EltTy.bits .f32 = 32 ∨ (Rect.block (s := S1x30) S1x30.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x30.size a ≤ S100000x30.size a
  hwx5_2 : ∀ i : grid5.Coords, EltTy.bits .f32 = 32 ∨ (Rect.block (s := S100000x30) S5000x30.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x30.size a ≤ S100000x30.size a
  hwx6_0 : ∀ i : grid6.Coords, EltTy.bits .f32 = 32 ∨ (Rect.block (s := S100000x30) S5000x30.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S30x30.size a ≤ S30x30.size a
  hwx6_1 : ∀ i : grid6.Coords, EltTy.bits .f32 = 32 ∨ (Rect.block (s := S30x30) S30x30.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x30.size a ≤ S1x30.size a
  hwx6_2 : ∀ i : grid6.Coords, EltTy.bits .f32 = 32 ∨ (Rect.block (s := S1x30) S1x30.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x30.size a ≤ S100000x30.size a
  hwx6_3 : ∀ i : grid6.Coords, EltTy.bits .f32 = 32 ∨ (Rect.block (s := S100000x30) S5000x30.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x30.size a ≤ S6500000x30.size a
  hwx7_0 : ∀ i : grid7.Coords, EltTy.bits .f32 = 32 ∨ (Rect.block (s := S6500000x30) S10000x30.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x1.size a ≤ S6500000x1.size a
  hwx7_1 : ∀ i : grid7.Coords, EltTy.bits .f32 = 32 ∨ (Rect.block (s := S6500000x1) S10000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x30.size a ≤ S6500000x30.size a
  hwx7_2 : ∀ i : grid7.Coords, EltTy.bits .f32 = 32 ∨ (Rect.block (s := S6500000x30) S10000x30.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x30.size a ≤ S100000x30.size a
  hwx8_0 : ∀ i : grid8.Coords, EltTy.bits .f32 = 32 ∨ (Rect.block (s := S100000x30) S5000x30.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x30.size a ≤ S1x30.size a
  hwx8_1 : ∀ i : grid8.Coords, EltTy.bits .f32 = 32 ∨ (Rect.block (s := S1x30) S1x30.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x30.size a ≤ S100000x30.size a
  hwx8_2 : ∀ i : grid8.Coords, EltTy.bits .f32 = 32 ∨ (Rect.block (s := S100000x30) S5000x30.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x30.size a ≤ S100000x30.size a
  hwx9_0 : ∀ i : grid9.Coords, EltTy.bits .f32 = 32 ∨ (Rect.block (s := S100000x30) S5000x30.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S30x10.size a ≤ S30x10.size a
  hwx9_1 : ∀ i : grid9.Coords, EltTy.bits .f32 = 32 ∨ (Rect.block (s := S30x10) S30x10.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x10.size a ≤ S1x10.size a
  hwx9_2 : ∀ i : grid9.Coords, EltTy.bits .f32 = 32 ∨ (Rect.block (s := S1x10) S1x10.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x10.size a ≤ S100000x10.size a
  hwx9_3 : ∀ i : grid9.Coords, EltTy.bits .f32 = 32 ∨ (Rect.block (s := S100000x10) S5000x10.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x10.size a ≤ S100000x10.size a
  hwx10_0 : ∀ i : grid10.Coords, EltTy.bits .f32 = 32 ∨ (Rect.block (s := S100000x10) S5000x10.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S10x4.size a ≤ S10x4.size a
  hwx10_1 : ∀ i : grid10.Coords, EltTy.bits .f32 = 32 ∨ (Rect.block (s := S10x4) S10x4.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x4.size a ≤ S1x4.size a
  hwx10_2 : ∀ i : grid10.Coords, EltTy.bits .f32 = 32 ∨ (Rect.block (s := S1x4) S1x4.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x4.size a ≤ S100000x4.size a
  hwx10_3 : ∀ i : grid10.Coords, EltTy.bits .f32 = 32 ∨ (Rect.block (s := S100000x4) S5000x4.size (cc10_transform_3 i) (hinb10_3 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S5000x10_S10x30_S5000x30_1_0_0_1_n_n : DotDims S5000x10 S10x30 S5000x30 where
  lhsContracting := [1]
  rhsContracting := [0]
  lhsNonContracting := [0]
  rhsNonContracting := [1]
  lhsBatch := []
  rhsBatch := []
  wf := dot_S5000x10_S10x30_S5000x30_1_0_0_1_n_n_wf
def gather_S100000x30_S6500000x1_S6500000x30_1_0_n_n_0_1_130 : GatherDims S100000x30 S6500000x1 S6500000x30 where
  offsetDims := [1]
  collapsedSliceDims := [0]
  operandBatchingDims := []
  startIndicesBatchingDims := []
  startIndexMap := [0]
  indexVectorDim := 1
  sliceSizes := ![1, 30]
  wf := gather_S100000x30_S6500000x1_S6500000x30_1_0_n_n_0_1_130_wf
def scatter_S100000x30_S6500000x1_S6500000x30_1_0_0_1 : ScatterDims S100000x30 S6500000x1 S6500000x30 where
  updateWindowDims := [1]
  insertedWindowDims := [0]
  scatterDimsToOperandDims := [0]
  indexVectorDim := 1
  wf := scatter_S100000x30_S6500000x1_S6500000x30_1_0_0_1_wf
def dot_S5000x30_S30x30_S5000x30_1_0_0_1_n_n : DotDims S5000x30 S30x30 S5000x30 where
  lhsContracting := [1]
  rhsContracting := [0]
  lhsNonContracting := [0]
  rhsNonContracting := [1]
  lhsBatch := []
  rhsBatch := []
  wf := dot_S5000x30_S30x30_S5000x30_1_0_0_1_n_n_wf
def dot_S5000x30_S30x10_S5000x10_1_0_0_1_n_n : DotDims S5000x30 S30x10 S5000x10 where
  lhsContracting := [1]
  rhsContracting := [0]
  lhsNonContracting := [0]
  rhsNonContracting := [1]
  lhsBatch := []
  rhsBatch := []
  wf := dot_S5000x30_S30x10_S5000x10_1_0_0_1_n_n_wf
def dot_S5000x10_S10x4_S5000x4_1_0_0_1_n_n : DotDims S5000x10 S10x4 S5000x4 where
  lhsContracting := [1]
  rhsContracting := [0]
  lhsNonContracting := [0]
  rhsNonContracting := [1]
  lhsBatch := []
  rhsBatch := []
  wf := dot_S5000x10_S10x4_S5000x4_1_0_0_1_n_n_wf

abbrev win0_0 : Pipeline.Window sig grid0 :=
  Pipeline.Window.ofSpec (Memref.whole main_arg0) S5000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S10x30.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x30.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S5000x30.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S10000x30.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S10000x30.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x30.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x30.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x30.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S5000x30.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S30x30.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x30.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S5000x30.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v58) S10000x30.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v59) S10000x30.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v62) S5000x30.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v63) S1x30.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v64) S5000x30.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v64) S5000x30.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S30x30.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v66) S1x30.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v67) S5000x30.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v74) S10000x30.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v32) S10000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v75) S10000x30.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v78) S5000x30.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v79) S1x30.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v80) S5000x30.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v80) S5000x30.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg9) S30x10.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v81) S1x10.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v82) S5000x10.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v82) S5000x10.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg11) S10x4.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v83) S1x4.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v84) S5000x4.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S100000x10 : Shape := ⟨2, ![100000, 10]⟩
abbrev S2x6400000 : Shape := ⟨2, ![2, 6400000]⟩
abbrev S6400000 : Shape := ⟨1, ![6400000]⟩
abbrev S10x30 : Shape := ⟨2, ![10, 30]⟩
abbrev S30 : Shape := ⟨1, ![30]⟩
abbrev S30x30 : Shape := ⟨2, ![30, 30]⟩
abbrev S30x10 : Shape := ⟨2, ![30, 10]⟩
abbrev S10 : Shape := ⟨1, ![10]⟩
abbrev S10x4 : Shape := ⟨2, ![10, 4]⟩
abbrev S4 : Shape := ⟨1, ![4]⟩
abbrev S100000 : Shape := ⟨1, ![100000]⟩
abbrev S1x6400000 : Shape := ⟨2, ![1, 6400000]⟩
abbrev S6500000 : Shape := ⟨1, ![6500000]⟩
abbrev S_ : Shape := ⟨0, ![]⟩
abbrev S100000x30 : Shape := ⟨2, ![100000, 30]⟩
abbrev S6500000x1 : Shape := ⟨2, ![6500000, 1]⟩
abbrev S6500000x30 : Shape := ⟨2, ![6500000, 30]⟩
abbrev S1x30 : Shape := ⟨2, ![1, 30]⟩
abbrev S1x10 : Shape := ⟨2, ![1, 10]⟩
abbrev S100000x4 : Shape := ⟨2, ![100000, 4]⟩
abbrev S1x4 : Shape := ⟨2, ![1, 4]⟩

abbrev nBuf : Space → Nat
  | .hbm => 196
  | .vmem => 0
  | .smem => 0
  | _ => 0

abbrev hbmTy0_0 (i : Nat) : BufTy := match i % 128 with
  | 0 => ⟨S100000x10, .f32⟩
  | 1 => ⟨S2x6400000, .i32⟩
  | 2 => ⟨S6400000, .f32⟩
  | 3 => ⟨S10x30, .f32⟩
  | 4 => ⟨S30, .f32⟩
  | 5 => ⟨S30x30, .f32⟩
  | 6 => ⟨S30, .f32⟩
  | 7 => ⟨S30x30, .f32⟩
  | 8 => ⟨S30, .f32⟩
  | 9 => ⟨S30x10, .f32⟩
  | 10 => ⟨S10, .f32⟩
  | 11 => ⟨S10x4, .f32⟩
  | 12 => ⟨S4, .f32⟩
  | 13 => ⟨S100000, .i32⟩
  | 14 => ⟨S1x6400000, .i32⟩
  | 15 => ⟨S6400000, .i32⟩
  | 16 => ⟨S6500000, .i32⟩
  | 17 => ⟨S1x6400000, .i32⟩
  | 18 => ⟨S6400000, .i32⟩
  | 19 => ⟨S6500000, .i32⟩
  | 20 => ⟨S_, .f32⟩
  | 21 => ⟨S100000, .f32⟩
  | 22 => ⟨S6500000, .f32⟩
  | 23 => ⟨S100000x30, .f32⟩
  | 24 => ⟨S_, .f32⟩
  | 25 => ⟨S100000, .f32⟩
  | 26 => ⟨S6500000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S6500000, .i32⟩
  | 38 => ⟨S6500000, .i1⟩
  | 39 => ⟨S_, .i32⟩
  | 40 => ⟨S6500000, .i32⟩
  | 41 => ⟨S6500000, .i32⟩
  | 42 => ⟨S6500000, .i32⟩
  | 43 => ⟨S6500000x1, .i32⟩
  | 44 => ⟨S6500000, .f32⟩
  | 45 => ⟨S6500000, .f32⟩
  | 46 => ⟨S_, .i32⟩
  | 47 => ⟨S6500000, .i32⟩
  | 48 => ⟨S6500000, .i1⟩
  | 49 => ⟨S_, .i32⟩
  | 50 => ⟨S6500000, .i32⟩
  | 51 => ⟨S6500000, .i32⟩
  | 52 => ⟨S6500000, .i32⟩
  | 53 => ⟨S6500000x1, .i32⟩
  | 54 => ⟨S6500000, .f32⟩
  | 55 => ⟨S6500000, .f32⟩
  | 56 => ⟨S_, .i32⟩
  | 57 => ⟨S6500000, .i32⟩
  | 58 => ⟨S6500000, .i1⟩
  | 59 => ⟨S_, .i32⟩
  | 60 => ⟨S6500000, .i32⟩
  | 61 => ⟨S6500000, .i32⟩
  | 62 => ⟨S6500000, .i32⟩
  | 63 => ⟨S6500000x1, .i32⟩
  | 64 => ⟨S6500000x30, .f32⟩
  | 65 => ⟨S6500000x1, .f32⟩
  | 66 => ⟨S6500000x30, .f32⟩
  | 67 => ⟨S6500000x30, .f32⟩
  | 68 => ⟨S_, .f32⟩
  | 69 => ⟨S100000x30, .f32⟩
  | 70 => ⟨S6500000x1, .i32⟩
  | 71 => ⟨S100000x30, .f32⟩
  | 72 => ⟨S1x30, .f32⟩
  | 73 => ⟨S100000x30, .f32⟩
  | 74 => ⟨S100000x30, .f32⟩
  | 75 => ⟨S100000x30, .f32⟩
  | 76 => ⟨S_, .f32⟩
  | 77 => ⟨S100000, .f32⟩
  | 78 => ⟨S6500000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S6500000, .i32⟩
  | 90 => ⟨S6500000, .i1⟩
  | 91 => ⟨S_, .i32⟩
  | 92 => ⟨S6500000, .i32⟩
  | 93 => ⟨S6500000, .i32⟩
  | 94 => ⟨S6500000, .i32⟩
  | 95 => ⟨S6500000x1, .i32⟩
  | 96 => ⟨S6500000, .f32⟩
  | 97 => ⟨S6500000, .f32⟩
  | 98 => ⟨S_, .i32⟩
  | 99 => ⟨S6500000, .i32⟩
  | 100 => ⟨S6500000, .i1⟩
  | 101 => ⟨S_, .i32⟩
  | 102 => ⟨S6500000, .i32⟩
  | 103 => ⟨S6500000, .i32⟩
  | 104 => ⟨S6500000, .i32⟩
  | 105 => ⟨S6500000x1, .i32⟩
  | 106 => ⟨S6500000, .f32⟩
  | 107 => ⟨S6500000, .f32⟩
  | 108 => ⟨S_, .i32⟩
  | 109 => ⟨S6500000, .i32⟩
  | 110 => ⟨S6500000, .i1⟩
  | 111 => ⟨S_, .i32⟩
  | 112 => ⟨S6500000, .i32⟩
  | 113 => ⟨S6500000, .i32⟩
  | 114 => ⟨S6500000, .i32⟩
  | 115 => ⟨S6500000x1, .i32⟩
  | 116 => ⟨S6500000x30, .f32⟩
  | 117 => ⟨S6500000x1, .f32⟩
  | 118 => ⟨S6500000x30, .f32⟩
  | 119 => ⟨S6500000x30, .f32⟩
  | 120 => ⟨S_, .f32⟩
  | 121 => ⟨S100000x30, .f32⟩
  | 122 => ⟨S6500000x1, .i32⟩
  | 123 => ⟨S100000x30, .f32⟩
  | 124 => ⟨S1x30, .f32⟩
  | 125 => ⟨S100000x30, .f32⟩
  | 126 => ⟨S100000x30, .f32⟩
  | 127 => ⟨S_, .f32⟩
  | _ => ⟨S100000x10, .f32⟩

abbrev hbmTy0_1 (i : Nat) : BufTy := match i % 128 with
  | 0 => ⟨S100000x30, .f32⟩
  | 1 => ⟨S100000x30, .f32⟩
  | 2 => ⟨S100000x30, .f32⟩
  | 3 => ⟨S_, .f32⟩
  | 4 => ⟨S100000, .f32⟩
  | 5 => ⟨S6500000x1, .i32⟩
  | 6 => ⟨S100000, .f32⟩
  | 7 => ⟨S_, .f32⟩
  | 8 => ⟨S100000, .f32⟩
  | 9 => ⟨S100000, .i1⟩
  | 10 => ⟨S100000, .f32⟩
  | 11 => ⟨S_, .f32⟩
  | 12 => ⟨S_, .f32⟩
  | 13 => ⟨S100000, .f32⟩
  | 14 => ⟨S100000, .f32⟩
  | 15 => ⟨S_, .i32⟩
  | 16 => ⟨S6500000, .i32⟩
  | 17 => ⟨S6500000, .i1⟩
  | 18 => ⟨S_, .i32⟩
  | 19 => ⟨S6500000, .i32⟩
  | 20 => ⟨S6500000, .i32⟩
  | 21 => ⟨S6500000, .i32⟩
  | 22 => ⟨S6500000x1, .i32⟩
  | 23 => ⟨S6500000, .f32⟩
  | 24 => ⟨S6500000, .f32⟩
  | 25 => ⟨S_, .i32⟩
  | 26 => ⟨S6500000, .i32⟩
  | 27 => ⟨S6500000, .i1⟩
  | 28 => ⟨S_, .i32⟩
  | 29 => ⟨S6500000, .i32⟩
  | 30 => ⟨S6500000, .i32⟩
  | 31 => ⟨S6500000, .i32⟩
  | 32 => ⟨S6500000x1, .i32⟩
  | 33 => ⟨S6500000, .f32⟩
  | 34 => ⟨S6500000, .f32⟩
  | 35 => ⟨S_, .i32⟩
  | 36 => ⟨S6500000, .i32⟩
  | 37 => ⟨S6500000, .i1⟩
  | 38 => ⟨S_, .i32⟩
  | 39 => ⟨S6500000, .i32⟩
  | 40 => ⟨S6500000, .i32⟩
  | 41 => ⟨S6500000, .i32⟩
  | 42 => ⟨S6500000x1, .i32⟩
  | 43 => ⟨S6500000x30, .f32⟩
  | 44 => ⟨S6500000x1, .f32⟩
  | 45 => ⟨S6500000x30, .f32⟩
  | 46 => ⟨S6500000x30, .f32⟩
  | 47 => ⟨S_, .f32⟩
  | 48 => ⟨S100000x30, .f32⟩
  | 49 => ⟨S6500000x1, .i32⟩
  | 50 => ⟨S100000x30, .f32⟩
  | 51 => ⟨S1x30, .f32⟩
  | 52 => ⟨S100000x30, .f32⟩
  | 53 => ⟨S100000x30, .f32⟩
  | 54 => ⟨S_, .f32⟩
  | 55 => ⟨S100000x30, .f32⟩
  | 56 => ⟨S100000x30, .f32⟩
  | 57 => ⟨S100000x10, .f32⟩
  | 58 => ⟨S1x10, .f32⟩
  | 59 => ⟨S100000x10, .f32⟩
  | 60 => ⟨S100000x10, .f32⟩
  | 61 => ⟨S_, .f32⟩
  | 62 => ⟨S100000x10, .f32⟩
  | 63 => ⟨S100000x10, .f32⟩
  | 64 => ⟨S100000x4, .f32⟩
  | 65 => ⟨S1x4, .f32⟩
  | 66 => ⟨S100000x4, .f32⟩
  | 67 => ⟨S100000x4, .f32⟩
  | _ => ⟨S100000x10, .f32⟩

abbrev hbmTy (i : Nat) : BufTy := match i / 128 with
  | 0 => hbmTy0_0 i
  | 1 => hbmTy0_1 i
  | _ => ⟨S100000x10, .f32⟩

abbrev bufTy : (tb : Table) → Fin (tcTables nBuf tb) → BufTy
  | .hbm, ⟨i, _⟩ => hbmTy i
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_call1_v0 : Ref sig .tc := ⟨.hbm, 85, rfl⟩
abbrev main_call1_v1 : Ref sig .tc := ⟨.hbm, 86, rfl⟩
abbrev main_v56 : Ref sig .tc := ⟨.hbm, 87, rfl⟩
abbrev main_c_12 : Ref sig .tc := ⟨.hbm, 88, rfl⟩
abbrev main_v57 : Ref sig .tc := ⟨.hbm, 89, rfl⟩
abbrev main_v58 : Ref sig .tc := ⟨.hbm, 90, rfl⟩
abbrev main_c_13 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_14 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_16 : Ref sig .tc := ⟨.hbm, 108, rfl⟩
abbrev main_v73 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_18 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_call2_cst : Ref sig .tc := ⟨.hbm, 127, rfl⟩
abbrev main_call2_v0 : Ref sig .tc := ⟨.hbm, 128, rfl⟩
abbrev main_v89 : Ref sig .tc := ⟨.hbm, 129, rfl⟩
abbrev main_v90 : Ref sig .tc := ⟨.hbm, 130, rfl⟩
abbrev main_cst_19 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_20 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_21 : Ref sig .tc := ⟨.hbm, 139, rfl⟩
abbrev main_call3_v0 : Ref sig .tc := ⟨.hbm, 140, rfl⟩
abbrev main_call3_v1 : Ref sig .tc := ⟨.hbm, 141, rfl⟩
abbrev main_v97 : Ref sig .tc := ⟨.hbm, 142, rfl⟩
abbrev main_c_22 : Ref sig .tc := ⟨.hbm, 143, rfl⟩
abbrev main_v98 : Ref sig .tc := ⟨.hbm, 144, rfl⟩
abbrev main_v99 : Ref sig .tc := ⟨.hbm, 145, rfl⟩
abbrev main_c_23 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_c_24 : Ref sig .tc := ⟨.hbm, 153, rfl⟩
abbrev main_v106 : Ref sig .tc := ⟨.hbm, 154, rfl⟩
abbrev main_v107 : Ref sig .tc := ⟨.hbm, 155, rfl⟩
abbrev main_c_25 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_c_26 : Ref sig .tc := ⟨.hbm, 163, rfl⟩
abbrev main_v114 : Ref sig .tc := ⟨.hbm, 164, rfl⟩
abbrev main_v115 : Ref sig .tc := ⟨.hbm, 165, rfl⟩
abbrev main_c_27 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_28 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_call4_cst : Ref sig .tc := ⟨.hbm, 182, rfl⟩
abbrev main_call4_v0 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_call5_cst : Ref sig .tc := ⟨.hbm, 189, rfl⟩
abbrev main_call5_v0 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S100000 : S_.BroadcastsInDim S100000 (![] : Fin 0 → Fin S100000.rank)
  bcast_S6500000_S6500000x1_0 : S6500000.BroadcastsInDim S6500000x1 (![0] : Fin 1 → Fin S6500000x1.rank)
  bcast_S_S6500000 : S_.BroadcastsInDim S6500000 (![] : Fin 0 → Fin S6500000.rank)
  bcast_S6500000x1_S6500000x30_0_1 : S6500000x1.BroadcastsInDim S6500000x30 (![0, 1] : Fin 2 → Fin S6500000x30.rank)
  bcast_S_S100000x30 : S_.BroadcastsInDim S100000x30 (![] : Fin 0 → Fin S100000x30.rank)
  bcast_S30_S1x30_1 : S30.BroadcastsInDim S1x30 (![1] : Fin 1 → Fin S1x30.rank)
  bcast_S1x30_S100000x30_0_1 : S1x30.BroadcastsInDim S100000x30 (![0, 1] : Fin 2 → Fin S100000x30.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S_S100000x10 : S_.BroadcastsInDim S100000x10 (![] : Fin 0 → Fin S100000x10.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  dot_S100000x10_S10x30_S100000x30_1_0_0_1_n_n_wf : DotDims.WF S100000x10 S10x30 S100000x30 [1] [0] [0] [1] [] []
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  gather_S100000x30_S6500000x1_S6500000x30_1_0_n_n_0_1_130_wf : GatherDims.WF S100000x30 S6500000x1 S6500000x30 [1] [0] [] [0] [] 1 ![1, 30]
  scatter_S100000x30_S6500000x1_S6500000x30_1_0_0_1_wf : ScatterDims.WF S100000x30 S6500000x1 S6500000x30 [1] [0] [0] 1
  dot_S100000x30_S30x30_S100000x30_1_0_0_1_n_n_wf : DotDims.WF S100000x30 S30x30 S100000x30 [1] [0] [0] [1] [] []
  dot_S100000x30_S30x10_S100000x10_1_0_0_1_n_n_wf : DotDims.WF S100000x30 S30x10 S100000x10 [1] [0] [0] [1] [] []
  dot_S100000x10_S10x4_S100000x4_1_0_0_1_n_n_wf : DotDims.WF S100000x10 S10x4 S100000x4 [1] [0] [0] [1] [] []

variable [Facts₀]

def dot_S100000x10_S10x30_S100000x30_1_0_0_1_n_n : DotDims S100000x10 S10x30 S100000x30 where
  lhsContracting := [1]
  rhsContracting := [0]
  lhsNonContracting := [0]
  rhsNonContracting := [1]
  lhsBatch := []
  rhsBatch := []
  wf := dot_S100000x10_S10x30_S100000x30_1_0_0_1_n_n_wf
def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def gather_S100000x30_S6500000x1_S6500000x30_1_0_n_n_0_1_130 : GatherDims S100000x30 S6500000x1 S6500000x30 where
  offsetDims := [1]
  collapsedSliceDims := [0]
  operandBatchingDims := []
  startIndicesBatchingDims := []
  startIndexMap := [0]
  indexVectorDim := 1
  sliceSizes := ![1, 30]
  wf := gather_S100000x30_S6500000x1_S6500000x30_1_0_n_n_0_1_130_wf
def scatter_S100000x30_S6500000x1_S6500000x30_1_0_0_1 : ScatterDims S100000x30 S6500000x1 S6500000x30 where
  updateWindowDims := [1]
  insertedWindowDims := [0]
  scatterDimsToOperandDims := [0]
  indexVectorDim := 1
  wf := scatter_S100000x30_S6500000x1_S6500000x30_1_0_0_1_wf
def dot_S100000x30_S30x30_S100000x30_1_0_0_1_n_n : DotDims S100000x30 S30x30 S100000x30 where
  lhsContracting := [1]
  rhsContracting := [0]
  lhsNonContracting := [0]
  rhsNonContracting := [1]
  lhsBatch := []
  rhsBatch := []
  wf := dot_S100000x30_S30x30_S100000x30_1_0_0_1_n_n_wf
def dot_S100000x30_S30x10_S100000x10_1_0_0_1_n_n : DotDims S100000x30 S30x10 S100000x10 where
  lhsContracting := [1]
  rhsContracting := [0]
  lhsNonContracting := [0]
  rhsNonContracting := [1]
  lhsBatch := []
  rhsBatch := []
  wf := dot_S100000x30_S30x10_S100000x10_1_0_0_1_n_n_wf
def dot_S100000x10_S10x4_S100000x4_1_0_0_1_n_n : DotDims S100000x10 S10x4 S100000x4 where
  lhsContracting := [1]
  rhsContracting := [0]
  lhsNonContracting := [0]
  rhsNonContracting := [1]
  lhsBatch := []
  rhsBatch := []
  wf := dot_S100000x10_S10x4_S100000x4_1_0_0_1_n_n_wf

class Facts : Prop extends Facts₀ where

variable [Facts]
-- ==== Proof.KernelRun.lean ====
/-
  THE KERNEL PROGRAM'S RUN WITH ITS RESULT NAMED.

  The program is eleven calls among stretches of host operations.  Its run is a chain of boundary contents: each
  stretch of host operations turns the contents at its start into the contents at its end, and each call replaces its
  output array by what its blocks wrote and leaves every other array alone.  The run below is the run that proves the
  arguments unchanged, read once more at the result array: every execution ends with the result array at the contents
  the last boundary holds for it.  What those contents are, as a function of the arguments, is a separate matter of
  walking the chain back.
-/
import proofs.«163669_j81638738363110_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN WITH ITS RESULT NAMED: every weakly fair execution of the program terminates, nothing faulting, with the
    result array at the contents the last boundary of the run holds for it, and the argument arrays as launched. -/
theorem run_value : θ_run defs (onTc (τ := τ) (main (F := F))) ⟨m, fun _ => 0, ρ⟩ (fun r => ∀ c : Dev nD,
      r.2.mem ((c.tc : Thread nD τ).loc main_v84) = W24 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v84 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c)⟩)

end Cert.KernelIdeal.RunValue

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«163669_j81638738363110_2_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«163669_j81638738363110_2_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«163669_j81638738363110_2_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«163669_j81638738363110_2_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.LibProdRows.lean ====
/-
  A MATRIX PRODUCT AS A WHOLE ARRAY, AND SUMS OF ARRAYS, ROW BY ROW, at the ideal values.

  Over LibRegionRows' `prodArr A W` (the product of an `[R, K]` and a `[K, N]` array, entry `(p, c)` being
  `∑ k, A (p, k) · W (k, c)`), generic in every extent:
  • `kprod`: on the vector unit, the matrix product into a zero accumulator over the plain dimension record IS `prodArr`;
  • `hprod`: on the host, `dot_general` over the plain record IS `prodArr`;
  • `prodArr_rows`: row `p` of a product depends on row `p` of the left operand and on nothing else of it;
  • `addArr`, `addArr_rows`: two arrays added entry by entry, and the same locality.
  Together with LibDenseRow's `layerArr_rows` and `actArr_rows` these say that a network of products, dense layers,
  rectifiers and residual sums computed on a block of rows is that block of rows of the network computed on the whole.
  Sums are compared term by term in the same order: no algebra of the extended reals is used.
-/
import proofs.«163669_j81638738363110_2_alg».proof.Proof.LibRegionRows

noncomputable section

open scoped BigOperators

namespace Cert.ProdRows

open Idealize.ShloMosaic Idealize.ShloMosaic.ValueIdx Cert.DenseRow
open Cert.KernelIdeal.RegionValue (prodArr prodArr_apply)

/-- The vector unit's product into the zero accumulator, as a whole array. -/
theorem kprod {R K N : ℕ} {φ₁ φ₂ : FTy} (prec : Option ContractPrecision)
    (a : FVec Ideal ⟨2, ![R, K]⟩ φ₁) (w : FVec Ideal ⟨2, ![K, N]⟩ φ₂) :
    matmul (DotDims.plain R K N) prec a w (constant ⟨2, ![R, N]⟩ .f32 0x00000000#32) = prodArr a w := by
  funext i
  obtain ⟨p, c, rfl⟩ : ∃ (p : Fin R) (c : Fin N), i = ix2 p c := ⟨i 0, i 1, eq_ix2 i⟩
  exact Cert.BlockDot.kdot_apply prec a w p c

/-- The host's `dot_general`, as a whole array. -/
theorem hprod {R K N : ℕ} {φ₁ φ₂ : FTy} (prec : Option ContractPrecision)
    (a : FVec Ideal ⟨2, ![R, K]⟩ φ₁) (w : FVec Ideal ⟨2, ![K, N]⟩ φ₂) :
    Host.dotGeneral (DotDims.plain R K N) prec a w = prodArr a w := by
  funext i
  obtain ⟨p, c, rfl⟩ : ∃ (p : Fin R) (c : Fin N), i = ix2 p c := ⟨i 0, i 1, eq_ix2 i⟩
  exact Cert.BlockDot.hdot_apply prec a w p c

/-- Row `p` of a product depends on row `p` of the left operand only. -/
theorem prodArr_rows {R R' K N : ℕ} (a : (⟨2, ![R, K]⟩ : Shape).Idx → EReal) (A : (⟨2, ![R', K]⟩ : Shape).Idx → EReal)
    (w : (⟨2, ![K, N]⟩ : Shape).Idx → EReal) (p : Fin R) (p' : Fin R')
    (h : ∀ k : Fin K, a (ix2 p k) = A (ix2 p' k)) (c : Fin N) : prodArr a w (ix2 p c) = prodArr A w (ix2 p' c) := by
  rw [prodArr_apply, prodArr_apply]
  exact Finset.sum_congr rfl fun k _ => by rw [h k]

/-- Two arrays added entry by entry. -/
def addArr {s : Shape} (x y : s.Idx → EReal) : s.Idx → EReal := fun i => x i + y i

/-- On either unit, the float sum of two arrays at the ideal values. -/
theorem addf_eq {s : Shape} {φ : FTy} (x y : FVec Ideal s φ) : addf x y = addArr x y := rfl

theorem addArr_rows {R R' N : ℕ} (x y : (⟨2, ![R, N]⟩ : Shape).Idx → EReal) (X Y : (⟨2, ![R', N]⟩ : Shape).Idx → EReal)
    (p : Fin R) (p' : Fin R') (hx : ∀ k : Fin N, x (ix2 p k) = X (ix2 p' k)) (hy : ∀ k : Fin N, y (ix2 p k) = Y (ix2 p' k))
    (c : Fin N) : addArr x y (ix2 p c) = addArr X Y (ix2 p' c) := by
  show x (ix2 p c) + y (ix2 p c) = X (ix2 p' c) + Y (ix2 p' c)
  rw [hx c, hy c]

end Cert.ProdRows

end
-- ==== Proof.RowOps.lean ====
/-
  ROW OPERATIONS OF A GRAPH CONVOLUTION, at the ideal values.

  Besides its dense layers a graph convolution applies three operations that act on each row of an array by itself:
  • every row `p` of an `[R, N]` array multiplied by one number, the entry `p` of a column `[R, 1]` (`scaleArr`):
    a message `h[src]` weighted by its edge's normalisation;
  • a bias vector `[N]` added to every row (`biasArr`);
  • a dense layer whose bias is zero, which is the plain product (`layerArr_zero`): adding the real number zero
    changes no extended real, infinite or not.
  Each is read in its vector-unit spelling (a column or a row broadcast over the block) and in its host spelling
  (`broadcast_in_dim`), as one whole-array function generic in the row count, with its row locality: row `p` of the
  result depends on row `p` of the operands only.  Apart from `x + 0 = x` no algebra of the extended reals is used.
-/
import proofs.«163669_j81638738363110_2_alg».proof.Proof.LibRowBias
import proofs.«163669_j81638738363110_2_alg».proof.Proof.LibProdRows

noncomputable section

open scoped BigOperators

namespace Cert.RowOps

open Idealize.ShloMosaic Idealize.ShloMosaic.ValueIdx Cert.DenseRow Cert.RowBias
open Cert.KernelIdeal.RegionValue (prodArr prodArr_apply)

/-! ## A column broadcast over the columns -/

/-- A column `[a, 1]` broadcast to `[a, b]`, read at `(p, c)`: the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Rows scaled by a column -/

/-- Row `p` of `h` multiplied by the entry `p` of the column `s`. -/
def scaleArr {R N : ℕ} (h : (⟨2, ![R, N]⟩ : Shape).Idx → EReal) (s : (⟨2, ![R, 1]⟩ : Shape).Idx → EReal) :
    (⟨2, ![R, N]⟩ : Shape).Idx → EReal :=
  fun i => h i * s (ix2 (i 0) (0 : Fin 1))

theorem scaleArr_apply {R N : ℕ} (h : (⟨2, ![R, N]⟩ : Shape).Idx → EReal) (s : (⟨2, ![R, 1]⟩ : Shape).Idx → EReal)
    (p : Fin R) (c : Fin N) : scaleArr h s (ix2 p c) = h (ix2 p c) * s (ix2 p (0 : Fin 1)) := rfl

/-- On the vector unit: the block times the column cast to itself and broadcast over the columns. -/
theorem kscale {R N : ℕ} (x : FVec Ideal ⟨2, ![R, N]⟩ .f32) (s : FVec Ideal ⟨2, ![R, 1]⟩ .f32)
    (hx : (⟨2, ![R, N]⟩ : Shape).ShapeCasts ⟨2, ![R, N]⟩) (hs : (⟨2, ![R, 1]⟩ : Shape).ShapeCasts ⟨2, ![R, 1]⟩)
    (hb : (⟨2, ![R, 1]⟩ : Shape).Broadcasts ⟨2, ![R, N]⟩) :
    mulf (shapeCast ⟨2, ![R, N]⟩ x hx) (broadcastTo ⟨2, ![R, N]⟩ (shapeCast ⟨2, ![R, 1]⟩ s hs) hb) = scaleArr x s := by
  funext i
  obtain ⟨p, c, rfl⟩ : ∃ (p : Fin R) (c : Fin N), i = ix2 p c := ⟨i 0, i 1, eq_ix2 i⟩
  show shapeCast ⟨2, ![R, N]⟩ x hx (ix2 p c) * broadcastTo ⟨2, ![R, N]⟩ (shapeCast ⟨2, ![R, 1]⟩ s hs) hb (ix2 p c) = _
  rw [shapeCast_self, broadcastTo_a1_ab_apply, shapeCast_self]
  rfl

/-- On the host: the array times the column broadcast over the columns. -/
theorem hscale {R N : ℕ} (x : FVec Ideal ⟨2, ![R, N]⟩ .f32) (s : FVec Ideal ⟨2, ![R, 1]⟩ .f32)
    (h : (⟨2, ![R, 1]⟩ : Shape).BroadcastsInDim ⟨2, ![R, N]⟩ ![0, 1]) :
    mulf x (broadcastInDim ⟨2, ![R, N]⟩ ![0, 1] h s) = scaleArr x s := by
  funext i
  obtain ⟨p, c, rfl⟩ : ∃ (p : Fin R) (c : Fin N), i = ix2 p c := ⟨i 0, i 1, eq_ix2 i⟩
  show x (ix2 p c) * broadcastInDim ⟨2, ![R, N]⟩ ![0, 1] h s (ix2 p c) = _
  rw [broadcastInDim_apply _ h s (ix2 p c) (ix2 p (0 : Fin 1)) fun ax => by
    match ax with
    | ⟨0, _⟩ =>
      show p.val = if R = 1 then 0 else p.val
      split
      · have := p.isLt; omega
      · rfl
    | ⟨1, _⟩ => show 0 = if (1 : ℕ) = 1 then 0 else c.val; rw [if_pos rfl]]
  rfl

/-- Row `p` of the scaled array depends on row `p` of the array and entry `p` of the column only. -/
theorem scaleArr_rows {R R' N : ℕ} (x : (⟨2, ![R, N]⟩ : Shape).Idx → EReal) (s : (⟨2, ![R, 1]⟩ : Shape).Idx → EReal)
    (X : (⟨2, ![R', N]⟩ : Shape).Idx → EReal) (S : (⟨2, ![R', 1]⟩ : Shape).Idx → EReal) (p : Fin R) (p' : Fin R')
    (hx : ∀ k : Fin N, x (ix2 p k) = X (ix2 p' k)) (hs : s (ix2 p (0 : Fin 1)) = S (ix2 p' (0 : Fin 1))) (c : Fin N) :
    scaleArr x s (ix2 p c) = scaleArr X S (ix2 p' c) := by
  rw [scaleArr_apply, scaleArr_apply, hx c, hs]

/-! ## A bias added to every row -/

/-- The vector `b` added to every row of `x`. -/
def biasArr {R N : ℕ} (x : (⟨2, ![R, N]⟩ : Shape).Idx → EReal) (b : (⟨1, ![N]⟩ : Shape).Idx → EReal) :
    (⟨2, ![R, N]⟩ : Shape).Idx → EReal :=
  fun i => x i + b (ix1 (i 1))

theorem biasArr_apply {R N : ℕ} (x : (⟨2, ![R, N]⟩ : Shape).Idx → EReal) (b : (⟨1, ![N]⟩ : Shape).Idx → EReal)
    (p : Fin R) (c : Fin N) : biasArr x b (ix2 p c) = x (ix2 p c) + b (ix1 c) := rfl

/-- On the vector unit: the block plus the one-row bias cast to itself and broadcast over the rows. -/
theorem kbias {R N : ℕ} (x : FVec Ideal ⟨2, ![R, N]⟩ .f32) (v : FVec Ideal ⟨2, ![1, N]⟩ .f32)
    (hx : (⟨2, ![R, N]⟩ : Shape).ShapeCasts ⟨2, ![R, N]⟩) (hv : (⟨2, ![1, N]⟩ : Shape).ShapeCasts ⟨2, ![1, N]⟩)
    (hb : (⟨2, ![1, N]⟩ : Shape).Broadcasts ⟨2, ![R, N]⟩) :
    addf (shapeCast ⟨2, ![R, N]⟩ x hx) (broadcastTo ⟨2, ![R, N]⟩ (shapeCast ⟨2, ![1, N]⟩ v hv) hb) = biasArr x (unrow v) := by
  funext i
  obtain ⟨p, c, rfl⟩ : ∃ (p : Fin R) (c : Fin N), i = ix2 p c := ⟨i 0, i 1, eq_ix2 i⟩
  show shapeCast ⟨2, ![R, N]⟩ x hx (ix2 p c) + broadcastTo ⟨2, ![R, N]⟩ (shapeCast ⟨2, ![1, N]⟩ v hv) hb (ix2 p c) = _
  rw [shapeCast_self, broadcastTo_1b_ab_apply, shapeCast_self]
  rfl

/-- On the host: the array plus the bias broadcast to one row and then over the rows. -/
theorem hbias {R N : ℕ} (x : FVec Ideal ⟨2, ![R, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf x (broadcastInDim ⟨2, ![R, N]⟩ ![0, 1] h2 (broadcastInDim ⟨2, ![1, N]⟩ ![1] h1 b)) = biasArr x b := by
  funext i
  obtain ⟨p, c, rfl⟩ : ∃ (p : Fin R) (c : Fin N), i = ix2 p c := ⟨i 0, i 1, eq_ix2 i⟩
  show x (ix2 p c) + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  rfl

/-- Row `p` of the biased array depends on row `p` of the array only. -/
theorem biasArr_rows {R R' N : ℕ} (x : (⟨2, ![R, N]⟩ : Shape).Idx → EReal) (X : (⟨2, ![R', N]⟩ : Shape).Idx → EReal)
    (b : (⟨1, ![N]⟩ : Shape).Idx → EReal) (p : Fin R) (p' : Fin R') (hx : ∀ k : Fin N, x (ix2 p k) = X (ix2 p' k)) (c : Fin N) :
    biasArr x b (ix2 p c) = biasArr X b (ix2 p' c) := by
  rw [biasArr_apply, biasArr_apply, hx c]

/-! ## A dense layer with the zero bias -/

/-- The zero word denotes the real number zero. -/
theorem zf_eq : zf = 0 := Ideal.ofBits_zero_f32

/-- A dense layer whose bias is the zero word at every entry is the plain product: `s + 0 = s` on the extended reals. -/
theorem layerArr_zero {R K N : ℕ} (a : (⟨2, ![R, K]⟩ : Shape).Idx → EReal) (w : (⟨2, ![K, N]⟩ : Shape).Idx → EReal)
    (b : (⟨1, ![N]⟩ : Shape).Idx → EReal) (hb : ∀ j, b j = zf) : layerArr a w b = prodArr a w := by
  funext i
  obtain ⟨p, c, rfl⟩ : ∃ (p : Fin R) (c : Fin N), i = ix2 p c := ⟨i 0, i 1, eq_ix2 i⟩
  rw [layerArr_apply, prodArr_apply]
  show (∑ k : Fin K, a (ix2 p k) * w (ix2 k c)) + b (ix1 c) = _
  rw [hb, zf_eq, add_zero]

/-! ## Blocks of rows

A grid of blocks of rows computes a row-local function block by block: the block at offset `off` holds rows
`off, off + 1, …` of each tall operand, the small operands are whole at every block.  Entry `j` of the block's result is
then entry `i` of the whole arrays' result, where `i` is `j` moved down by `off` rows.  The relation between a block and
its array is a hypothesis on coordinates' values, so that it can be supplied from a window's index arithmetic. -/

/-- A dense layer on a block of rows is that block of rows of the layer on the whole array. -/
theorem layerArr_block {R R' K N : ℕ} (a : (⟨2, ![R, K]⟩ : Shape).Idx → EReal) (A : (⟨2, ![R', K]⟩ : Shape).Idx → EReal)
    (w W : (⟨2, ![K, N]⟩ : Shape).Idx → EReal) (b B : (⟨1, ![N]⟩ : Shape).Idx → EReal) (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → a y = A z)
    (hw : ∀ y, w y = W y) (hb : ∀ y, b y = B y) : layerArr a w b j = layerArr A W B i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  rw [layerArr_apply, layerArr_apply]
  show (∑ k : Fin K, a (ix2 p k) * w (ix2 k c')) + b (ix1 c') = (∑ k : Fin K, A (ix2 p' k) * W (ix2 k c')) + B (ix1 c')
  rw [hb]
  exact congrArg (· + B (ix1 c')) (Finset.sum_congr rfl fun k _ => by rw [ha (ix2 p k) (ix2 p' k) hi0 rfl, hw])

/-- The activation at an entry depends on that entry only. -/
theorem actArr_at {s s' : Shape} (z : EReal) (y : s.Idx → EReal) (Y : s'.Idx → EReal) (j : s.Idx) (i : s'.Idx)
    (h : y j = Y i) : actArr z y j = actArr z Y i := by
  show max (y j) z = max (Y i) z
  rw [h]

/-- Rows scaled by a column, on a block of rows. -/
theorem scaleArr_block {R R' N : ℕ} (x : (⟨2, ![R, N]⟩ : Shape).Idx → EReal) (s : (⟨2, ![R, 1]⟩ : Shape).Idx → EReal)
    (X : (⟨2, ![R', N]⟩ : Shape).Idx → EReal) (S : (⟨2, ![R', 1]⟩ : Shape).Idx → EReal) (off : ℕ)
    (j : (⟨2, ![R, N]⟩ : Shape).Idx) (i : (⟨2, ![R', N]⟩ : Shape).Idx)
    (hi0 : (i 0).val = off + (j 0).val) (hi1 : (i 1).val = (j 1).val)
    (hx : ∀ (y : (⟨2, ![R, N]⟩ : Shape).Idx) (z : (⟨2, ![R', N]⟩ : Shape).Idx),
      (z 0).val = off + (y 0).val → (z 1).val = (y 1).val → x y = X z)
    (hs : ∀ (y : (⟨2, ![R, 1]⟩ : Shape).Idx) (z : (⟨2, ![R', 1]⟩ : Shape).Idx),
      (z 0).val = off + (y 0).val → (z 1).val = (y 1).val → s y = S z) : scaleArr x s j = scaleArr X S i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  rw [scaleArr_apply, scaleArr_apply, hx (ix2 p c') (ix2 p' c') hi0 rfl, hs (ix2 p (0 : Fin 1)) (ix2 p' (0 : Fin 1)) hi0 rfl]

/-- A bias added to every row, on a block of rows. -/
theorem biasArr_block {R R' N : ℕ} (x : (⟨2, ![R, N]⟩ : Shape).Idx → EReal) (X : (⟨2, ![R', N]⟩ : Shape).Idx → EReal)
    (b B : (⟨1, ![N]⟩ : Shape).Idx → EReal) (off : ℕ)
    (j : (⟨2, ![R, N]⟩ : Shape).Idx) (i : (⟨2, ![R', N]⟩ : Shape).Idx)
    (hi0 : (i 0).val = off + (j 0).val) (hi1 : (i 1).val = (j 1).val)
    (hx : ∀ (y : (⟨2, ![R, N]⟩ : Shape).Idx) (z : (⟨2, ![R', N]⟩ : Shape).Idx),
      (z 0).val = off + (y 0).val → (z 1).val = (y 1).val → x y = X z)
    (hb : ∀ y, b y = B y) : biasArr x b j = biasArr X B i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  rw [biasArr_apply, biasArr_apply, hx (ix2 p c') (ix2 p' c') hi0 rfl, hb]

/-- The one row of a whole one-row array read through the identity block is that row. -/
theorem unrow_congr {N : ℕ} (v V : (⟨2, ![1, N]⟩ : Shape).Idx → EReal) (h : ∀ y, v y = V y) (y : (⟨1, ![N]⟩ : Shape).Idx) :
    unrow v y = unrow V y := h _

end Cert.RowOps

end
-- ==== Proof.Region0.lean ====
/-
  THE FIRST DENSE LAYER'S CALL, as one function of the arrays it finds.

  The call walks twenty blocks of 5000 rows.  At block `t` its body reads rows `5000 t … 5000 t + 4999` of the
  `[100000, 10]` operand, the whole `[10, 30]` weight and the whole one-row bias, and writes rows
  `5000 t … 5000 t + 4999` of the `[100000, 30]` result: the dense layer `x ↦ x · w + b` of those rows.  A dense layer
  acts on each row by itself, so the twenty blocks together are the dense layer of the whole operand — whatever the
  arrays hold when the call is entered.
-/
import proofs.«163669_j81638738363110_2_alg».proof.Proof.Gen.KernelIdeal.Frame
import proofs.«163669_j81638738363110_2_alg».proof.Proof.RowOps
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Cert.DenseRow Cert.RowBias Cert.RowOps

variable (V : (c : Dev nD) → (b : Ref sig .tc) → Buf (Elt Ideal) ((c : Thread nD τ).loc b))

theorem hz : (![0, 0] : Fin 2 → Nat) = fun _ => 0 := funext fun a => by fin_cases a <;> rfl

/-- The body's arithmetic is the dense layer of its block of rows (the casts to the narrower format change nothing). -/
theorem pay (x0 : Vec Ideal S5000x10 .f32) (x1 : Vec Ideal S10x30 .f32) (x2 : Vec Ideal S1x30 .f32) :
    k0_pay1 x0 x1 x2 = layerArr (R := 5000) (K := 10) (N := 30) x0 x1 (unrow x2) := by
  unfold k0_pay1
  exact klayer1Arr (DotDims.plain 5000 10 30) rfl rfl (Cert.PlainDot.lhs_at 5000 10 30) (Cert.PlainDot.rhs_at 5000 10 30)
    none _ _ x2 _ _

/-- The windows' index maps over the grid: the operand's and the result's blocks move together down the rows, the
    weight and the bias stay whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The result array as one function of the arrays the call finds: the dense layer of every row. -/
def G (c : Dev nD) : S100000x30.Idx → EReal :=
  layerArr (R := 100000) (K := 10) (N := 30) (V c (Pipeline.arrRef spec0 0)) (V c (Pipeline.arrRef spec0 1))
    (unrow (N := 30) (V c (Pipeline.arrRef spec0 2)))

/-- What block `t` writes back is block `t` of `G`. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x10) hz, View.ld_unit_zero (S := S10x30) hz, View.ld_unit_zero (S := S1x30) hz]
  rw [pay]
  obtain ⟨e00, e01, e10, e11, e20, e21, e30, e31⟩ := idx_facts t
  funext j
  show layerArr (R := 5000) (K := 10) (N := 30) (iblk0 V c 0 t) (iblk0 V c 1 t) (unrow (iblk0 V c 2 t)) j
    = G V c (((cfg0.win 3).blk t).view.emb j)
  unfold G
  refine layerArr_block _ _ _ _ _ _ (t.val * 5000) j _ ?_ ?_ ?_ ?_ ?_
  · show win0_3.index t (0 : Fin 2) * 5000 + 1 * (j 0).val = t.val * 5000 + (j 0).val
    omega
  · show win0_3.index t (1 : Fin 2) * 30 + 1 * (j 1).val = (j 1).val
    omega
  · intro y z h0 h1
    show V c (Pipeline.arrRef spec0 0) (((cfg0.win 0).blk t).view.emb y) = V c (Pipeline.arrRef spec0 0) z
    refine congrArg _ (funext fun a => Fin.ext ?_)
    match a with
    | ⟨0, _⟩ => show win0_0.index t (0 : Fin 2) * 5000 + 1 * (y 0).val = (z 0).val; omega
    | ⟨1, _⟩ => show win0_0.index t (1 : Fin 2) * 10 + 1 * (y 1).val = (z 1).val; omega
  · intro y
    show V c (Pipeline.arrRef spec0 1) (((cfg0.win 1).blk t).view.emb y) = V c (Pipeline.arrRef spec0 1) y
    refine congrArg _ (funext fun a => Fin.ext ?_)
    match a with
    | ⟨0, _⟩ => show win0_1.index t (0 : Fin 2) * 10 + 1 * (y 0).val = (y 0).val; omega
    | ⟨1, _⟩ => show win0_1.index t (1 : Fin 2) * 30 + 1 * (y 1).val = (y 1).val; omega
  · intro y
    refine unrow_congr _ _ (fun u => ?_) y
    show V c (Pipeline.arrRef spec0 2) (((cfg0.win 2).blk t).view.emb u) = V c (Pipeline.arrRef spec0 2) u
    refine congrArg _ (funext fun a => Fin.ext ?_)
    match a with
    | ⟨0, _⟩ => show win0_2.index t (0 : Fin 2) * 1 + 1 * (u 0).val = (u 0).val; omega
    | ⟨1, _⟩ => show win0_2.index t (1 : Fin 2) * 30 + 1 * (u 1).val = (u 1).val; omega

/-- An index of the result array is in block `t` iff each coordinate is in the block's range on its axis. -/
theorem mem_blk (t : Fin cfg0.N) (i : S100000x30.Idx) :
    i ∈ ((cfg0.win 3).blk t).view.set ↔ ∀ a : Fin 2, win0_3.index t a * S5000x30.size a ≤ (i a).val
      ∧ (i a).val < win0_3.index t a * S5000x30.size a + S5000x30.size a := by
  show i ∈ ((View.whole main_v35).slice (win0_3.rect t)).set ↔ _
  rw [View.set_slice_whole, Rect.mem_set_unit]
  exact Iff.rfl

/-- Every row of the result lies in the block that holds it: row `r` in block `r / 5000`. -/
theorem cover (i : S100000x30.Idx) :
    ∃ t : Fin cfg0.N, (cfg0.win 3).flush t = true ∧ i ∈ ((cfg0.win 3).blk t).view.set := by
  have hi0 : (i 0).val < 100000 := (i 0).isLt
  have hi1 : (i 1).val < 30 := (i 1).isLt
  have hN : cfg0.N = 20 := N_0
  have ht : (i 0).val / 5000 < cfg0.N := by rw [hN]; omega
  refine ⟨⟨(i 0).val / 5000, ht⟩, flush0_3 _, ?_⟩
  obtain ⟨e00, e01, e10, e11, e20, e21, e30, e31⟩ := idx_facts ⟨(i 0).val / 5000, ht⟩
  rw [mem_blk]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win0_3.index ⟨(i 0).val / 5000, ht⟩ (1 : Fin 2) * 30 ≤ (i 1).val
      ∧ (i 1).val < win0_3.index ⟨(i 0).val / 5000, ht⟩ (1 : Fin 2) * 30 + 30
    rw [e31]
    omega

/-- THE RESULT ARRAY after the call is the dense layer of every row of the operand it found. -/
theorem final (c : Dev nD) : (dat0 V c).arrAt 3 cfg0.N = G V c :=
  (dat0 V c).arrAt_eq_of_cover 3 (G V c) (fun t _ => flushed_eq V c t) (cover)

end Cert.KernelIdeal.Region0

end
-- ==== Proof.Region1.lean ====
/-
  A MESSAGE-WEIGHTING CALL, as one function of the arrays it finds.

  The call walks 650 blocks of 10000 rows.  At block `t` its body reads rows `10000 t … 10000 t + 9999` of the
  `[6500000, 30]` array of gathered rows and the same rows of the `[6500000, 1]` column of edge weights, and writes those
  rows of the result: every row multiplied by its edge's weight.  Each row is scaled by itself, so the 650 blocks together
  are the whole array scaled row by row — whatever the arrays hold when the call is entered.
-/
import proofs.«163669_j81638738363110_2_alg».proof.Proof.Gen.KernelIdeal.Frame
import proofs.«163669_j81638738363110_2_alg».proof.Proof.RowOps
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Cert.DenseRow Cert.RowBias Cert.RowOps

variable (V : (c : Dev nD) → (b : Ref sig .tc) → Buf (Elt Ideal) ((c : Thread nD τ).loc b))

theorem hz : (![0, 0] : Fin 2 → Nat) = fun _ => 0 := funext fun a => by fin_cases a <;> rfl

/-- The body's arithmetic scales every row of its block by the column's entry for that row. -/
theorem pay (x0 : Vec Ideal S10000x30 .f32) (x1 : Vec Ideal S10000x1 .f32) :
    k1_pay1 x0 x1 = scaleArr (R := 10000) (N := 30) x0 x1 := by
  unfold k1_pay1
  exact kscale x0 x1 _ _ _

/-- The windows' index maps over the grid: the rows, the column and the result move together down the rows. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The result array as one function of the arrays the call finds: every row times its entry of the column. -/
def G (c : Dev nD) : S6500000x30.Idx → EReal :=
  scaleArr (R := 6500000) (N := 30) (V c (Pipeline.arrRef spec1 0)) (V c (Pipeline.arrRef spec1 1))

/-- What block `t` writes back is block `t` of `G`. -/
theorem flushed_eq (c : Dev nD) (t : Fin cfg1.N) :
    (dat1 V c).flushed 2 t = ((cfg1.win 2).blk t).view.read (Elt Ideal) (G V c) := by
  show (cfg1.win 2).cut (grid1.coords t) ((dat1 V c).after 2 t) = _
  rw [after1_2]
  unfold out1_2
  rw [View.canon_unit_zero hz]
  simp only [View.ld_unit_zero (S := S10000x30) hz, View.ld_unit_zero (S := S10000x1) hz]
  rw [pay]
  obtain ⟨e00, e01, e10, e11, e20, e21⟩ := idx_facts t
  funext j
  show scaleArr (R := 10000) (N := 30) (iblk1 V c 0 t) (iblk1 V c 1 t) j
    = G V c (((cfg1.win 2).blk t).view.emb j)
  unfold G
  refine scaleArr_block _ _ _ _ (t.val * 10000) j _ ?_ ?_ ?_ ?_
  · show win1_2.index t (0 : Fin 2) * 10000 + 1 * (j 0).val = t.val * 10000 + (j 0).val
    omega
  · show win1_2.index t (1 : Fin 2) * 30 + 1 * (j 1).val = (j 1).val
    omega
  · intro y z h0 h1
    show V c (Pipeline.arrRef spec1 0) (((cfg1.win 0).blk t).view.emb y) = V c (Pipeline.arrRef spec1 0) z
    refine congrArg _ (funext fun a => Fin.ext ?_)
    match a with
    | ⟨0, _⟩ => show win1_0.index t (0 : Fin 2) * 10000 + 1 * (y 0).val = (z 0).val; omega
    | ⟨1, _⟩ => show win1_0.index t (1 : Fin 2) * 30 + 1 * (y 1).val = (z 1).val; omega
  · intro y z h0 h1
    show V c (Pipeline.arrRef spec1 1) (((cfg1.win 1).blk t).view.emb y) = V c (Pipeline.arrRef spec1 1) z
    refine congrArg _ (funext fun a => Fin.ext ?_)
    match a with
    | ⟨0, _⟩ => show win1_1.index t (0 : Fin 2) * 10000 + 1 * (y 0).val = (z 0).val; omega
    | ⟨1, _⟩ => show win1_1.index t (1 : Fin 2) * 1 + 1 * (y 1).val = (z 1).val; omega

/-- An index of the result array is in block `t` iff each coordinate is in the block's range on its axis. -/
theorem mem_blk (t : Fin cfg1.N) (i : S6500000x30.Idx) :
    i ∈ ((cfg1.win 2).blk t).view.set ↔ ∀ a : Fin 2, win1_2.index t a * S10000x30.size a ≤ (i a).val
      ∧ (i a).val < win1_2.index t a * S10000x30.size a + S10000x30.size a := by
  show i ∈ ((View.whole main_v43).slice (win1_2.rect t)).set ↔ _
  rw [View.set_slice_whole, Rect.mem_set_unit]
  exact Iff.rfl

/-- Every row of the result lies in the block that holds it: row `r` in block `r / 10000`. -/
theorem cover (i : S6500000x30.Idx) :
    ∃ t : Fin cfg1.N, (cfg1.win 2).flush t = true ∧ i ∈ ((cfg1.win 2).blk t).view.set := by
  have hi0 : (i 0).val < 6500000 := (i 0).isLt
  have hi1 : (i 1).val < 30 := (i 1).isLt
  have hN : cfg1.N = 650 := N_1
  have ht : (i 0).val / 10000 < cfg1.N := by rw [hN]; omega
  refine ⟨⟨(i 0).val / 10000, ht⟩, flush1_2 _, ?_⟩
  have ef := idx_facts ⟨(i 0).val / 10000, ht⟩
  have eo0 : win1_2.index ⟨(i 0).val / 10000, ht⟩ (0 : Fin 2) = (i 0).val / 10000 := ef.2.2.2.2.1
  have eo1 : win1_2.index ⟨(i 0).val / 10000, ht⟩ (1 : Fin 2) = 0 := ef.2.2.2.2.2
  rw [mem_blk]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [eo0]
    omega
  | ⟨1, _⟩ =>
    show win1_2.index ⟨(i 0).val / 10000, ht⟩ (1 : Fin 2) * 30 ≤ (i 1).val
      ∧ (i 1).val < win1_2.index ⟨(i 0).val / 10000, ht⟩ (1 : Fin 2) * 30 + 30
    rw [eo1]
    omega

/-- THE RESULT ARRAY after the call: every row of the array it found times that row's entry of the column. -/
theorem final (c : Dev nD) : (dat1 V c).arrAt 2 cfg1.N = G V c :=
  (dat1 V c).arrAt_eq_of_cover 2 (G V c) (fun t _ => flushed_eq V c t) (cover)

end Cert.KernelIdeal.Region1

end
-- ==== Proof.Region2.lean ====
/-
  A BIAS CALL, as one function of the arrays it finds.

  The call walks twenty blocks of 5000 rows.  At block `t` its body reads rows `5000 t … 5000 t + 4999` of the
  `[100000, 30]` array and the whole one-row bias, and writes those rows plus the bias.  Every row is treated by itself, so the twenty blocks together are the whole array plus the
  bias on every row — whatever the arrays hold when the call is entered.
-/
import proofs.«163669_j81638738363110_2_alg».proof.Proof.Gen.KernelIdeal.Frame
import proofs.«163669_j81638738363110_2_alg».proof.Proof.RowOps
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Cert.DenseRow Cert.RowBias Cert.RowOps

variable (V : (c : Dev nD) → (b : Ref sig .tc) → Buf (Elt Ideal) ((c : Thread nD τ).loc b))

theorem hz : (![0, 0] : Fin 2 → Nat) = fun _ => 0 := funext fun a => by fin_cases a <;> rfl

/-- The body's arithmetic adds the bias row to every row of its block. -/
theorem pay (x0 : Vec Ideal S5000x30 .f32) (x1 : Vec Ideal S1x30 .f32) :
    k2_pay1 x0 x1 = biasArr (R := 5000) (N := 30) x0 (unrow x1) := by
  unfold k2_pay1
  exact kbias x0 x1 _ _ _

/-- The windows' index maps over the grid: the array's and the result's blocks move together down the rows, the bias
    stays whole. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The result array as one function of the arrays the call finds: every row plus the bias. -/
def G (c : Dev nD) : S100000x30.Idx → EReal :=
  biasArr (R := 100000) (N := 30) (V c (Pipeline.arrRef spec2 0)) (unrow (N := 30) (V c (Pipeline.arrRef spec2 1)))

/-- What block `t` writes back is block `t` of `G`. -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S5000x30) hz, View.ld_unit_zero (S := S1x30) hz]
  rw [pay]
  obtain ⟨e00, e01, e10, e11, e20, e21⟩ := idx_facts t
  funext j
  show biasArr (R := 5000) (N := 30) (iblk2 V c 0 t) (unrow (iblk2 V c 1 t)) j
    = G V c (((cfg2.win 2).blk t).view.emb j)
  unfold G
  refine biasArr_block _ _ _ _ (t.val * 5000) j _ ?_ ?_ ?_ ?_
  · show win2_2.index t (0 : Fin 2) * 5000 + 1 * (j 0).val = t.val * 5000 + (j 0).val
    omega
  · show win2_2.index t (1 : Fin 2) * 30 + 1 * (j 1).val = (j 1).val
    omega
  · intro y z h0 h1
    show V c (Pipeline.arrRef spec2 0) (((cfg2.win 0).blk t).view.emb y) = V c (Pipeline.arrRef spec2 0) z
    refine congrArg _ (funext fun a => Fin.ext ?_)
    match a with
    | ⟨0, _⟩ => show win2_0.index t (0 : Fin 2) * 5000 + 1 * (y 0).val = (z 0).val; omega
    | ⟨1, _⟩ => show win2_0.index t (1 : Fin 2) * 30 + 1 * (y 1).val = (z 1).val; omega
  · intro y
    refine unrow_congr _ _ (fun u => ?_) y
    show V c (Pipeline.arrRef spec2 1) (((cfg2.win 1).blk t).view.emb u) = V c (Pipeline.arrRef spec2 1) u
    refine congrArg _ (funext fun a => Fin.ext ?_)
    match a with
    | ⟨0, _⟩ => show win2_1.index t (0 : Fin 2) * 1 + 1 * (u 0).val = (u 0).val; omega
    | ⟨1, _⟩ => show win2_1.index t (1 : Fin 2) * 30 + 1 * (u 1).val = (u 1).val; omega

/-- An index of the result array is in block `t` iff each coordinate is in the block's range on its axis. -/
theorem mem_blk (t : Fin cfg2.N) (i : S100000x30.Idx) :
    i ∈ ((cfg2.win 2).blk t).view.set ↔ ∀ a : Fin 2, win2_2.index t a * S5000x30.size a ≤ (i a).val
      ∧ (i a).val < win2_2.index t a * S5000x30.size a + S5000x30.size a := by
  show i ∈ ((View.whole main_v48).slice (win2_2.rect t)).set ↔ _
  rw [View.set_slice_whole, Rect.mem_set_unit]
  exact Iff.rfl

/-- Every row of the result lies in the block that holds it: row `r` in block `r / 5000`. -/
theorem cover (i : S100000x30.Idx) :
    ∃ t : Fin cfg2.N, (cfg2.win 2).flush t = true ∧ i ∈ ((cfg2.win 2).blk t).view.set := by
  have hi0 : (i 0).val < 100000 := (i 0).isLt
  have hi1 : (i 1).val < 30 := (i 1).isLt
  have hN : cfg2.N = 20 := N_2
  have ht : (i 0).val / 5000 < cfg2.N := by rw [hN]; omega
  refine ⟨⟨(i 0).val / 5000, ht⟩, flush2_2 _, ?_⟩
  have ef := idx_facts ⟨(i 0).val / 5000, ht⟩
  have eo0 : win2_2.index ⟨(i 0).val / 5000, ht⟩ (0 : Fin 2) = (i 0).val / 5000 := ef.2.2.2.2.1
  have eo1 : win2_2.index ⟨(i 0).val / 5000, ht⟩ (1 : Fin 2) = 0 := ef.2.2.2.2.2
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [eo0]
    omega
  | ⟨1, _⟩ =>
    show win2_2.index ⟨(i 0).val / 5000, ht⟩ (1 : Fin 2) * 30 ≤ (i 1).val
      ∧ (i 1).val < win2_2.index ⟨(i 0).val / 5000, ht⟩ (1 : Fin 2) * 30 + 30
    rw [eo1]
    omega

/-- THE RESULT ARRAY after the call: every row of the array it found plus the bias. -/
theorem final (c : Dev nD) : (dat2 V c).arrAt 2 cfg2.N = G V c :=
  (dat2 V c).arrAt_eq_of_cover 2 (G V c) (fun t _ => flushed_eq V c t) (cover)

end Cert.KernelIdeal.Region2

end
-- ==== Proof.Region3.lean ====
/-
  A DENSE LAYER'S CALL, as one function of the arrays it finds.

  The call walks twenty blocks of 5000 rows.  At block `t` its body reads rows `5000 t … 5000 t + 4999` of the
  `[100000, 30]` operand, the whole `[30, 30]` weight and the whole one-row bias, and writes the same rows of the
  `[100000, 30]` result: the dense layer `x ↦ x · w + b` of those rows.  A dense layer acts on each row by itself, so the
  twenty blocks together are the layer of the whole operand — whatever the arrays hold when the call is entered.
-/
import proofs.«163669_j81638738363110_2_alg».proof.Proof.Gen.KernelIdeal.Frame
import proofs.«163669_j81638738363110_2_alg».proof.Proof.RowOps
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)
open Cert.DenseRow Cert.RowBias Cert.RowOps

variable (V : (c : Dev nD) → (b : Ref sig .tc) → Buf (Elt Ideal) ((c : Thread nD τ).loc b))

theorem hz : (![0, 0] : Fin 2 → Nat) = fun _ => 0 := funext fun a => by fin_cases a <;> rfl

/-- The body's arithmetic is the dense layer of its block of rows (the casts to the narrower format and the
    cast of the block to its own shape change nothing). -/
theorem pay (x0 : Vec Ideal S5000x30 .f32) (x1 : Vec Ideal S30x30 .f32) (x2 : Vec Ideal S1x30 .f32) :
    k3_pay1 x0 x1 x2 = layerArr (R := 5000) (K := 30) (N := 30) x0 x1 (unrow x2) := by
  unfold k3_pay1
  exact (klayer1Arr (DotDims.plain 5000 30 30) rfl rfl (Cert.PlainDot.lhs_at 5000 30 30) (Cert.PlainDot.rhs_at 5000 30 30)
      none _ _ x2 _ _).trans (by rw [shapeCast_self]; rfl)

/-- The windows' index maps over the grid: the operand's and the result's blocks move together down the rows, the
    weight and the bias stay whole. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The result array as one function of the arrays the call finds: the dense layer of every row. -/
def G (c : Dev nD) : S100000x30.Idx → EReal :=
  layerArr (R := 100000) (K := 30) (N := 30) (V c (Pipeline.arrRef spec3 0)) (V c (Pipeline.arrRef spec3 1))
    (unrow (N := 30) (V c (Pipeline.arrRef spec3 2)))

/-- What block `t` writes back is block `t` of `G`. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S5000x30) hz, View.ld_unit_zero (S := S30x30) hz, View.ld_unit_zero (S := S1x30) hz]
  rw [pay]
  obtain ⟨e00, e01, e10, e11, e20, e21, e30, e31⟩ := idx_facts t
  funext j
  show layerArr (R := 5000) (K := 30) (N := 30) (iblk3 V c 0 t) (iblk3 V c 1 t) (unrow (iblk3 V c 2 t)) j
    = G V c (((cfg3.win 3).blk t).view.emb j)
  unfold G
  refine layerArr_block _ _ _ _ _ _ (t.val * 5000) j _ ?_ ?_ ?_ ?_ ?_
  · show win3_3.index t (0 : Fin 2) * 5000 + 1 * (j 0).val = t.val * 5000 + (j 0).val
    omega
  · show win3_3.index t (1 : Fin 2) * 30 + 1 * (j 1).val = (j 1).val
    omega
  · intro y z h0 h1
    show V c (Pipeline.arrRef spec3 0) (((cfg3.win 0).blk t).view.emb y) = V c (Pipeline.arrRef spec3 0) z
    refine congrArg _ (funext fun a => Fin.ext ?_)
    match a with
    | ⟨0, _⟩ => show win3_0.index t (0 : Fin 2) * 5000 + 1 * (y 0).val = (z 0).val; omega
    | ⟨1, _⟩ => show win3_0.index t (1 : Fin 2) * 30 + 1 * (y 1).val = (z 1).val; omega
  · intro y
    show V c (Pipeline.arrRef spec3 1) (((cfg3.win 1).blk t).view.emb y) = V c (Pipeline.arrRef spec3 1) y
    refine congrArg _ (funext fun a => Fin.ext ?_)
    match a with
    | ⟨0, _⟩ => show win3_1.index t (0 : Fin 2) * 30 + 1 * (y 0).val = (y 0).val; omega
    | ⟨1, _⟩ => show win3_1.index t (1 : Fin 2) * 30 + 1 * (y 1).val = (y 1).val; omega
  · intro y
    refine unrow_congr _ _ (fun u => ?_) y
    show V c (Pipeline.arrRef spec3 2) (((cfg3.win 2).blk t).view.emb u) = V c (Pipeline.arrRef spec3 2) u
    refine congrArg _ (funext fun a => Fin.ext ?_)
    match a with
    | ⟨0, _⟩ => show win3_2.index t (0 : Fin 2) * 1 + 1 * (u 0).val = (u 0).val; omega
    | ⟨1, _⟩ => show win3_2.index t (1 : Fin 2) * 30 + 1 * (u 1).val = (u 1).val; omega

/-- An index of the result array is in block `t` iff each coordinate is in the block's range on its axis. -/
theorem mem_blk (t : Fin cfg3.N) (i : S100000x30.Idx) :
    i ∈ ((cfg3.win 3).blk t).view.set ↔ ∀ a : Fin 2, win3_3.index t a * S5000x30.size a ≤ (i a).val
      ∧ (i a).val < win3_3.index t a * S5000x30.size a + S5000x30.size a := by
  show i ∈ ((View.whole main_v51).slice (win3_3.rect t)).set ↔ _
  rw [View.set_slice_whole, Rect.mem_set_unit]
  exact Iff.rfl

/-- Every row of the result lies in the block that holds it: row `r` in block `r / 5000`. -/
theorem cover (i : S100000x30.Idx) :
    ∃ t : Fin cfg3.N, (cfg3.win 3).flush t = true ∧ i ∈ ((cfg3.win 3).blk t).view.set := by
  have hi0 : (i 0).val < 100000 := (i 0).isLt
  have hi1 : (i 1).val < 30 := (i 1).isLt
  have hN : cfg3.N = 20 := N_3
  have ht : (i 0).val / 5000 < cfg3.N := by rw [hN]; omega
  refine ⟨⟨(i 0).val / 5000, ht⟩, flush3_3 _, ?_⟩
  have ef := idx_facts ⟨(i 0).val / 5000, ht⟩
  have eo0 : win3_3.index ⟨(i 0).val / 5000, ht⟩ (0 : Fin 2) = (i 0).val / 5000 := ef.2.2.2.2.2.2.1
  have eo1 : win3_3.index ⟨(i 0).val / 5000, ht⟩ (1 : Fin 2) = 0 := ef.2.2.2.2.2.2.2
  rw [mem_blk]
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [eo0]
    omega
  | ⟨1, _⟩ =>
    show win3_3.index ⟨(i 0).val / 5000, ht⟩ (1 : Fin 2) * 30 ≤ (i 1).val
      ∧ (i 1).val < win3_3.index ⟨(i 0).val / 5000, ht⟩ (1 : Fin 2) * 30 + 30
    rw [eo1]
    omega

/-- THE RESULT ARRAY after the call: the dense layer of every row of the operand it found. -/
theorem final (c : Dev nD) : (dat3 V c).arrAt 3 cfg3.N = G V c :=
  (dat3 V c).arrAt_eq_of_cover 3 (G V c) (fun t _ => flushed_eq V c t) (cover)

end Cert.KernelIdeal.Region3

end
-- ==== Proof.Region4.lean ====
/-
  A MESSAGE-WEIGHTING CALL, as one function of the arrays it finds.

  The call walks 650 blocks of 10000 rows.  At block `t` its body reads rows `10000 t … 10000 t + 9999` of the
  `[6500000, 30]` array of gathered rows and the same rows of the `[6500000, 1]` column of edge weights, and writes those
  rows of the result: every row multiplied by its edge's weight.  Each row is scaled by itself, so the 650 blocks together
  are the whole array scaled row by row — whatever the arrays hold when the call is entered.
-/
import proofs.«163669_j81638738363110_2_alg».proof.Proof.Gen.KernelIdeal.Frame
import proofs.«163669_j81638738363110_2_alg».proof.Proof.RowOps
import Idealize.ShloMosaic.Lib.Pipeline.Value

set_option maxRecDepth 16384

noncomputable section

namespace Cert.KernelIdeal.Region4

open Cert.KernelIdeal Cert.KernelIdeal.Gen Idealize.ShloMosaic Idealize.ShloMosaic.TcCoe Idealize.SL.Sem
open Idealize.ShloMosaic.Pipeline (Dat)
open Cert.DenseRow Cert.RowBias Cert.RowOps

variable (V : (c : Dev nD) → (b : Ref sig .tc) → Buf (Elt Ideal) ((c : Thread nD τ).loc b))

theorem hz : (![0, 0] : Fin 2 → Nat) = fun _ => 0 := funext fun a => by fin_cases a <;> rfl

/-- The body's arithmetic scales every row of its block by the column's entry for that row. -/
theorem pay (x0 : Vec Ideal S10000x30 .f32) (x1 : Vec Ideal S10000x1 .f32) :
    k4_pay1 x0 x1 = scaleArr (R := 10000) (N := 30) x0 x1 := by
  unfold k4_pay1
  exact kscale x0 x1 _ _ _

/-- The windows' index maps over the grid: the rows, the column and the result move together down the rows. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The result array as one function of the arrays the call finds: every row times its entry of the column. -/
def G (c : Dev nD) : S6500000x30.Idx → EReal :=
  scaleArr (R := 6500000) (N := 30) (V c (Pipeline.arrRef spec4 0)) (V c (Pipeline.arrRef spec4 1))

/-- What block `t` writes back is block `t` of `G`. -/
theorem flushed_eq (c : Dev nD) (t : Fin cfg4.N) :
    (dat4 V c).flushed 2 t = ((cfg4.win 2).blk t).view.read (Elt Ideal) (G V c) := by
  show (cfg4.win 2).cut (grid4.coords t) ((dat4 V c).after 2 t) = _
  rw [after4_2]
  unfold out4_2
  rw [View.canon_unit_zero hz]
  simp only [View.ld_unit_zero (S := S10000x30) hz, View.ld_unit_zero (S := S10000x1) hz]
  rw [pay]
  obtain ⟨e00, e01, e10, e11, e20, e21⟩ := idx_facts t
  funext j
  show scaleArr (R := 10000) (N := 30) (iblk4 V c 0 t) (iblk4 V c 1 t) j
    = G V c (((cfg4.win 2).blk t).view.emb j)
  unfold G
  refine scaleArr_block _ _ _ _ (t.val * 10000) j _ ?_ ?_ ?_ ?_
  · show win4_2.index t (0 : Fin 2) * 10000 + 1 * (j 0).val = t.val * 10000 + (j 0).val
    omega
  · show win4_2.index t (1 : Fin 2) * 30 + 1 * (j 1).val = (j 1).val
    omega
  · intro y z h0 h1
    show V c (Pipeline.arrRef spec4 0) (((cfg4.win 0).blk t).view.emb y) = V c (Pipeline.arrRef spec4 0) z
    refine congrArg _ (funext fun a => Fin.ext ?_)
    match a with
    | ⟨0, _⟩ => show win4_0.index t (0 : Fin 2) * 10000 + 1 * (y 0).val = (z 0).val; omega
    | ⟨1, _⟩ => show win4_0.index t (1 : Fin 2) * 30 + 1 * (y 1).val = (z 1).val; omega
  · intro y z h0 h1
    show V c (Pipeline.arrRef spec4 1) (((cfg4.win 1).blk t).view.emb y) = V c (Pipeline.arrRef spec4 1) z
    refine congrArg _ (funext fun a => Fin.ext ?_)
    match a with
    | ⟨0, _⟩ => show win4_1.index t (0 : Fin 2) * 10000 + 1 * (y 0).val = (z 0).val; omega
    | ⟨1, _⟩ => show win4_1.index t (1 : Fin 2) * 1 + 1 * (y 1).val = (z 1).val; omega

/-- An index of the result array is in block `t` iff each coordinate is in the block's range on its axis. -/
theorem mem_blk (t : Fin cfg4.N) (i : S6500000x30.Idx) :
    i ∈ ((cfg4.win 2).blk t).view.set ↔ ∀ a : Fin 2, win4_2.index t a * S10000x30.size a ≤ (i a).val
      ∧ (i a).val < win4_2.index t a * S10000x30.size a + S10000x30.size a := by
  show i ∈ ((View.whole main_v59).slice (win4_2.rect t)).set ↔ _
  rw [View.set_slice_whole, Rect.mem_set_unit]
  exact Iff.rfl

/-- Every row of the result lies in the block that holds it: row `r` in block `r / 10000`. -/
theorem cover (i : S6500000x30.Idx) :
    ∃ t : Fin cfg4.N, (cfg4.win 2).flush t = true ∧ i ∈ ((cfg4.win 2).blk t).view.set := by
  have hi0 : (i 0).val < 6500000 := (i 0).isLt
  have hi1 : (i 1).val < 30 := (i 1).isLt
  have hN : cfg4.N = 650 := N_4
  have ht : (i 0).val / 10000 < cfg4.N := by rw [hN]; omega
  refine ⟨⟨(i 0).val / 10000, ht⟩, flush4_2 _, ?_⟩
  have ef := idx_facts ⟨(i 0).val / 10000, ht⟩
  have eo0 : win4_2.index ⟨(i 0).val / 10000, ht⟩ (0 : Fin 2) = (i 0).val / 10000 := ef.2.2.2.2.1
  have eo1 : win4_2.index ⟨(i 0).val / 10000, ht⟩ (1 : Fin 2) = 0 := ef.2.2.2.2.2
  rw [mem_blk]
  intro a
  match a with
  | ⟨0, _⟩ =>
    show win4_2.index ⟨(i 0).val / 10000, ht⟩ (0 : Fin 2) * 10000 ≤ (i 0).val
      ∧ (i 0).val < win4_2.index ⟨(i 0).val / 10000, ht⟩ (0 : Fin 2) * 10000 + 10000
    rw [eo0]
    omega
  | ⟨1, _⟩ =>
    show win4_2.index ⟨(i 0).val / 10000, ht⟩ (1 : Fin 2) * 30 ≤ (i 1).val
      ∧ (i 1).val < win4_2.index ⟨(i 0).val / 10000, ht⟩ (1 : Fin 2) * 30 + 30
    rw [eo1]
    omega

/-- THE RESULT ARRAY after the call: every row of the array it found times that row's entry of the column. -/
theorem final (c : Dev nD) : (dat4 V c).arrAt 2 cfg4.N = G V c :=
  (dat4 V c).arrAt_eq_of_cover 2 (G V c) (fun t _ => flushed_eq V c t) (cover)

end Cert.KernelIdeal.Region4

end
-- ==== Proof.Region5.lean ====
/-
  A BIAS CALL WITH ITS RECTIFIER, as one function of the arrays it finds.

  The call walks twenty blocks of 5000 rows.  At block `t` its body reads rows `5000 t … 5000 t + 4999` of the
  `[100000, 30]` array and the whole one-row bias, and writes those rows plus the bias, each entry then replaced by the
  larger of itself and zero.  Every row is treated by itself, so the twenty blocks together are the whole array plus the
  bias on every row, rectified — whatever the arrays hold when the call is entered.
-/
import proofs.«163669_j81638738363110_2_alg».proof.Proof.Gen.KernelIdeal.Frame
import proofs.«163669_j81638738363110_2_alg».proof.Proof.RowOps
import Idealize.ShloMosaic.Lib.Pipeline.Value

set_option maxRecDepth 16384

noncomputable section

namespace Cert.KernelIdeal.Region5

open Cert.KernelIdeal Cert.KernelIdeal.Gen Idealize.ShloMosaic Idealize.ShloMosaic.TcCoe Idealize.SL.Sem
open Idealize.ShloMosaic.Pipeline (Dat)
open Cert.DenseRow Cert.RowBias Cert.RowOps

variable (V : (c : Dev nD) → (b : Ref sig .tc) → Buf (Elt Ideal) ((c : Thread nD τ).loc b))

theorem hz : (![0, 0] : Fin 2 → Nat) = fun _ => 0 := funext fun a => by fin_cases a <;> rfl

/-- The body's arithmetic adds the bias row to every row of its block and rectifies. -/
theorem pay (x0 : Vec Ideal S5000x30 .f32) (x1 : Vec Ideal S1x30 .f32) :
    k5_pay1 x0 x1 = actArr zf (biasArr (R := 5000) (N := 30) x0 (unrow x1)) := by
  unfold k5_pay1
  exact (kact _).trans (congrArg (actArr zf) (kbias x0 x1 _ _ _))

/-- The windows' index maps over the grid: the array's and the result's blocks move together down the rows, the bias
    stays whole. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The result array as one function of the arrays the call finds: every row plus the bias, rectified. -/
def G (c : Dev nD) : S100000x30.Idx → EReal :=
  actArr zf (biasArr (R := 100000) (N := 30) (V c (Pipeline.arrRef spec5 0)) (unrow (N := 30) (V c (Pipeline.arrRef spec5 1))))

/-- What block `t` writes back is block `t` of `G`. -/
theorem flushed_eq (c : Dev nD) (t : Fin cfg5.N) :
    (dat5 V c).flushed 2 t = ((cfg5.win 2).blk t).view.read (Elt Ideal) (G V c) := by
  show (cfg5.win 2).cut (grid5.coords t) ((dat5 V c).after 2 t) = _
  rw [after5_2]
  unfold out5_2
  rw [View.canon_unit_zero hz]
  simp only [View.ld_unit_zero (S := S5000x30) hz, View.ld_unit_zero (S := S1x30) hz]
  rw [pay]
  obtain ⟨e00, e01, e10, e11, e20, e21⟩ := idx_facts t
  funext j
  show actArr zf (biasArr (R := 5000) (N := 30) (iblk5 V c 0 t) (unrow (iblk5 V c 1 t))) j
    = G V c (((cfg5.win 2).blk t).view.emb j)
  unfold G
  refine actArr_at zf _ _ j _ ?_
  refine biasArr_block _ _ _ _ (t.val * 5000) j _ ?_ ?_ ?_ ?_
  · show win5_2.index t (0 : Fin 2) * 5000 + 1 * (j 0).val = t.val * 5000 + (j 0).val
    omega
  · show win5_2.index t (1 : Fin 2) * 30 + 1 * (j 1).val = (j 1).val
    omega
  · intro y z h0 h1
    show V c (Pipeline.arrRef spec5 0) (((cfg5.win 0).blk t).view.emb y) = V c (Pipeline.arrRef spec5 0) z
    refine congrArg _ (funext fun a => Fin.ext ?_)
    match a with
    | ⟨0, _⟩ => show win5_0.index t (0 : Fin 2) * 5000 + 1 * (y 0).val = (z 0).val; omega
    | ⟨1, _⟩ => show win5_0.index t (1 : Fin 2) * 30 + 1 * (y 1).val = (z 1).val; omega
  · intro y
    refine unrow_congr _ _ (fun u => ?_) y
    show V c (Pipeline.arrRef spec5 1) (((cfg5.win 1).blk t).view.emb u) = V c (Pipeline.arrRef spec5 1) u
    refine congrArg _ (funext fun a => Fin.ext ?_)
    match a with
    | ⟨0, _⟩ => show win5_1.index t (0 : Fin 2) * 1 + 1 * (u 0).val = (u 0).val; omega
    | ⟨1, _⟩ => show win5_1.index t (1 : Fin 2) * 30 + 1 * (u 1).val = (u 1).val; omega

/-- An index of the result array is in block `t` iff each coordinate is in the block's range on its axis. -/
theorem mem_blk (t : Fin cfg5.N) (i : S100000x30.Idx) :
    i ∈ ((cfg5.win 2).blk t).view.set ↔ ∀ a : Fin 2, win5_2.index t a * S5000x30.size a ≤ (i a).val
      ∧ (i a).val < win5_2.index t a * S5000x30.size a + S5000x30.size a := by
  show i ∈ ((View.whole main_v64).slice (win5_2.rect t)).set ↔ _
  rw [View.set_slice_whole, Rect.mem_set_unit]
  exact Iff.rfl

/-- Every row of the result lies in the block that holds it: row `r` in block `r / 5000`. -/
theorem cover (i : S100000x30.Idx) :
    ∃ t : Fin cfg5.N, (cfg5.win 2).flush t = true ∧ i ∈ ((cfg5.win 2).blk t).view.set := by
  have hi0 : (i 0).val < 100000 := (i 0).isLt
  have hi1 : (i 1).val < 30 := (i 1).isLt
  have hN : cfg5.N = 20 := N_5
  have ht : (i 0).val / 5000 < cfg5.N := by rw [hN]; omega
  refine ⟨⟨(i 0).val / 5000, ht⟩, flush5_2 _, ?_⟩
  have ef := idx_facts ⟨(i 0).val / 5000, ht⟩
  have eo0 : win5_2.index ⟨(i 0).val / 5000, ht⟩ (0 : Fin 2) = (i 0).val / 5000 := ef.2.2.2.2.1
  have eo1 : win5_2.index ⟨(i 0).val / 5000, ht⟩ (1 : Fin 2) = 0 := ef.2.2.2.2.2
  rw [mem_blk]
  intro a
  match a with
  | ⟨0, _⟩ =>
    show win5_2.index ⟨(i 0).val / 5000, ht⟩ (0 : Fin 2) * 5000 ≤ (i 0).val
      ∧ (i 0).val < win5_2.index ⟨(i 0).val / 5000, ht⟩ (0 : Fin 2) * 5000 + 5000
    rw [eo0]
    omega
  | ⟨1, _⟩ =>
    show win5_2.index ⟨(i 0).val / 5000, ht⟩ (1 : Fin 2) * 30 ≤ (i 1).val
      ∧ (i 1).val < win5_2.index ⟨(i 0).val / 5000, ht⟩ (1 : Fin 2) * 30 + 30
    rw [eo1]
    omega

/-- THE RESULT ARRAY after the call: every row of the array it found plus the bias, rectified. -/
theorem final (c : Dev nD) : (dat5 V c).arrAt 2 cfg5.N = G V c :=
  (dat5 V c).arrAt_eq_of_cover 2 (G V c) (fun t _ => flushed_eq V c t) (cover)

end Cert.KernelIdeal.Region5

end
-- ==== Proof.Region6.lean ====
/-
  A DENSE LAYER'S CALL, as one function of the arrays it finds.

  The call walks twenty blocks of 5000 rows.  At block `t` its body reads rows `5000 t … 5000 t + 4999` of the
  `[100000, 30]` operand, the whole `[30, 30]` weight and the whole one-row bias, and writes the same rows of the
  `[100000, 30]` result: the dense layer `x ↦ x · w + b` of those rows.  A dense layer acts on each row by itself, so the
  twenty blocks together are the layer of the whole operand — whatever the arrays hold when the call is entered.
-/
import proofs.«163669_j81638738363110_2_alg».proof.Proof.Gen.KernelIdeal.Frame
import proofs.«163669_j81638738363110_2_alg».proof.Proof.RowOps
import Idealize.ShloMosaic.Lib.Pipeline.Value

set_option maxRecDepth 16384

noncomputable section

namespace Cert.KernelIdeal.Region6

open Cert.KernelIdeal Cert.KernelIdeal.Gen Idealize.ShloMosaic Idealize.ShloMosaic.TcCoe Idealize.SL.Sem
open Idealize.ShloMosaic.Pipeline (Dat)
open Cert.DenseRow Cert.RowBias Cert.RowOps

variable (V : (c : Dev nD) → (b : Ref sig .tc) → Buf (Elt Ideal) ((c : Thread nD τ).loc b))

theorem hz : (![0, 0] : Fin 2 → Nat) = fun _ => 0 := funext fun a => by fin_cases a <;> rfl

/-- The body's arithmetic is the dense layer of its block of rows (the casts to the narrower format and the
    cast of the block to its own shape change nothing). -/
theorem pay (x0 : Vec Ideal S5000x30 .f32) (x1 : Vec Ideal S30x30 .f32) (x2 : Vec Ideal S1x30 .f32) :
    k6_pay1 x0 x1 x2 = layerArr (R := 5000) (K := 30) (N := 30) x0 x1 (unrow x2) := by
  unfold k6_pay1
  exact (klayer1Arr (DotDims.plain 5000 30 30) rfl rfl (Cert.PlainDot.lhs_at 5000 30 30) (Cert.PlainDot.rhs_at 5000 30 30)
      none _ _ x2 _ _).trans (by rw [shapeCast_self]; rfl)

/-- The windows' index maps over the grid: the operand's and the result's blocks move together down the rows, the
    weight and the bias stay whole. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The result array as one function of the arrays the call finds: the dense layer of every row. -/
def G (c : Dev nD) : S100000x30.Idx → EReal :=
  layerArr (R := 100000) (K := 30) (N := 30) (V c (Pipeline.arrRef spec6 0)) (V c (Pipeline.arrRef spec6 1))
    (unrow (N := 30) (V c (Pipeline.arrRef spec6 2)))

/-- What block `t` writes back is block `t` of `G`. -/
theorem flushed_eq (c : Dev nD) (t : Fin cfg6.N) :
    (dat6 V c).flushed 3 t = ((cfg6.win 3).blk t).view.read (Elt Ideal) (G V c) := by
  show (cfg6.win 3).cut (grid6.coords t) ((dat6 V c).after 3 t) = _
  rw [after6_3]
  unfold out6_3
  rw [View.canon_unit_zero hz]
  simp only [View.ld_unit_zero (S := S5000x30) hz, View.ld_unit_zero (S := S30x30) hz, View.ld_unit_zero (S := S1x30) hz]
  rw [pay]
  obtain ⟨e00, e01, e10, e11, e20, e21, e30, e31⟩ := idx_facts t
  funext j
  show layerArr (R := 5000) (K := 30) (N := 30) (iblk6 V c 0 t) (iblk6 V c 1 t) (unrow (iblk6 V c 2 t)) j
    = G V c (((cfg6.win 3).blk t).view.emb j)
  unfold G
  refine layerArr_block _ _ _ _ _ _ (t.val * 5000) j _ ?_ ?_ ?_ ?_ ?_
  · show win6_3.index t (0 : Fin 2) * 5000 + 1 * (j 0).val = t.val * 5000 + (j 0).val
    omega
  · show win6_3.index t (1 : Fin 2) * 30 + 1 * (j 1).val = (j 1).val
    omega
  · intro y z h0 h1
    show V c (Pipeline.arrRef spec6 0) (((cfg6.win 0).blk t).view.emb y) = V c (Pipeline.arrRef spec6 0) z
    refine congrArg _ (funext fun a => Fin.ext ?_)
    match a with
    | ⟨0, _⟩ => show win6_0.index t (0 : Fin 2) * 5000 + 1 * (y 0).val = (z 0).val; omega
    | ⟨1, _⟩ => show win6_0.index t (1 : Fin 2) * 30 + 1 * (y 1).val = (z 1).val; omega
  · intro y
    show V c (Pipeline.arrRef spec6 1) (((cfg6.win 1).blk t).view.emb y) = V c (Pipeline.arrRef spec6 1) y
    refine congrArg _ (funext fun a => Fin.ext ?_)
    match a with
    | ⟨0, _⟩ => show win6_1.index t (0 : Fin 2) * 30 + 1 * (y 0).val = (y 0).val; omega
    | ⟨1, _⟩ => show win6_1.index t (1 : Fin 2) * 30 + 1 * (y 1).val = (y 1).val; omega
  · intro y
    refine unrow_congr _ _ (fun u => ?_) y
    show V c (Pipeline.arrRef spec6 2) (((cfg6.win 2).blk t).view.emb u) = V c (Pipeline.arrRef spec6 2) u
    refine congrArg _ (funext fun a => Fin.ext ?_)
    match a with
    | ⟨0, _⟩ => show win6_2.index t (0 : Fin 2) * 1 + 1 * (u 0).val = (u 0).val; omega
    | ⟨1, _⟩ => show win6_2.index t (1 : Fin 2) * 30 + 1 * (u 1).val = (u 1).val; omega

/-- An index of the result array is in block `t` iff each coordinate is in the block's range on its axis. -/
theorem mem_blk (t : Fin cfg6.N) (i : S100000x30.Idx) :
    i ∈ ((cfg6.win 3).blk t).view.set ↔ ∀ a : Fin 2, win6_3.index t a * S5000x30.size a ≤ (i a).val
      ∧ (i a).val < win6_3.index t a * S5000x30.size a + S5000x30.size a := by
  show i ∈ ((View.whole main_v67).slice (win6_3.rect t)).set ↔ _
  rw [View.set_slice_whole, Rect.mem_set_unit]
  exact Iff.rfl

/-- Every row of the result lies in the block that holds it: row `r` in block `r / 5000`. -/
theorem cover (i : S100000x30.Idx) :
    ∃ t : Fin cfg6.N, (cfg6.win 3).flush t = true ∧ i ∈ ((cfg6.win 3).blk t).view.set := by
  have hi0 : (i 0).val < 100000 := (i 0).isLt
  have hi1 : (i 1).val < 30 := (i 1).isLt
  have hN : cfg6.N = 20 := N_6
  have ht : (i 0).val / 5000 < cfg6.N := by rw [hN]; omega
  refine ⟨⟨(i 0).val / 5000, ht⟩, flush6_3 _, ?_⟩
  have ef := idx_facts ⟨(i 0).val / 5000, ht⟩
  have eo0 : win6_3.index ⟨(i 0).val / 5000, ht⟩ (0 : Fin 2) = (i 0).val / 5000 := ef.2.2.2.2.2.2.1
  have eo1 : win6_3.index ⟨(i 0).val / 5000, ht⟩ (1 : Fin 2) = 0 := ef.2.2.2.2.2.2.2
  rw [mem_blk]
  intro a
  match a with
  | ⟨0, _⟩ =>
    show win6_3.index ⟨(i 0).val / 5000, ht⟩ (0 : Fin 2) * 5000 ≤ (i 0).val
      ∧ (i 0).val < win6_3.index ⟨(i 0).val / 5000, ht⟩ (0 : Fin 2) * 5000 + 5000
    rw [eo0]
    omega
  | ⟨1, _⟩ =>
    show win6_3.index ⟨(i 0).val / 5000, ht⟩ (1 : Fin 2) * 30 ≤ (i 1).val
      ∧ (i 1).val < win6_3.index ⟨(i 0).val / 5000, ht⟩ (1 : Fin 2) * 30 + 30
    rw [eo1]
    omega

/-- THE RESULT ARRAY after the call: the dense layer of every row of the operand it found. -/
theorem final (c : Dev nD) : (dat6 V c).arrAt 3 cfg6.N = G V c :=
  (dat6 V c).arrAt_eq_of_cover 3 (G V c) (fun t _ => flushed_eq V c t) (cover)

end Cert.KernelIdeal.Region6

end
-- ==== Proof.Region7.lean ====
/-
  A MESSAGE-WEIGHTING CALL, as one function of the arrays it finds.

  The call walks 650 blocks of 10000 rows.  At block `t` its body reads rows `10000 t … 10000 t + 9999` of the
  `[6500000, 30]` array of gathered rows and the same rows of the `[6500000, 1]` column of edge weights, and writes those
  rows of the result: every row multiplied by its edge's weight.  Each row is scaled by itself, so the 650 blocks together
  are the whole array scaled row by row — whatever the arrays hold when the call is entered.
-/
import proofs.«163669_j81638738363110_2_alg».proof.Proof.Gen.KernelIdeal.Frame
import proofs.«163669_j81638738363110_2_alg».proof.Proof.RowOps
import Idealize.ShloMosaic.Lib.Pipeline.Value

set_option maxRecDepth 16384

noncomputable section

namespace Cert.KernelIdeal.Region7

open Cert.KernelIdeal Cert.KernelIdeal.Gen Idealize.ShloMosaic Idealize.ShloMosaic.TcCoe Idealize.SL.Sem
open Idealize.ShloMosaic.Pipeline (Dat)
open Cert.DenseRow Cert.RowBias Cert.RowOps

variable (V : (c : Dev nD) → (b : Ref sig .tc) → Buf (Elt Ideal) ((c : Thread nD τ).loc b))

theorem hz : (![0, 0] : Fin 2 → Nat) = fun _ => 0 := funext fun a => by fin_cases a <;> rfl

/-- The body's arithmetic scales every row of its block by the column's entry for that row. -/
theorem pay (x0 : Vec Ideal S10000x30 .f32) (x1 : Vec Ideal S10000x1 .f32) :
    k7_pay1 x0 x1 = scaleArr (R := 10000) (N := 30) x0 x1 := by
  unfold k7_pay1
  exact kscale x0 x1 _ _ _

/-- The windows' index maps over the grid: the rows, the column and the result move together down the rows. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- The result array as one function of the arrays the call finds: every row times its entry of the column. -/
def G (c : Dev nD) : S6500000x30.Idx → EReal :=
  scaleArr (R := 6500000) (N := 30) (V c (Pipeline.arrRef spec7 0)) (V c (Pipeline.arrRef spec7 1))

/-- What block `t` writes back is block `t` of `G`. -/
theorem flushed_eq (c : Dev nD) (t : Fin cfg7.N) :
    (dat7 V c).flushed 2 t = ((cfg7.win 2).blk t).view.read (Elt Ideal) (G V c) := by
  show (cfg7.win 2).cut (grid7.coords t) ((dat7 V c).after 2 t) = _
  rw [after7_2]
  unfold out7_2
  rw [View.canon_unit_zero hz]
  simp only [View.ld_unit_zero (S := S10000x30) hz, View.ld_unit_zero (S := S10000x1) hz]
  rw [pay]
  obtain ⟨e00, e01, e10, e11, e20, e21⟩ := idx_facts t
  funext j
  show scaleArr (R := 10000) (N := 30) (iblk7 V c 0 t) (iblk7 V c 1 t) j
    = G V c (((cfg7.win 2).blk t).view.emb j)
  unfold G
  refine scaleArr_block _ _ _ _ (t.val * 10000) j _ ?_ ?_ ?_ ?_
  · show win7_2.index t (0 : Fin 2) * 10000 + 1 * (j 0).val = t.val * 10000 + (j 0).val
    omega
  · show win7_2.index t (1 : Fin 2) * 30 + 1 * (j 1).val = (j 1).val
    omega
  · intro y z h0 h1
    show V c (Pipeline.arrRef spec7 0) (((cfg7.win 0).blk t).view.emb y) = V c (Pipeline.arrRef spec7 0) z
    refine congrArg _ (funext fun a => Fin.ext ?_)
    match a with
    | ⟨0, _⟩ => show win7_0.index t (0 : Fin 2) * 10000 + 1 * (y 0).val = (z 0).val; omega
    | ⟨1, _⟩ => show win7_0.index t (1 : Fin 2) * 30 + 1 * (y 1).val = (z 1).val; omega
  · intro y z h0 h1
    show V c (Pipeline.arrRef spec7 1) (((cfg7.win 1).blk t).view.emb y) = V c (Pipeline.arrRef spec7 1) z
    refine congrArg _ (funext fun a => Fin.ext ?_)
    match a with
    | ⟨0, _⟩ => show win7_1.index t (0 : Fin 2) * 10000 + 1 * (y 0).val = (z 0).val; omega
    | ⟨1, _⟩ => show win7_1.index t (1 : Fin 2) * 1 + 1 * (y 1).val = (z 1).val; omega

/-- An index of the result array is in block `t` iff each coordinate is in the block's range on its axis. -/
theorem mem_blk (t : Fin cfg7.N) (i : S6500000x30.Idx) :
    i ∈ ((cfg7.win 2).blk t).view.set ↔ ∀ a : Fin 2, win7_2.index t a * S10000x30.size a ≤ (i a).val
      ∧ (i a).val < win7_2.index t a * S10000x30.size a + S10000x30.size a := by
  show i ∈ ((View.whole main_v75).slice (win7_2.rect t)).set ↔ _
  rw [View.set_slice_whole, Rect.mem_set_unit]
  exact Iff.rfl

/-- Every row of the result lies in the block that holds it: row `r` in block `r / 10000`. -/
theorem cover (i : S6500000x30.Idx) :
    ∃ t : Fin cfg7.N, (cfg7.win 2).flush t = true ∧ i ∈ ((cfg7.win 2).blk t).view.set := by
  have hi0 : (i 0).val < 6500000 := (i 0).isLt
  have hi1 : (i 1).val < 30 := (i 1).isLt
  have hN : cfg7.N = 650 := N_7
  have ht : (i 0).val / 10000 < cfg7.N := by rw [hN]; omega
  refine ⟨⟨(i 0).val / 10000, ht⟩, flush7_2 _, ?_⟩
  have ef := idx_facts ⟨(i 0).val / 10000, ht⟩
  have eo0 : win7_2.index ⟨(i 0).val / 10000, ht⟩ (0 : Fin 2) = (i 0).val / 10000 := ef.2.2.2.2.1
  have eo1 : win7_2.index ⟨(i 0).val / 10000, ht⟩ (1 : Fin 2) = 0 := ef.2.2.2.2.2
  rw [mem_blk]
  intro a
  match a with
  | ⟨0, _⟩ =>
    show win7_2.index ⟨(i 0).val / 10000, ht⟩ (0 : Fin 2) * 10000 ≤ (i 0).val
      ∧ (i 0).val < win7_2.index ⟨(i 0).val / 10000, ht⟩ (0 : Fin 2) * 10000 + 10000
    rw [eo0]
    omega
  | ⟨1, _⟩ =>
    show win7_2.index ⟨(i 0).val / 10000, ht⟩ (1 : Fin 2) * 30 ≤ (i 1).val
      ∧ (i 1).val < win7_2.index ⟨(i 0).val / 10000, ht⟩ (1 : Fin 2) * 30 + 30
    rw [eo1]
    omega

/-- THE RESULT ARRAY after the call: every row of the array it found times that row's entry of the column. -/
theorem final (c : Dev nD) : (dat7 V c).arrAt 2 cfg7.N = G V c :=
  (dat7 V c).arrAt_eq_of_cover 2 (G V c) (fun t _ => flushed_eq V c t) (cover)

end Cert.KernelIdeal.Region7

end
-- ==== Proof.Region8.lean ====
/-
  A BIAS CALL WITH ITS RECTIFIER, as one function of the arrays it finds.

  The call walks twenty blocks of 5000 rows.  At block `t` its body reads rows `5000 t … 5000 t + 4999` of the
  `[100000, 30]` array and the whole one-row bias, and writes those rows plus the bias, each entry then replaced by the
  larger of itself and zero.  Every row is treated by itself, so the twenty blocks together are the whole array plus the
  bias on every row, rectified — whatever the arrays hold when the call is entered.
-/
import proofs.«163669_j81638738363110_2_alg».proof.Proof.Gen.KernelIdeal.Frame
import proofs.«163669_j81638738363110_2_alg».proof.Proof.RowOps
import Idealize.ShloMosaic.Lib.Pipeline.Value

set_option maxRecDepth 16384

noncomputable section

namespace Cert.KernelIdeal.Region8

open Cert.KernelIdeal Cert.KernelIdeal.Gen Idealize.ShloMosaic Idealize.ShloMosaic.TcCoe Idealize.SL.Sem
open Idealize.ShloMosaic.Pipeline (Dat)
open Cert.DenseRow Cert.RowBias Cert.RowOps

variable (V : (c : Dev nD) → (b : Ref sig .tc) → Buf (Elt Ideal) ((c : Thread nD τ).loc b))

theorem hz : (![0, 0] : Fin 2 → Nat) = fun _ => 0 := funext fun a => by fin_cases a <;> rfl

/-- The body's arithmetic adds the bias row to every row of its block and rectifies. -/
theorem pay (x0 : Vec Ideal S5000x30 .f32) (x1 : Vec Ideal S1x30 .f32) :
    k8_pay1 x0 x1 = actArr zf (biasArr (R := 5000) (N := 30) x0 (unrow x1)) := by
  unfold k8_pay1
  exact (kact _).trans (congrArg (actArr zf) (kbias x0 x1 _ _ _))

/-- The windows' index maps over the grid: the array's and the result's blocks move together down the rows, the bias
    stays whole. -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- The result array as one function of the arrays the call finds: every row plus the bias, rectified. -/
def G (c : Dev nD) : S100000x30.Idx → EReal :=
  actArr zf (biasArr (R := 100000) (N := 30) (V c (Pipeline.arrRef spec8 0)) (unrow (N := 30) (V c (Pipeline.arrRef spec8 1))))

/-- What block `t` writes back is block `t` of `G`. -/
theorem flushed_eq (c : Dev nD) (t : Fin cfg8.N) :
    (dat8 V c).flushed 2 t = ((cfg8.win 2).blk t).view.read (Elt Ideal) (G V c) := by
  show (cfg8.win 2).cut (grid8.coords t) ((dat8 V c).after 2 t) = _
  rw [after8_2]
  unfold out8_2
  rw [View.canon_unit_zero hz]
  simp only [View.ld_unit_zero (S := S5000x30) hz, View.ld_unit_zero (S := S1x30) hz]
  rw [pay]
  obtain ⟨e00, e01, e10, e11, e20, e21⟩ := idx_facts t
  funext j
  show actArr zf (biasArr (R := 5000) (N := 30) (iblk8 V c 0 t) (unrow (iblk8 V c 1 t))) j
    = G V c (((cfg8.win 2).blk t).view.emb j)
  unfold G
  refine actArr_at zf _ _ j _ ?_
  refine biasArr_block _ _ _ _ (t.val * 5000) j _ ?_ ?_ ?_ ?_
  · show win8_2.index t (0 : Fin 2) * 5000 + 1 * (j 0).val = t.val * 5000 + (j 0).val
    omega
  · show win8_2.index t (1 : Fin 2) * 30 + 1 * (j 1).val = (j 1).val
    omega
  · intro y z h0 h1
    show V c (Pipeline.arrRef spec8 0) (((cfg8.win 0).blk t).view.emb y) = V c (Pipeline.arrRef spec8 0) z
    refine congrArg _ (funext fun a => Fin.ext ?_)
    match a with
    | ⟨0, _⟩ => show win8_0.index t (0 : Fin 2) * 5000 + 1 * (y 0).val = (z 0).val; omega
    | ⟨1, _⟩ => show win8_0.index t (1 : Fin 2) * 30 + 1 * (y 1).val = (z 1).val; omega
  · intro y
    refine unrow_congr _ _ (fun u => ?_) y
    show V c (Pipeline.arrRef spec8 1) (((cfg8.win 1).blk t).view.emb u) = V c (Pipeline.arrRef spec8 1) u
    refine congrArg _ (funext fun a => Fin.ext ?_)
    match a with
    | ⟨0, _⟩ => show win8_1.index t (0 : Fin 2) * 1 + 1 * (u 0).val = (u 0).val; omega
    | ⟨1, _⟩ => show win8_1.index t (1 : Fin 2) * 30 + 1 * (u 1).val = (u 1).val; omega

/-- An index of the result array is in block `t` iff each coordinate is in the block's range on its axis. -/
theorem mem_blk (t : Fin cfg8.N) (i : S100000x30.Idx) :
    i ∈ ((cfg8.win 2).blk t).view.set ↔ ∀ a : Fin 2, win8_2.index t a * S5000x30.size a ≤ (i a).val
      ∧ (i a).val < win8_2.index t a * S5000x30.size a + S5000x30.size a := by
  show i ∈ ((View.whole main_v80).slice (win8_2.rect t)).set ↔ _
  rw [View.set_slice_whole, Rect.mem_set_unit]
  exact Iff.rfl

/-- Every row of the result lies in the block that holds it: row `r` in block `r / 5000`. -/
theorem cover (i : S100000x30.Idx) :
    ∃ t : Fin cfg8.N, (cfg8.win 2).flush t = true ∧ i ∈ ((cfg8.win 2).blk t).view.set := by
  have hi0 : (i 0).val < 100000 := (i 0).isLt
  have hi1 : (i 1).val < 30 := (i 1).isLt
  have hN : cfg8.N = 20 := N_8
  have ht : (i 0).val / 5000 < cfg8.N := by rw [hN]; omega
  refine ⟨⟨(i 0).val / 5000, ht⟩, flush8_2 _, ?_⟩
  have ef := idx_facts ⟨(i 0).val / 5000, ht⟩
  have eo0 : win8_2.index ⟨(i 0).val / 5000, ht⟩ (0 : Fin 2) = (i 0).val / 5000 := ef.2.2.2.2.1
  have eo1 : win8_2.index ⟨(i 0).val / 5000, ht⟩ (1 : Fin 2) = 0 := ef.2.2.2.2.2
  rw [mem_blk]
  intro a
  match a with
  | ⟨0, _⟩ =>
    show win8_2.index ⟨(i 0).val / 5000, ht⟩ (0 : Fin 2) * 5000 ≤ (i 0).val
      ∧ (i 0).val < win8_2.index ⟨(i 0).val / 5000, ht⟩ (0 : Fin 2) * 5000 + 5000
    rw [eo0]
    omega
  | ⟨1, _⟩ =>
    show win8_2.index ⟨(i 0).val / 5000, ht⟩ (1 : Fin 2) * 30 ≤ (i 1).val
      ∧ (i 1).val < win8_2.index ⟨(i 0).val / 5000, ht⟩ (1 : Fin 2) * 30 + 30
    rw [eo1]
    omega

/-- THE RESULT ARRAY after the call: every row of the array it found plus the bias, rectified. -/
theorem final (c : Dev nD) : (dat8 V c).arrAt 2 cfg8.N = G V c :=
  (dat8 V c).arrAt_eq_of_cover 2 (G V c) (fun t _ => flushed_eq V c t) (cover)

end Cert.KernelIdeal.Region8

end
-- ==== Proof.Region9.lean ====
/-
  A DENSE LAYER'S CALL WITH ITS RECTIFIER, as one function of the arrays it finds.

  The call walks twenty blocks of 5000 rows.  At block `t` its body reads rows `5000 t … 5000 t + 4999` of the
  `[100000, 30]` operand, the whole `[30, 10]` weight and the whole one-row bias, and writes the same rows of the
  `[100000, 10]` result: the dense layer `x ↦ x · w + b` of those rows, each entry then replaced by the larger of
  itself and zero.  A dense layer acts on each row by itself and the rectifier on each entry by itself, so the
  twenty blocks together are the layer of the whole operand — whatever the arrays hold when the call is entered.
-/
import proofs.«163669_j81638738363110_2_alg».proof.Proof.Gen.KernelIdeal.Frame
import proofs.«163669_j81638738363110_2_alg».proof.Proof.RowOps
import Idealize.ShloMosaic.Lib.Pipeline.Value

set_option maxRecDepth 16384

noncomputable section

namespace Cert.KernelIdeal.Region9

open Cert.KernelIdeal Cert.KernelIdeal.Gen Idealize.ShloMosaic Idealize.ShloMosaic.TcCoe Idealize.SL.Sem
open Idealize.ShloMosaic.Pipeline (Dat)
open Cert.DenseRow Cert.RowBias Cert.RowOps

variable (V : (c : Dev nD) → (b : Ref sig .tc) → Buf (Elt Ideal) ((c : Thread nD τ).loc b))

theorem hz : (![0, 0] : Fin 2 → Nat) = fun _ => 0 := funext fun a => by fin_cases a <;> rfl

/-- The body's arithmetic is the dense layer of its block of rows, rectified (the casts to the narrower format and the
    cast of the block to its own shape change nothing). -/
theorem pay (x0 : Vec Ideal S5000x30 .f32) (x1 : Vec Ideal S30x10 .f32) (x2 : Vec Ideal S1x10 .f32) :
    k9_pay1 x0 x1 x2 = actArr zf (layerArr (R := 5000) (K := 30) (N := 10) x0 x1 (unrow x2)) := by
  unfold k9_pay1
  exact (kact _).trans (congrArg (actArr zf) ((klayer1Arr (DotDims.plain 5000 30 10) rfl rfl (Cert.PlainDot.lhs_at 5000 30 10) (Cert.PlainDot.rhs_at 5000 30 10)
      none _ _ x2 _ _).trans (by rw [shapeCast_self]; rfl)))

/-- The windows' index maps over the grid: the operand's and the result's blocks move together down the rows, the
    weight and the bias stay whole. -/
theorem idx_facts : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- The result array as one function of the arrays the call finds: the dense layer of every row, rectified. -/
def G (c : Dev nD) : S100000x10.Idx → EReal :=
  actArr zf (layerArr (R := 100000) (K := 30) (N := 10) (V c (Pipeline.arrRef spec9 0)) (V c (Pipeline.arrRef spec9 1))
    (unrow (N := 10) (V c (Pipeline.arrRef spec9 2))))

/-- What block `t` writes back is block `t` of `G`. -/
theorem flushed_eq (c : Dev nD) (t : Fin cfg9.N) :
    (dat9 V c).flushed 3 t = ((cfg9.win 3).blk t).view.read (Elt Ideal) (G V c) := by
  show (cfg9.win 3).cut (grid9.coords t) ((dat9 V c).after 3 t) = _
  rw [after9_3]
  unfold out9_3
  rw [View.canon_unit_zero hz]
  simp only [View.ld_unit_zero (S := S5000x30) hz, View.ld_unit_zero (S := S30x10) hz, View.ld_unit_zero (S := S1x10) hz]
  rw [pay]
  obtain ⟨e00, e01, e10, e11, e20, e21, e30, e31⟩ := idx_facts t
  funext j
  show actArr zf (layerArr (R := 5000) (K := 30) (N := 10) (iblk9 V c 0 t) (iblk9 V c 1 t) (unrow (iblk9 V c 2 t))) j
    = G V c (((cfg9.win 3).blk t).view.emb j)
  unfold G
  refine actArr_at zf _ _ j _ ?_
  refine layerArr_block _ _ _ _ _ _ (t.val * 5000) j _ ?_ ?_ ?_ ?_ ?_
  · show win9_3.index t (0 : Fin 2) * 5000 + 1 * (j 0).val = t.val * 5000 + (j 0).val
    omega
  · show win9_3.index t (1 : Fin 2) * 10 + 1 * (j 1).val = (j 1).val
    omega
  · intro y z h0 h1
    show V c (Pipeline.arrRef spec9 0) (((cfg9.win 0).blk t).view.emb y) = V c (Pipeline.arrRef spec9 0) z
    refine congrArg _ (funext fun a => Fin.ext ?_)
    match a with
    | ⟨0, _⟩ => show win9_0.index t (0 : Fin 2) * 5000 + 1 * (y 0).val = (z 0).val; omega
    | ⟨1, _⟩ => show win9_0.index t (1 : Fin 2) * 30 + 1 * (y 1).val = (z 1).val; omega
  · intro y
    show V c (Pipeline.arrRef spec9 1) (((cfg9.win 1).blk t).view.emb y) = V c (Pipeline.arrRef spec9 1) y
    refine congrArg _ (funext fun a => Fin.ext ?_)
    match a with
    | ⟨0, _⟩ => show win9_1.index t (0 : Fin 2) * 30 + 1 * (y 0).val = (y 0).val; omega
    | ⟨1, _⟩ => show win9_1.index t (1 : Fin 2) * 10 + 1 * (y 1).val = (y 1).val; omega
  · intro y
    refine unrow_congr _ _ (fun u => ?_) y
    show V c (Pipeline.arrRef spec9 2) (((cfg9.win 2).blk t).view.emb u) = V c (Pipeline.arrRef spec9 2) u
    refine congrArg _ (funext fun a => Fin.ext ?_)
    match a with
    | ⟨0, _⟩ => show win9_2.index t (0 : Fin 2) * 1 + 1 * (u 0).val = (u 0).val; omega
    | ⟨1, _⟩ => show win9_2.index t (1 : Fin 2) * 10 + 1 * (u 1).val = (u 1).val; omega

/-- An index of the result array is in block `t` iff each coordinate is in the block's range on its axis. -/
theorem mem_blk (t : Fin cfg9.N) (i : S100000x10.Idx) :
    i ∈ ((cfg9.win 3).blk t).view.set ↔ ∀ a : Fin 2, win9_3.index t a * S5000x10.size a ≤ (i a).val
      ∧ (i a).val < win9_3.index t a * S5000x10.size a + S5000x10.size a := by
  show i ∈ ((View.whole main_v82).slice (win9_3.rect t)).set ↔ _
  rw [View.set_slice_whole, Rect.mem_set_unit]
  exact Iff.rfl

/-- Every row of the result lies in the block that holds it: row `r` in block `r / 5000`. -/
theorem cover (i : S100000x10.Idx) :
    ∃ t : Fin cfg9.N, (cfg9.win 3).flush t = true ∧ i ∈ ((cfg9.win 3).blk t).view.set := by
  have hi0 : (i 0).val < 100000 := (i 0).isLt
  have hi1 : (i 1).val < 10 := (i 1).isLt
  have hN : cfg9.N = 20 := N_9
  have ht : (i 0).val / 5000 < cfg9.N := by rw [hN]; omega
  refine ⟨⟨(i 0).val / 5000, ht⟩, flush9_3 _, ?_⟩
  have ef := idx_facts ⟨(i 0).val / 5000, ht⟩
  have eo0 : win9_3.index ⟨(i 0).val / 5000, ht⟩ (0 : Fin 2) = (i 0).val / 5000 := ef.2.2.2.2.2.2.1
  have eo1 : win9_3.index ⟨(i 0).val / 5000, ht⟩ (1 : Fin 2) = 0 := ef.2.2.2.2.2.2.2
  rw [mem_blk]
  intro a
  match a with
  | ⟨0, _⟩ =>
    show win9_3.index ⟨(i 0).val / 5000, ht⟩ (0 : Fin 2) * 5000 ≤ (i 0).val
      ∧ (i 0).val < win9_3.index ⟨(i 0).val / 5000, ht⟩ (0 : Fin 2) * 5000 + 5000
    rw [eo0]
    omega
  | ⟨1, _⟩ =>
    show win9_3.index ⟨(i 0).val / 5000, ht⟩ (1 : Fin 2) * 10 ≤ (i 1).val
      ∧ (i 1).val < win9_3.index ⟨(i 0).val / 5000, ht⟩ (1 : Fin 2) * 10 + 10
    rw [eo1]
    omega

/-- THE RESULT ARRAY after the call: the dense layer of every row of the operand it found, rectified. -/
theorem final (c : Dev nD) : (dat9 V c).arrAt 3 cfg9.N = G V c :=
  (dat9 V c).arrAt_eq_of_cover 3 (G V c) (fun t _ => flushed_eq V c t) (cover)

end Cert.KernelIdeal.Region9

end
-- ==== Proof.Region10.lean ====
/-
  A DENSE LAYER'S CALL, as one function of the arrays it finds.

  The call walks twenty blocks of 5000 rows.  At block `t` its body reads rows `5000 t … 5000 t + 4999` of the
  `[100000, 10]` operand, the whole `[10, 4]` weight and the whole one-row bias, and writes the same rows of the
  `[100000, 4]` result: the dense layer `x ↦ x · w + b` of those rows.  A dense layer acts on each row by itself, so the
  twenty blocks together are the layer of the whole operand — whatever the arrays hold when the call is entered.
-/
import proofs.«163669_j81638738363110_2_alg».proof.Proof.Gen.KernelIdeal.Frame
import proofs.«163669_j81638738363110_2_alg».proof.Proof.RowOps
import Idealize.ShloMosaic.Lib.Pipeline.Value

set_option maxRecDepth 16384

noncomputable section

namespace Cert.KernelIdeal.Region10

open Cert.KernelIdeal Cert.KernelIdeal.Gen Idealize.ShloMosaic Idealize.ShloMosaic.TcCoe Idealize.SL.Sem
open Idealize.ShloMosaic.Pipeline (Dat)
open Cert.DenseRow Cert.RowBias Cert.RowOps

variable (V : (c : Dev nD) → (b : Ref sig .tc) → Buf (Elt Ideal) ((c : Thread nD τ).loc b))

theorem hz : (![0, 0] : Fin 2 → Nat) = fun _ => 0 := funext fun a => by fin_cases a <;> rfl

/-- The body's arithmetic is the dense layer of its block of rows (the casts to the narrower format and the
    cast of the block to its own shape change nothing). -/
theorem pay (x0 : Vec Ideal S5000x10 .f32) (x1 : Vec Ideal S10x4 .f32) (x2 : Vec Ideal S1x4 .f32) :
    k10_pay1 x0 x1 x2 = layerArr (R := 5000) (K := 10) (N := 4) x0 x1 (unrow x2) := by
  unfold k10_pay1
  exact (klayer1Arr (DotDims.plain 5000 10 4) rfl rfl (Cert.PlainDot.lhs_at 5000 10 4) (Cert.PlainDot.rhs_at 5000 10 4)
      none _ _ x2 _ _).trans (by rw [shapeCast_self]; rfl)

/-- The windows' index maps over the grid: the operand's and the result's blocks move together down the rows, the
    weight and the bias stay whole. -/
theorem idx_facts : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- The result array as one function of the arrays the call finds: the dense layer of every row. -/
def G (c : Dev nD) : S100000x4.Idx → EReal :=
  layerArr (R := 100000) (K := 10) (N := 4) (V c (Pipeline.arrRef spec10 0)) (V c (Pipeline.arrRef spec10 1))
    (unrow (N := 4) (V c (Pipeline.arrRef spec10 2)))

/-- What block `t` writes back is block `t` of `G`. -/
theorem flushed_eq (c : Dev nD) (t : Fin cfg10.N) :
    (dat10 V c).flushed 3 t = ((cfg10.win 3).blk t).view.read (Elt Ideal) (G V c) := by
  show (cfg10.win 3).cut (grid10.coords t) ((dat10 V c).after 3 t) = _
  rw [after10_3]
  unfold out10_3
  rw [View.canon_unit_zero hz]
  simp only [View.ld_unit_zero (S := S5000x10) hz, View.ld_unit_zero (S := S10x4) hz, View.ld_unit_zero (S := S1x4) hz]
  rw [pay]
  obtain ⟨e00, e01, e10, e11, e20, e21, e30, e31⟩ := idx_facts t
  funext j
  show layerArr (R := 5000) (K := 10) (N := 4) (iblk10 V c 0 t) (iblk10 V c 1 t) (unrow (iblk10 V c 2 t)) j
    = G V c (((cfg10.win 3).blk t).view.emb j)
  unfold G
  refine layerArr_block _ _ _ _ _ _ (t.val * 5000) j _ ?_ ?_ ?_ ?_ ?_
  · show win10_3.index t (0 : Fin 2) * 5000 + 1 * (j 0).val = t.val * 5000 + (j 0).val
    omega
  · show win10_3.index t (1 : Fin 2) * 4 + 1 * (j 1).val = (j 1).val
    omega
  · intro y z h0 h1
    show V c (Pipeline.arrRef spec10 0) (((cfg10.win 0).blk t).view.emb y) = V c (Pipeline.arrRef spec10 0) z
    refine congrArg _ (funext fun a => Fin.ext ?_)
    match a with
    | ⟨0, _⟩ => show win10_0.index t (0 : Fin 2) * 5000 + 1 * (y 0).val = (z 0).val; omega
    | ⟨1, _⟩ => show win10_0.index t (1 : Fin 2) * 10 + 1 * (y 1).val = (z 1).val; omega
  · intro y
    show V c (Pipeline.arrRef spec10 1) (((cfg10.win 1).blk t).view.emb y) = V c (Pipeline.arrRef spec10 1) y
    refine congrArg _ (funext fun a => Fin.ext ?_)
    match a with
    | ⟨0, _⟩ => show win10_1.index t (0 : Fin 2) * 10 + 1 * (y 0).val = (y 0).val; omega
    | ⟨1, _⟩ => show win10_1.index t (1 : Fin 2) * 4 + 1 * (y 1).val = (y 1).val; omega
  · intro y
    refine unrow_congr _ _ (fun u => ?_) y
    show V c (Pipeline.arrRef spec10 2) (((cfg10.win 2).blk t).view.emb u) = V c (Pipeline.arrRef spec10 2) u
    refine congrArg _ (funext fun a => Fin.ext ?_)
    match a with
    | ⟨0, _⟩ => show win10_2.index t (0 : Fin 2) * 1 + 1 * (u 0).val = (u 0).val; omega
    | ⟨1, _⟩ => show win10_2.index t (1 : Fin 2) * 4 + 1 * (u 1).val = (u 1).val; omega

/-- An index of the result array is in block `t` iff each coordinate is in the block's range on its axis. -/
theorem mem_blk (t : Fin cfg10.N) (i : S100000x4.Idx) :
    i ∈ ((cfg10.win 3).blk t).view.set ↔ ∀ a : Fin 2, win10_3.index t a * S5000x4.size a ≤ (i a).val
      ∧ (i a).val < win10_3.index t a * S5000x4.size a + S5000x4.size a := by
  show i ∈ ((View.whole main_v84).slice (win10_3.rect t)).set ↔ _
  rw [View.set_slice_whole, Rect.mem_set_unit]
  exact Iff.rfl

/-- Every row of the result lies in the block that holds it: row `r` in block `r / 5000`. -/
theorem cover (i : S100000x4.Idx) :
    ∃ t : Fin cfg10.N, (cfg10.win 3).flush t = true ∧ i ∈ ((cfg10.win 3).blk t).view.set := by
  have hi0 : (i 0).val < 100000 := (i 0).isLt
  have hi1 : (i 1).val < 4 := (i 1).isLt
  have hN : cfg10.N = 20 := N_10
  have ht : (i 0).val / 5000 < cfg10.N := by rw [hN]; omega
  refine ⟨⟨(i 0).val / 5000, ht⟩, flush10_3 _, ?_⟩
  have ef := idx_facts ⟨(i 0).val / 5000, ht⟩
  have eo0 : win10_3.index ⟨(i 0).val / 5000, ht⟩ (0 : Fin 2) = (i 0).val / 5000 := ef.2.2.2.2.2.2.1
  have eo1 : win10_3.index ⟨(i 0).val / 5000, ht⟩ (1 : Fin 2) = 0 := ef.2.2.2.2.2.2.2
  rw [mem_blk]
  intro a
  match a with
  | ⟨0, _⟩ =>
    show win10_3.index ⟨(i 0).val / 5000, ht⟩ (0 : Fin 2) * 5000 ≤ (i 0).val
      ∧ (i 0).val < win10_3.index ⟨(i 0).val / 5000, ht⟩ (0 : Fin 2) * 5000 + 5000
    rw [eo0]
    omega
  | ⟨1, _⟩ =>
    show win10_3.index ⟨(i 0).val / 5000, ht⟩ (1 : Fin 2) * 4 ≤ (i 1).val
      ∧ (i 1).val < win10_3.index ⟨(i 0).val / 5000, ht⟩ (1 : Fin 2) * 4 + 4
    rw [eo1]
    omega

/-- THE RESULT ARRAY after the call: the dense layer of every row of the operand it found. -/
theorem final (c : Dev nD) : (dat10 V c).arrAt 3 cfg10.N = G V c :=
  (dat10 V c).arrAt_eq_of_cover 3 (G V c) (fun t _ => flushed_eq V c t) (cover)

end Cert.KernelIdeal.Region10

end
-- ==== Proof.Spec.lean ====
/-
  THE NETWORK BOTH PROGRAMS COMPUTE, as named functions of arrays, at the ideal values.

  A graph with 100000 nodes and 6400000 weighted edges gets one self loop of weight 1 per node (`src`, `dst`, `wt`:
  the edge lists with the loops appended).  A node's degree is the sum of the weights of the edges that end at it
  (`deg`), its factor is the reciprocal square root of the degree where that is positive and zero elsewhere (`dinv`),
  and an edge's normalisation is its weight times the factors of both its ends (`nrm`; negative indices are read from
  the end, `wrap`).  One hop sends every node's row along every edge, weighted by the edge's normalisation, and sums
  what arrives at each node (`hop`).  A convolution is a product with a weight matrix, one hop, and a bias; the network
  is three convolutions (the second and third rectified) and a two-layer rectified read-out (`out`).

  The functions are spelt with the host operations of the reference program, operand for operand, so that the
  reference's composed term is `out` of the arguments by unfolding the names.
-/
import proofs.«163669_j81638738363110_2_alg».proof.Proof.Gen.ReferenceIdeal
import Idealize.ShloMosaic.PureOps.Ideal

noncomputable section

namespace Cert.Spec

open Cert.ReferenceIdeal Cert.ReferenceIdeal.Gen Idealize.ShloMosaic

/-- An array of 32-bit integers, and an array of reals, of a given shape. -/
abbrev I32 (s : Shape) := (⟨s, .i32⟩ : BufTy).Contents (Elt Ideal)
abbrev F32 (s : Shape) := (⟨s, .f32⟩ : BufTy).Contents (Elt Ideal)

/-- The edges' sources with every node's self loop appended. -/
def src (ei : I32 S2x6400000) : I32 S6500000 :=
  concatenate S6500000 0 [⟨S6400000, (shapeCast _ (extractStridedSlice S1x6400000 ![0, 0] ei slices_S2x6400000_S1x6400000_0_0) shapeCasts_S1x6400000_S6400000)⟩, ⟨S100000, (iotaInDim S100000 32 0)⟩] concatenates_S6400000_S100000_S6500000_d0

/-- The edges' targets with every node's self loop appended. -/
def dst (ei : I32 S2x6400000) : I32 S6500000 :=
  concatenate S6500000 0 [⟨S6400000, (shapeCast _ (extractStridedSlice S1x6400000 ![1, 0] ei slices_S2x6400000_S1x6400000_1_0) shapeCasts_S1x6400000_S6400000)⟩, ⟨S100000, (iotaInDim S100000 32 0)⟩] concatenates_S6400000_S100000_S6500000_d0

/-- The edges' weights with weight one for every self loop. -/
def wt (ew : F32 S6400000) : F32 S6500000 :=
  concatenate S6500000 0 [⟨S6400000, ew⟩, ⟨S100000, (broadcastInDim S100000 ![] bcast_S_S100000 (constant (F := Ideal) S_ .f32 0x3F800000#32))⟩] concatenates_S6400000_S100000_S6500000_d0

/-- A negative index counts from the end. -/
def wrap (s : I32 S6500000) : I32 S6500000 :=
  select (cmpi .slt s (broadcastInDim S6500000 ![] bcast_S_S6500000 (constantI S_ 32 0#32))) (addi s (broadcastInDim S6500000 ![] bcast_S_S6500000 (constantI S_ 32 100000#32))) s

/-- A list of indices as a one-column table of index vectors. -/
def col (s : I32 S6500000) : I32 S6500000x1 := broadcastInDim S6500000x1 ![0] bcast_S6500000_S6500000x1_0 s

/-- A node's degree: the weights of the edges that end at it, summed. -/
def deg (d : I32 S6500000) (w : F32 S6500000) : F32 S100000 :=
  Host.scatterAdd (F := Ideal) (φ := .f32) scatter_S100000_S6500000x1_S6500000_n_0_0_1 (broadcastInDim S100000 ![] bcast_S_S100000 (constant (F := Ideal) S_ .f32 0x00000000#32)) (col d) w

/-- The reciprocal square root of a positive degree, zero elsewhere. -/
def dinv (g : F32 S100000) : F32 S100000 :=
  select (cmpf (F := Ideal) (φ := .f32) .ogt g (broadcastInDim S100000 ![] bcast_S_S100000 (constant (F := Ideal) S_ .f32 0x00000000#32))) (Host.rsqrt (F := Ideal) (φ := .f32) g) (broadcastInDim S100000 ![] bcast_S_S100000 (id (constant (F := Ideal) S_ .f32 0x00000000#32)))

/-- An edge's normalisation: its source's factor times its weight times its target's factor. -/
def nrm (s d : I32 S6500000) (w : F32 S6500000) : F32 S6500000 :=
  mulf (F := Ideal) (φ := .f32) (mulf (F := Ideal) (φ := .f32) (Host.gather gather_S100000_S6500000x1_S6500000_n_0_n_n_0_1_1 (dinv (deg d w)) (col (wrap s))) w) (Host.gather gather_S100000_S6500000x1_S6500000_n_0_n_n_0_1_1 (dinv (deg d w)) (col (wrap d)))

/-- The normalisations as a column, one entry per edge. -/
def nrmCol (n : F32 S6500000) : F32 S6500000x1 := broadcastInDim S6500000x1 ![0] bcast_S6500000_S6500000x1_0 n

/-- The rows of `h` at the edges' sources. -/
def rowsAt (h : F32 S100000x30) (s : I32 S6500000) : F32 S6500000x30 :=
  Host.gather gather_S100000x30_S6500000x1_S6500000x30_1_0_n_n_0_1_130 h (col (wrap s))

/-- Every row times its edge's normalisation. -/
def weighted (g : F32 S6500000x30) (n1 : F32 S6500000x1) : F32 S6500000x30 :=
  mulf (F := Ideal) (φ := .f32) g (broadcastInDim S6500000x30 ![0, 1] bcast_S6500000x1_S6500000x30_0_1 n1)

/-- The rows that arrive at each node, summed. -/
def arrive (msg : F32 S6500000x30) (d : I32 S6500000) : F32 S100000x30 :=
  Host.scatterAdd (F := Ideal) (φ := .f32) scatter_S100000x30_S6500000x1_S6500000x30_1_0_0_1 (broadcastInDim S100000x30 ![] bcast_S_S100000x30 (constant (F := Ideal) S_ .f32 0x00000000#32)) (col d) msg

/-- One hop of the normalised aggregation. -/
def hop (h : F32 S100000x30) (s d : I32 S6500000) (n1 : F32 S6500000x1) : F32 S100000x30 :=
  arrive (weighted (rowsAt h s) n1) d

/-- A bias vector added to every row. -/
def bias30 (x : F32 S100000x30) (b : F32 S30) : F32 S100000x30 :=
  addf (F := Ideal) (φ := .f32) x (broadcastInDim S100000x30 ![0, 1] bcast_S1x30_S100000x30_0_1 (broadcastInDim S1x30 ![1] bcast_S30_S1x30_1 b))

/-- The rectifier: the larger of each entry and zero. -/
def relu30 (x : F32 S100000x30) : F32 S100000x30 :=
  maximumf (F := Ideal) (φ := .f32) x (broadcastInDim S100000x30 ![] bcast_S_S100000x30 (constant (F := Ideal) S_ .f32 0x00000000#32))

/-- The first convolution. -/
def conv1 (x : F32 S100000x10) (W : F32 S10x30) (b : F32 S30) (s d : I32 S6500000) (n1 : F32 S6500000x1) : F32 S100000x30 :=
  bias30 (hop (Host.dotGeneral (F := Ideal) (φ₁ := .f32) (φ₂ := .f32) dot_S100000x10_S10x30_S100000x30_1_0_0_1_n_n none x W) s d n1) b

/-- A later convolution, before its rectifier. -/
def conv (x : F32 S100000x30) (W : F32 S30x30) (b : F32 S30) (s d : I32 S6500000) (n1 : F32 S6500000x1) : F32 S100000x30 :=
  bias30 (hop (Host.dotGeneral (F := Ideal) (φ₁ := .f32) (φ₂ := .f32) dot_S100000x30_S30x30_S100000x30_1_0_0_1_n_n none x W) s d n1) b

/-- The read-out's hidden layer, rectified. -/
def head1 (x : F32 S100000x30) (W : F32 S30x10) (b : F32 S10) : F32 S100000x10 :=
  maximumf (F := Ideal) (φ := .f32) (addf (F := Ideal) (φ := .f32) (Host.dotGeneral (F := Ideal) (φ₁ := .f32) (φ₂ := .f32) dot_S100000x30_S30x10_S100000x10_1_0_0_1_n_n none x W) (broadcastInDim S100000x10 ![0, 1] bcast_S1x10_S100000x10_0_1 (broadcastInDim S1x10 ![1] bcast_S10_S1x10_1 b))) (broadcastInDim S100000x10 ![] bcast_S_S100000x10 (constant (F := Ideal) S_ .f32 0x00000000#32))

/-- The read-out's last layer. -/
def head2 (x : F32 S100000x10) (W : F32 S10x4) (b : F32 S4) : F32 S100000x4 :=
  addf (F := Ideal) (φ := .f32) (Host.dotGeneral (F := Ideal) (φ₁ := .f32) (φ₂ := .f32) dot_S100000x10_S10x4_S100000x4_1_0_0_1_n_n none x W) (broadcastInDim S100000x4 ![0, 1] bcast_S1x4_S100000x4_0_1 (broadcastInDim S1x4 ![1] bcast_S4_S1x4_1 b))

/-- The normalisation column of the graph. -/
def ncol (ei : I32 S2x6400000) (ew : F32 S6400000) : F32 S6500000x1 := nrmCol (nrm (src ei) (dst ei) (wt ew))

/-- The three convolutions. -/
def h1 (x : F32 S100000x10) (ei : I32 S2x6400000) (ew : F32 S6400000) (W1 : F32 S10x30) (b1 : F32 S30) : F32 S100000x30 :=
  conv1 x W1 b1 (src ei) (dst ei) (ncol ei ew)
def h2 (x : F32 S100000x10) (ei : I32 S2x6400000) (ew : F32 S6400000) (W1 : F32 S10x30) (b1 : F32 S30) (W2 : F32 S30x30) (b2 : F32 S30) : F32 S100000x30 :=
  relu30 (conv (h1 x ei ew W1 b1) W2 b2 (src ei) (dst ei) (ncol ei ew))
def h3 (x : F32 S100000x10) (ei : I32 S2x6400000) (ew : F32 S6400000) (W1 : F32 S10x30) (b1 : F32 S30) (W2 : F32 S30x30) (b2 : F32 S30)
    (W3 : F32 S30x30) (b3 : F32 S30) : F32 S100000x30 :=
  relu30 (conv (h2 x ei ew W1 b1 W2 b2) W3 b3 (src ei) (dst ei) (ncol ei ew))

/-- The whole network. -/
def out (x : F32 S100000x10) (ei : I32 S2x6400000) (ew : F32 S6400000) (W1 : F32 S10x30) (b1 : F32 S30) (W2 : F32 S30x30) (b2 : F32 S30)
    (W3 : F32 S30x30) (b3 : F32 S30) (lw1 : F32 S30x10) (lb1 : F32 S10) (lw2 : F32 S10x4) (lb2 : F32 S4) : F32 S100000x4 :=
  head2 (head1 (h3 x ei ew W1 b1 W2 b2 W3 b3) lw1 lb1) lw2 lb2

end Cert.Spec

end
-- ==== Proof.ZeroRow.lean ====
/-
  THE ZERO BIAS ROW.  The kernel program gives each of its products a bias of zeros, laid out as one row of thirty.
-/
import proofs.«163669_j81638738363110_2_alg».proof.Proof.Gen.KernelIdeal
import Idealize.ShloMosaic.PureOps.Ideal

noncomputable section

namespace Cert.KernelIdeal.HostStages

open Cert.KernelIdeal Cert.KernelIdeal.Gen Idealize.ShloMosaic

/-- A zero bias laid out as one row of thirty. -/
def zrow30 : (⟨S1x30, .f32⟩ : BufTy).Contents (Elt Ideal) :=
  shapeCast S1x30 (broadcastInDim S30 ![] bcast_S_S30 (constant (F := Ideal) S_ .f32 0x00000000#32)) shapeCasts_S30_S1x30

end Cert.KernelIdeal.HostStages

end
-- ==== Proof.HostStages.lean ====
/-
  WHAT EACH STRETCH OF HOST OPERATIONS OF THE KERNEL PROGRAM LEAVES, in the network's own terms.

  Between its calls the kernel program runs short stretches of host operations.  The first stretch builds the edge lists
  with the self loops appended, the degrees, the factors and the column of edge normalisations, and a zero bias row.  After
  that the stretches repeat, layer by layer: gather the product's rows at the edges' sources; sum the weighted rows
  arriving at each node and lay the layer's bias out as a row; lay out a zero row for the next product.  Each is read here
  from any contents `W` at its start, as the corresponding function of the network (`Spec`) of what `W` holds; a reference
  the stretch does not write keeps its contents.
-/
import proofs.«163669_j81638738363110_2_alg».proof.Proof.Gen.KernelIdeal.Launch
import proofs.«163669_j81638738363110_2_alg».proof.Proof.Spec
import proofs.«163669_j81638738363110_2_alg».proof.Proof.ZeroRow
import Idealize.ShloMosaic.Lib.StableHlo.Run

set_option maxRecDepth 16384

noncomputable section

namespace Cert.KernelIdeal.HostStages

open Cert.KernelIdeal Cert.KernelIdeal.Gen Idealize.ShloMosaic Idealize.ShloMosaic.TcCoe Idealize.ShloMosaic.StableHlo Idealize.SL.Sem

/-! ## The references each stretch writes -/

/-- The references `hostOps0`'s operations write. -/
abbrev hostOps0_W : List (Ref sig .tc) := [main_v0, main_v1, main_v2, main_v3, main_v4, main_v5, main_v6, main_cst, main_v7, main_v8, main_cst_0, main_v9, main_v10, main_v11, main_cst_1, main_v12, main_v13, main_v14, main_cst_2]
theorem hostOps0_writes : (hostOps0 : List (HloOp τ sig (Elt Ideal))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps0` does not write keeps its contents. -/
theorem hostOps0_keep (W : Valuation τ sig (Elt Ideal)) (r : Ref sig .tc) (h : r ∉ hostOps0_W) :
    StableHlo.after hostOps0 W (Proc.devRef .tc r) = W (Proc.devRef .tc r) :=
  StableHlo.after_of_writes_sub hostOps0 W hostOps0_writes h

/-- The references `hostOps0_1`'s operations write. -/
abbrev hostOps0_1_W : List (Ref sig .tc) := [main_call0_v0, main_call0_v1, main_v15]
theorem hostOps0_1_writes : (hostOps0_1 : List (HloOp τ sig (Elt Ideal))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps0_1` does not write keeps its contents. -/
theorem hostOps0_1_keep (W : Valuation τ sig (Elt Ideal)) (r : Ref sig .tc) (h : r ∉ hostOps0_1_W) :
    StableHlo.after hostOps0_1 W (Proc.devRef .tc r) = W (Proc.devRef .tc r) :=
  StableHlo.after_of_writes_sub hostOps0_1 W hostOps0_1_writes h

/-- The references `hostOps0_2`'s operations write. -/
abbrev hostOps0_2_W : List (Ref sig .tc) := [main_c, main_v16, main_v17, main_c_3, main_v18, main_v19, main_v20, main_v21, main_v22, main_v23, main_c_4, main_v24, main_v25, main_c_5, main_v26, main_v27, main_v28, main_v29, main_v30, main_v31, main_v32, main_cst_6, main_v33, main_v34]
theorem hostOps0_2_writes : (hostOps0_2 : List (HloOp τ sig (Elt Ideal))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps0_2` does not write keeps its contents. -/
theorem hostOps0_2_keep (W : Valuation τ sig (Elt Ideal)) (r : Ref sig .tc) (h : r ∉ hostOps0_2_W) :
    StableHlo.after hostOps0_2 W (Proc.devRef .tc r) = W (Proc.devRef .tc r) :=
  StableHlo.after_of_writes_sub hostOps0_2 W hostOps0_2_writes h

/-- The references `hostOps1`'s operations write. -/
abbrev hostOps1_W : List (Ref sig .tc) := [main_c_7, main_v36, main_v37, main_c_8, main_v38, main_v39, main_v40, main_v41, main_v42]
theorem hostOps1_writes : (hostOps1 : List (HloOp τ sig (Elt Ideal))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps1` does not write keeps its contents. -/
theorem hostOps1_keep (W : Valuation τ sig (Elt Ideal)) (r : Ref sig .tc) (h : r ∉ hostOps1_W) :
    StableHlo.after hostOps1 W (Proc.devRef .tc r) = W (Proc.devRef .tc r) :=
  StableHlo.after_of_writes_sub hostOps1 W hostOps1_writes h

/-- The references `hostOps2`'s operations write. -/
abbrev hostOps2_W : List (Ref sig .tc) := [main_cst_9, main_v44, main_v45, main_v46, main_v47]
theorem hostOps2_writes : (hostOps2 : List (HloOp τ sig (Elt Ideal))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps2` does not write keeps its contents. -/
theorem hostOps2_keep (W : Valuation τ sig (Elt Ideal)) (r : Ref sig .tc) (h : r ∉ hostOps2_W) :
    StableHlo.after hostOps2 W (Proc.devRef .tc r) = W (Proc.devRef .tc r) :=
  StableHlo.after_of_writes_sub hostOps2 W hostOps2_writes h

/-- The references `hostOps3`'s operations write. -/
abbrev hostOps3_W : List (Ref sig .tc) := [main_cst_10, main_v49, main_v50]
theorem hostOps3_writes : (hostOps3 : List (HloOp τ sig (Elt Ideal))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps3` does not write keeps its contents. -/
theorem hostOps3_keep (W : Valuation τ sig (Elt Ideal)) (r : Ref sig .tc) (h : r ∉ hostOps3_W) :
    StableHlo.after hostOps3 W (Proc.devRef .tc r) = W (Proc.devRef .tc r) :=
  StableHlo.after_of_writes_sub hostOps3 W hostOps3_writes h

/-- The references `hostOps4`'s operations write. -/
abbrev hostOps4_W : List (Ref sig .tc) := [main_c_11, main_v52, main_v53, main_c_12, main_v54, main_v55, main_v56, main_v57, main_v58]
theorem hostOps4_writes : (hostOps4 : List (HloOp τ sig (Elt Ideal))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps4` does not write keeps its contents. -/
theorem hostOps4_keep (W : Valuation τ sig (Elt Ideal)) (r : Ref sig .tc) (h : r ∉ hostOps4_W) :
    StableHlo.after hostOps4 W (Proc.devRef .tc r) = W (Proc.devRef .tc r) :=
  StableHlo.after_of_writes_sub hostOps4 W hostOps4_writes h

/-- The references `hostOps5`'s operations write. -/
abbrev hostOps5_W : List (Ref sig .tc) := [main_cst_13, main_v60, main_v61, main_v62, main_v63]
theorem hostOps5_writes : (hostOps5 : List (HloOp τ sig (Elt Ideal))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps5` does not write keeps its contents. -/
theorem hostOps5_keep (W : Valuation τ sig (Elt Ideal)) (r : Ref sig .tc) (h : r ∉ hostOps5_W) :
    StableHlo.after hostOps5 W (Proc.devRef .tc r) = W (Proc.devRef .tc r) :=
  StableHlo.after_of_writes_sub hostOps5 W hostOps5_writes h

/-- The references `hostOps6`'s operations write. -/
abbrev hostOps6_W : List (Ref sig .tc) := [main_cst_14, main_v65, main_v66]
theorem hostOps6_writes : (hostOps6 : List (HloOp τ sig (Elt Ideal))).Forall fun op => op.writes ⊆ (hostOps6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps6` does not write keeps its contents. -/
theorem hostOps6_keep (W : Valuation τ sig (Elt Ideal)) (r : Ref sig .tc) (h : r ∉ hostOps6_W) :
    StableHlo.after hostOps6 W (Proc.devRef .tc r) = W (Proc.devRef .tc r) :=
  StableHlo.after_of_writes_sub hostOps6 W hostOps6_writes h

/-- The references `hostOps7`'s operations write. -/
abbrev hostOps7_W : List (Ref sig .tc) := [main_c_15, main_v68, main_v69, main_c_16, main_v70, main_v71, main_v72, main_v73, main_v74]
theorem hostOps7_writes : (hostOps7 : List (HloOp τ sig (Elt Ideal))).Forall fun op => op.writes ⊆ (hostOps7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps7` does not write keeps its contents. -/
theorem hostOps7_keep (W : Valuation τ sig (Elt Ideal)) (r : Ref sig .tc) (h : r ∉ hostOps7_W) :
    StableHlo.after hostOps7 W (Proc.devRef .tc r) = W (Proc.devRef .tc r) :=
  StableHlo.after_of_writes_sub hostOps7 W hostOps7_writes h

/-- The references `hostOps8`'s operations write. -/
abbrev hostOps8_W : List (Ref sig .tc) := [main_cst_17, main_v76, main_v77, main_v78, main_v79]
theorem hostOps8_writes : (hostOps8 : List (HloOp τ sig (Elt Ideal))).Forall fun op => op.writes ⊆ (hostOps8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps8` does not write keeps its contents. -/
theorem hostOps8_keep (W : Valuation τ sig (Elt Ideal)) (r : Ref sig .tc) (h : r ∉ hostOps8_W) :
    StableHlo.after hostOps8 W (Proc.devRef .tc r) = W (Proc.devRef .tc r) :=
  StableHlo.after_of_writes_sub hostOps8 W hostOps8_writes h

/-- The references `hostOps9`'s operations write. -/
abbrev hostOps9_W : List (Ref sig .tc) := [main_v81]
theorem hostOps9_writes : (hostOps9 : List (HloOp τ sig (Elt Ideal))).Forall fun op => op.writes ⊆ (hostOps9_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps9` does not write keeps its contents. -/
theorem hostOps9_keep (W : Valuation τ sig (Elt Ideal)) (r : Ref sig .tc) (h : r ∉ hostOps9_W) :
    StableHlo.after hostOps9 W (Proc.devRef .tc r) = W (Proc.devRef .tc r) :=
  StableHlo.after_of_writes_sub hostOps9 W hostOps9_writes h

/-- The references `hostOps10`'s operations write. -/
abbrev hostOps10_W : List (Ref sig .tc) := [main_v83]
theorem hostOps10_writes : (hostOps10 : List (HloOp τ sig (Elt Ideal))).Forall fun op => op.writes ⊆ (hostOps10_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps10` does not write keeps its contents. -/
theorem hostOps10_keep (W : Valuation τ sig (Elt Ideal)) (r : Ref sig .tc) (h : r ∉ hostOps10_W) :
    StableHlo.after hostOps10 W (Proc.devRef .tc r) = W (Proc.devRef .tc r) :=
  StableHlo.after_of_writes_sub hostOps10 W hostOps10_writes h

/-! ## The first stretch: the graph's edge lists and normalisations

The stretch is three lists of operations.  The first builds the edge lists and weights with the self loops appended, the
degrees, and the two operands of the factor's choice (is the degree positive; its reciprocal square root); the second
makes the choice; the third gathers the factors at both ends of every edge and multiplies, giving the normalisation
column, and lays out a zero bias row.  Each list is read from any contents at its start. -/

/-- The edges' sources with the self loops appended. -/
theorem first_v3 (W : Valuation τ sig (Elt Ideal)) :
    StableHlo.after hostOps0 W (Proc.devRef .tc main_v3) = Cert.Spec.src (W (Proc.devRef .tc main_arg1)) := by
  dsimp only [hostOps0]
  after_results
  rfl
/-- The edges' targets with the self loops appended. -/
theorem first_v6 (W : Valuation τ sig (Elt Ideal)) :
    StableHlo.after hostOps0 W (Proc.devRef .tc main_v6) = Cert.Spec.dst (W (Proc.devRef .tc main_arg1)) := by
  dsimp only [hostOps0]
  after_results
  rfl
/-- The edges' weights with weight one for the self loops. -/
theorem first_v8 (W : Valuation τ sig (Elt Ideal)) :
    StableHlo.after hostOps0 W (Proc.devRef .tc main_v8) = Cert.Spec.wt (W (Proc.devRef .tc main_arg2)) := by
  dsimp only [hostOps0]
  after_results
  rfl
/-- Is the degree positive. -/
theorem first_v13 (W : Valuation τ sig (Elt Ideal)) :
    StableHlo.after hostOps0 W (Proc.devRef .tc main_v13)
      = cmpf (F := Ideal) (φ := .f32) .ogt (Cert.Spec.deg (Cert.Spec.dst (W (Proc.devRef .tc main_arg1))) (Cert.Spec.wt (W (Proc.devRef .tc main_arg2))))
          (broadcastInDim S100000 ![] bcast_S_S100000 (constant (F := Ideal) S_ .f32 0x00000000#32)) := by
  dsimp only [hostOps0]
  after_results
  rfl
/-- The degree's reciprocal square root. -/
theorem first_v14 (W : Valuation τ sig (Elt Ideal)) :
    StableHlo.after hostOps0 W (Proc.devRef .tc main_v14)
      = Host.rsqrt (F := Ideal) (φ := .f32) (Cert.Spec.deg (Cert.Spec.dst (W (Proc.devRef .tc main_arg1))) (Cert.Spec.wt (W (Proc.devRef .tc main_arg2)))) := by
  dsimp only [hostOps0]
  after_results
  rfl
/-- The zero the factor falls back to. -/
theorem first_cst_2 (W : Valuation τ sig (Elt Ideal)) :
    StableHlo.after hostOps0 W (Proc.devRef .tc main_cst_2) = constant (F := Ideal) S_ .f32 0x00000000#32 := by
  dsimp only [hostOps0]
  after_results
/-- The choice: the factor of every node, from the three operands the first list left. -/
theorem second_v15 (W : Valuation τ sig (Elt Ideal)) :
    StableHlo.after hostOps0_1 W (Proc.devRef .tc main_v15)
      = select (W (Proc.devRef .tc main_v13)) (W (Proc.devRef .tc main_v14)) (broadcastInDim S100000 ![] bcast_S_S100000 (id (W (Proc.devRef .tc main_cst_2)))) := by
  dsimp only [hostOps0_1]
  after_results
  rfl
set_option maxHeartbeats 4000000 in
/-- The normalisation column, from the factors, the edge lists and the weights the earlier lists left. -/
theorem third_v32 (W : Valuation τ sig (Elt Ideal)) :
    StableHlo.after hostOps0_2 W (Proc.devRef .tc main_v32)
      = Cert.Spec.nrmCol (mulf (F := Ideal) (φ := .f32) (mulf (F := Ideal) (φ := .f32)
          (Host.gather gather_S100000_S6500000x1_S6500000_n_0_n_n_0_1_1 (W (Proc.devRef .tc main_v15)) (Cert.Spec.col (Cert.Spec.wrap (W (Proc.devRef .tc main_v3))))) (W (Proc.devRef .tc main_v8)))
          (Host.gather gather_S100000_S6500000x1_S6500000_n_0_n_n_0_1_1 (W (Proc.devRef .tc main_v15)) (Cert.Spec.col (Cert.Spec.wrap (W (Proc.devRef .tc main_v6)))))) := by
  dsimp only [hostOps0_2]
  after_results_simp <;> rfl
/-- The zero bias row of the first product. -/
theorem first_v34 (W : Valuation τ sig (Elt Ideal)) : StableHlo.after hostOps0_2 W (Proc.devRef .tc main_v34) = zrow30 := by
  dsimp only [hostOps0_2]
  after_results
  rfl

/-- The whole first stretch at the normalisation column: the network's column of the edge lists and weights. -/
theorem first_v32 (W : Valuation τ sig (Elt Ideal)) :
    StableHlo.after hostOps0_2 (StableHlo.after hostOps0_1 (StableHlo.after hostOps0 W)) (Proc.devRef .tc main_v32)
      = Cert.Spec.ncol (W (Proc.devRef .tc main_arg1)) (W (Proc.devRef .tc main_arg2)) := by
  have e15 : StableHlo.after hostOps0_1 (StableHlo.after hostOps0 W) (Proc.devRef .tc main_v15)
      = Cert.Spec.dinv (Cert.Spec.deg (Cert.Spec.dst (W (Proc.devRef .tc main_arg1))) (Cert.Spec.wt (W (Proc.devRef .tc main_arg2)))) := by
    refine (second_v15 (StableHlo.after hostOps0 W)).trans ?_
    rw [first_v13 W, first_v14 W, first_cst_2 W]
    rfl
  have e3 : StableHlo.after hostOps0_1 (StableHlo.after hostOps0 W) (Proc.devRef .tc main_v3) = Cert.Spec.src (W (Proc.devRef .tc main_arg1)) :=
    (hostOps0_1_keep (StableHlo.after hostOps0 W) main_v3 (by decide)).trans (first_v3 W)
  have e6 : StableHlo.after hostOps0_1 (StableHlo.after hostOps0 W) (Proc.devRef .tc main_v6) = Cert.Spec.dst (W (Proc.devRef .tc main_arg1)) :=
    (hostOps0_1_keep (StableHlo.after hostOps0 W) main_v6 (by decide)).trans (first_v6 W)
  have e8 : StableHlo.after hostOps0_1 (StableHlo.after hostOps0 W) (Proc.devRef .tc main_v8) = Cert.Spec.wt (W (Proc.devRef .tc main_arg2)) :=
    (hostOps0_1_keep (StableHlo.after hostOps0 W) main_v8 (by decide)).trans (first_v8 W)
  refine (third_v32 (StableHlo.after hostOps0_1 (StableHlo.after hostOps0 W))).trans ?_
  rw [e15, e3, e6, e8]
  rfl

/-! ## The later stretches -/

/-- `hostOps1` gathers the rows of the layer's product at the edges' sources. -/
theorem hostOps1_main_v42 (W : Valuation τ sig (Elt Ideal)) :
    StableHlo.after hostOps1 W (Proc.devRef .tc main_v42) = Cert.Spec.rowsAt (W (Proc.devRef .tc main_v35)) (W (Proc.devRef .tc main_v3)) := by
  dsimp only [hostOps1]
  after_results
  rfl

/-- `hostOps2` sums the weighted rows that arrive at each node, and lays the layer's bias out as one row. -/
theorem hostOps2_main_v46 (W : Valuation τ sig (Elt Ideal)) :
    StableHlo.after hostOps2 W (Proc.devRef .tc main_v46) = Cert.Spec.arrive (W (Proc.devRef .tc main_v43)) (W (Proc.devRef .tc main_v6)) := by
  dsimp only [hostOps2]
  after_results
  rfl
theorem hostOps2_main_v47 (W : Valuation τ sig (Elt Ideal)) :
    StableHlo.after hostOps2 W (Proc.devRef .tc main_v47) = shapeCast S1x30 (W (Proc.devRef .tc main_arg4)) shapeCasts_S30_S1x30 := by
  dsimp only [hostOps2]
  after_results
  rfl

/-- `hostOps3` lays out the zero bias of the layer's product as one row. -/
theorem hostOps3_main_v50 (W : Valuation τ sig (Elt Ideal)) : StableHlo.after hostOps3 W (Proc.devRef .tc main_v50) = zrow30 := by
  dsimp only [hostOps3]
  after_results
  rfl

/-- `hostOps4` gathers the rows of the layer's product at the edges' sources. -/
theorem hostOps4_main_v58 (W : Valuation τ sig (Elt Ideal)) :
    StableHlo.after hostOps4 W (Proc.devRef .tc main_v58) = Cert.Spec.rowsAt (W (Proc.devRef .tc main_v51)) (W (Proc.devRef .tc main_v3)) := by
  dsimp only [hostOps4]
  after_results
  rfl

/-- `hostOps5` sums the weighted rows that arrive at each node, and lays the layer's bias out as one row. -/
theorem hostOps5_main_v62 (W : Valuation τ sig (Elt Ideal)) :
    StableHlo.after hostOps5 W (Proc.devRef .tc main_v62) = Cert.Spec.arrive (W (Proc.devRef .tc main_v59)) (W (Proc.devRef .tc main_v6)) := by
  dsimp only [hostOps5]
  after_results
  rfl
theorem hostOps5_main_v63 (W : Valuation τ sig (Elt Ideal)) :
    StableHlo.after hostOps5 W (Proc.devRef .tc main_v63) = shapeCast S1x30 (W (Proc.devRef .tc main_arg6)) shapeCasts_S30_S1x30 := by
  dsimp only [hostOps5]
  after_results
  rfl

/-- `hostOps6` lays out the zero bias of the layer's product as one row. -/
theorem hostOps6_main_v66 (W : Valuation τ sig (Elt Ideal)) : StableHlo.after hostOps6 W (Proc.devRef .tc main_v66) = zrow30 := by
  dsimp only [hostOps6]
  after_results
  rfl

/-- `hostOps7` gathers the rows of the layer's product at the edges' sources. -/
theorem hostOps7_main_v74 (W : Valuation τ sig (Elt Ideal)) :
    StableHlo.after hostOps7 W (Proc.devRef .tc main_v74) = Cert.Spec.rowsAt (W (Proc.devRef .tc main_v67)) (W (Proc.devRef .tc main_v3)) := by
  dsimp only [hostOps7]
  after_results
  rfl

/-- `hostOps8` sums the weighted rows that arrive at each node, and lays the layer's bias out as one row. -/
theorem hostOps8_main_v78 (W : Valuation τ sig (Elt Ideal)) :
    StableHlo.after hostOps8 W (Proc.devRef .tc main_v78) = Cert.Spec.arrive (W (Proc.devRef .tc main_v75)) (W (Proc.devRef .tc main_v6)) := by
  dsimp only [hostOps8]
  after_results
  rfl
theorem hostOps8_main_v79 (W : Valuation τ sig (Elt Ideal)) :
    StableHlo.after hostOps8 W (Proc.devRef .tc main_v79) = shapeCast S1x30 (W (Proc.devRef .tc main_arg8)) shapeCasts_S30_S1x30 := by
  dsimp only [hostOps8]
  after_results
  rfl

/-- The read-out's biases laid out as rows. -/
theorem hostOps9_main_v81 (W : Valuation τ sig (Elt Ideal)) :
    StableHlo.after hostOps9 W (Proc.devRef .tc main_v81) = shapeCast S1x10 (W (Proc.devRef .tc main_arg10)) shapeCasts_S10_S1x10 := by
  dsimp only [hostOps9]
  after_results
  rfl
theorem hostOps10_main_v83 (W : Valuation τ sig (Elt Ideal)) :
    StableHlo.after hostOps10 W (Proc.devRef .tc main_v83) = shapeCast S1x4 (W (Proc.devRef .tc main_arg12)) shapeCasts_S4_S1x4 := by
  dsimp only [hostOps10]
  after_results
  rfl

end Cert.KernelIdeal.HostStages

end
-- ==== Proof.Convert.lean ====
/-
  EACH CALL'S RESULT IN THE NETWORK'S OWN TERMS.

  A call of the kernel program leaves one row-local function of the arrays it found (a dense layer, rows scaled by a
  column, a bias added to every row, possibly rectified).  The network (`Spec`) spells the same functions with host
  operations.  Given what the call's input arrays hold, each call's result is the network's corresponding stage:
  • a dense layer with the zero bias row is the plain product (`s + 0 = s`), the host's `dot_general`;
  • rows scaled by the normalisation column are the host's product with the column broadcast over the columns;
  • a bias row obtained by reshaping the bias vector, added to every row, is the host's sum with the vector broadcast;
  • the larger of an entry and the zero word is the host's maximum with the broadcast zero.
-/
import proofs.«163669_j81638738363110_2_alg».proof.Proof.RowOps
import proofs.«163669_j81638738363110_2_alg».proof.Proof.ZeroRow
import proofs.«163669_j81638738363110_2_alg».proof.Proof.Spec

set_option maxRecDepth 16384

noncomputable section

namespace Cert.KernelIdeal.Convert

open Idealize.ShloMosaic Idealize.ShloMosaic.ValueIdx
open Cert.DenseRow Cert.RowBias Cert.RowOps Cert.ProdRows Cert.KernelIdeal.HostStages
open Cert.KernelIdeal.RegionValue (prodArr)

/-- Every entry of the zero bias row is the zero word's value. -/
theorem unrow_zrow30 (j : (⟨1, ![30]⟩ : Shape).Idx) : unrow (N := 30) zrow30 j = zf := by
  unfold zrow30
  rw [unrow_cast]
  rw [broadcastInDim_apply _ _ _ j ix0 (fun a => a.elim0)]
  rfl

/-- The first product: a dense layer with the zero bias row. -/
theorem dot1 (x X : (⟨2, ![100000, 10]⟩ : Shape).Idx → EReal) (w Wt : (⟨2, ![10, 30]⟩ : Shape).Idx → EReal)
    (b : (⟨2, ![1, 30]⟩ : Shape).Idx → EReal) (hx : x = X) (hw : w = Wt) (hb : b = zrow30) :
    layerArr (R := 100000) (K := 10) (N := 30) x w (unrow b)
      = Host.dotGeneral (F := Ideal) (φ₁ := .f32) (φ₂ := .f32) Cert.ReferenceIdeal.dot_S100000x10_S10x30_S100000x30_1_0_0_1_n_n none X Wt := by
  subst hx hw hb
  exact (layerArr_zero _ _ _ unrow_zrow30).trans (hprod none _ _).symm

/-- A later product: a dense layer with the zero bias row. -/
theorem dot2 (x X : (⟨2, ![100000, 30]⟩ : Shape).Idx → EReal) (w Wt : (⟨2, ![30, 30]⟩ : Shape).Idx → EReal)
    (b : (⟨2, ![1, 30]⟩ : Shape).Idx → EReal) (hx : x = X) (hw : w = Wt) (hb : b = zrow30) :
    layerArr (R := 100000) (K := 30) (N := 30) x w (unrow b)
      = Host.dotGeneral (F := Ideal) (φ₁ := .f32) (φ₂ := .f32) Cert.ReferenceIdeal.dot_S100000x30_S30x30_S100000x30_1_0_0_1_n_n none X Wt := by
  subst hx hw hb
  exact (layerArr_zero _ _ _ unrow_zrow30).trans (hprod none _ _).symm

/-- The gathered rows scaled by the normalisation column. -/
theorem scale (g Gs : (⟨2, ![6500000, 30]⟩ : Shape).Idx → EReal) (n N1 : (⟨2, ![6500000, 1]⟩ : Shape).Idx → EReal)
    (hg : g = Gs) (hn : n = N1) : scaleArr (R := 6500000) (N := 30) g n = Cert.Spec.weighted Gs N1 := by
  subst hg hn
  unfold Cert.Spec.weighted
  exact (hscale _ _ _).symm

/-- The summed rows plus the layer's bias. -/
theorem bias (x X : (⟨2, ![100000, 30]⟩ : Shape).Idx → EReal) (r : (⟨2, ![1, 30]⟩ : Shape).Idx → EReal)
    (b : (⟨1, ![30]⟩ : Shape).Idx → EReal) (h : (⟨1, ![30]⟩ : Shape).ShapeCasts ⟨2, ![1, 30]⟩)
    (hx : x = X) (hr : r = shapeCast ⟨2, ![1, 30]⟩ b h) :
    biasArr (R := 100000) (N := 30) x (unrow r) = Cert.Spec.bias30 X b := by
  subst hx hr
  rw [unrow_cast]
  unfold Cert.Spec.bias30
  exact (hbias _ _ _ _).symm

/-- The same, rectified. -/
theorem biasRelu (x X : (⟨2, ![100000, 30]⟩ : Shape).Idx → EReal) (r : (⟨2, ![1, 30]⟩ : Shape).Idx → EReal)
    (b : (⟨1, ![30]⟩ : Shape).Idx → EReal) (h : (⟨1, ![30]⟩ : Shape).ShapeCasts ⟨2, ![1, 30]⟩)
    (hx : x = X) (hr : r = shapeCast ⟨2, ![1, 30]⟩ b h) :
    actArr zf (biasArr (R := 100000) (N := 30) x (unrow r)) = Cert.Spec.relu30 (Cert.Spec.bias30 X b) := by
  rw [bias x X r b h hx hr]
  unfold Cert.Spec.relu30
  exact (hact _ _).symm

/-- The read-out's hidden layer, rectified. -/
theorem head1 (x X : (⟨2, ![100000, 30]⟩ : Shape).Idx → EReal) (w Wt : (⟨2, ![30, 10]⟩ : Shape).Idx → EReal)
    (r : (⟨2, ![1, 10]⟩ : Shape).Idx → EReal) (b : (⟨1, ![10]⟩ : Shape).Idx → EReal)
    (h : (⟨1, ![10]⟩ : Shape).ShapeCasts ⟨2, ![1, 10]⟩) (hx : x = X) (hw : w = Wt) (hr : r = shapeCast ⟨2, ![1, 10]⟩ b h) :
    actArr zf (layerArr (R := 100000) (K := 30) (N := 10) x w (unrow r)) = Cert.Spec.head1 X Wt b := by
  subst hx hw hr
  rw [unrow_cast]
  unfold Cert.Spec.head1
  exact ((hact _ _).trans (congrArg (actArr zf) (Cert.PlainDot.hlayer 100000 30 10 none _ _ _ _ _))).symm

/-- The read-out's last layer. -/
theorem head2 (x X : (⟨2, ![100000, 10]⟩ : Shape).Idx → EReal) (w Wt : (⟨2, ![10, 4]⟩ : Shape).Idx → EReal)
    (r : (⟨2, ![1, 4]⟩ : Shape).Idx → EReal) (b : (⟨1, ![4]⟩ : Shape).Idx → EReal)
    (h : (⟨1, ![4]⟩ : Shape).ShapeCasts ⟨2, ![1, 4]⟩) (hx : x = X) (hw : w = Wt) (hr : r = shapeCast ⟨2, ![1, 4]⟩ b h) :
    layerArr (R := 100000) (K := 10) (N := 4) x w (unrow r) = Cert.Spec.head2 X Wt b := by
  subst hx hw hr
  rw [unrow_cast]
  unfold Cert.Spec.head2
  exact (Cert.PlainDot.hlayer 100000 10 4 none _ _ _ _ _).symm

end Cert.KernelIdeal.Convert

end
-- ==== Proof.Chain.lean ====
/-
  THE KERNEL PROGRAM'S RESULT IS THE NETWORK OF ITS ARGUMENTS.

  The run of the kernel program is a chain of boundary contents (the program's run names the result array's final
  contents as what the last boundary holds).  Walking the chain from the launch memory: the first stretch of host
  operations builds the edge lists and the normalisation column; then, layer by layer, a call computes the product, a
  stretch gathers its rows at the edges' sources, a call weights them, a stretch sums what arrives at each node and lays
  out the bias, a call adds it (and rectifies).  At every boundary each array still to be read holds the network's
  corresponding stage of the ARGUMENTS: an array a step writes by that step's own lemma, every other array because the
  step does not write it.  The last boundary holds the network's output in the result array.
-/
import proofs.«163669_j81638738363110_2_alg».proof.Proof.Gen.KernelIdeal.Frame
import proofs.«163669_j81638738363110_2_alg».proof.Proof.Region0
import proofs.«163669_j81638738363110_2_alg».proof.Proof.Region1
import proofs.«163669_j81638738363110_2_alg».proof.Proof.Region2
import proofs.«163669_j81638738363110_2_alg».proof.Proof.Region3
import proofs.«163669_j81638738363110_2_alg».proof.Proof.Region4
import proofs.«163669_j81638738363110_2_alg».proof.Proof.Region5
import proofs.«163669_j81638738363110_2_alg».proof.Proof.Region6
import proofs.«163669_j81638738363110_2_alg».proof.Proof.Region7
import proofs.«163669_j81638738363110_2_alg».proof.Proof.Region8
import proofs.«163669_j81638738363110_2_alg».proof.Proof.Region9
import proofs.«163669_j81638738363110_2_alg».proof.Proof.Region10
import proofs.«163669_j81638738363110_2_alg».proof.Proof.HostStages
import proofs.«163669_j81638738363110_2_alg».proof.Proof.Convert

set_option maxRecDepth 16384

noncomputable section

namespace Cert.KernelIdeal.Chain

open Cert.KernelIdeal Cert.KernelIdeal.Gen Cert.KernelIdeal.HostStages
open Idealize.ShloMosaic Idealize.ShloMosaic.TcCoe Idealize.SL.Sem
open Cert.Spec (F32 I32)

variable (m : (ℓ : Loc nD τ sig) → Buf (Elt Ideal) ℓ) (ρ : Dev nD → PrngReg) (c : Dev nD)

/-! ## The arguments, and the network's stages of them -/

abbrev A0 : F32 Cert.ReferenceIdeal.S100000x10 := m ((c.tc : Thread nD τ).loc main_arg0)
abbrev A1 : I32 Cert.ReferenceIdeal.S2x6400000 := m ((c.tc : Thread nD τ).loc main_arg1)
abbrev A2 : F32 Cert.ReferenceIdeal.S6400000 := m ((c.tc : Thread nD τ).loc main_arg2)
abbrev A3 : F32 Cert.ReferenceIdeal.S10x30 := m ((c.tc : Thread nD τ).loc main_arg3)
abbrev A4 : F32 Cert.ReferenceIdeal.S30 := m ((c.tc : Thread nD τ).loc main_arg4)
abbrev A5 : F32 Cert.ReferenceIdeal.S30x30 := m ((c.tc : Thread nD τ).loc main_arg5)
abbrev A6 : F32 Cert.ReferenceIdeal.S30 := m ((c.tc : Thread nD τ).loc main_arg6)
abbrev A7 : F32 Cert.ReferenceIdeal.S30x30 := m ((c.tc : Thread nD τ).loc main_arg7)
abbrev A8 : F32 Cert.ReferenceIdeal.S30 := m ((c.tc : Thread nD τ).loc main_arg8)
abbrev A9 : F32 Cert.ReferenceIdeal.S30x10 := m ((c.tc : Thread nD τ).loc main_arg9)
abbrev A10 : F32 Cert.ReferenceIdeal.S10 := m ((c.tc : Thread nD τ).loc main_arg10)
abbrev A11 : F32 Cert.ReferenceIdeal.S10x4 := m ((c.tc : Thread nD τ).loc main_arg11)
abbrev A12 : F32 Cert.ReferenceIdeal.S4 := m ((c.tc : Thread nD τ).loc main_arg12)

abbrev SRC : I32 Cert.ReferenceIdeal.S6500000 := Cert.Spec.src (A1 m c)
abbrev DST : I32 Cert.ReferenceIdeal.S6500000 := Cert.Spec.dst (A1 m c)
abbrev NCOL : F32 Cert.ReferenceIdeal.S6500000x1 := Cert.Spec.ncol (A1 m c) (A2 m c)
abbrev DOT1 : F32 Cert.ReferenceIdeal.S100000x30 := Host.dotGeneral (F := Ideal) (φ₁ := .f32) (φ₂ := .f32) Cert.ReferenceIdeal.dot_S100000x10_S10x30_S100000x30_1_0_0_1_n_n none (A0 m c) (A3 m c)
abbrev G1 : F32 Cert.ReferenceIdeal.S6500000x30 := Cert.Spec.rowsAt (DOT1 m c) (SRC m c)
abbrev M1 : F32 Cert.ReferenceIdeal.S6500000x30 := Cert.Spec.weighted (G1 m c) (NCOL m c)
abbrev S1 : F32 Cert.ReferenceIdeal.S100000x30 := Cert.Spec.arrive (M1 m c) (DST m c)
abbrev H1 : F32 Cert.ReferenceIdeal.S100000x30 := Cert.Spec.bias30 (S1 m c) (A4 m c)
abbrev DOT2 : F32 Cert.ReferenceIdeal.S100000x30 := Host.dotGeneral (F := Ideal) (φ₁ := .f32) (φ₂ := .f32) Cert.ReferenceIdeal.dot_S100000x30_S30x30_S100000x30_1_0_0_1_n_n none (H1 m c) (A5 m c)
abbrev G2 : F32 Cert.ReferenceIdeal.S6500000x30 := Cert.Spec.rowsAt (DOT2 m c) (SRC m c)
abbrev M2 : F32 Cert.ReferenceIdeal.S6500000x30 := Cert.Spec.weighted (G2 m c) (NCOL m c)
abbrev S2 : F32 Cert.ReferenceIdeal.S100000x30 := Cert.Spec.arrive (M2 m c) (DST m c)
abbrev H2 : F32 Cert.ReferenceIdeal.S100000x30 := Cert.Spec.relu30 (Cert.Spec.bias30 (S2 m c) (A6 m c))
abbrev DOT3 : F32 Cert.ReferenceIdeal.S100000x30 := Host.dotGeneral (F := Ideal) (φ₁ := .f32) (φ₂ := .f32) Cert.ReferenceIdeal.dot_S100000x30_S30x30_S100000x30_1_0_0_1_n_n none (H2 m c) (A7 m c)
abbrev G3 : F32 Cert.ReferenceIdeal.S6500000x30 := Cert.Spec.rowsAt (DOT3 m c) (SRC m c)
abbrev M3 : F32 Cert.ReferenceIdeal.S6500000x30 := Cert.Spec.weighted (G3 m c) (NCOL m c)
abbrev S3 : F32 Cert.ReferenceIdeal.S100000x30 := Cert.Spec.arrive (M3 m c) (DST m c)
abbrev H3 : F32 Cert.ReferenceIdeal.S100000x30 := Cert.Spec.relu30 (Cert.Spec.bias30 (S3 m c) (A8 m c))
abbrev HD1 : F32 Cert.ReferenceIdeal.S100000x10 := Cert.Spec.head1 (H3 m c) (A9 m c) (A10 m c)
abbrev OUT : F32 Cert.ReferenceIdeal.S100000x4 := Cert.Spec.head2 (HD1 m c) (A11 m c) (A12 m c)

/-- The last stage is the whole network. -/
theorem OUT_eq : OUT m c = Cert.Spec.out (A0 m c) (A1 m c) (A2 m c) (A3 m c) (A4 m c) (A5 m c) (A6 m c) (A7 m c) (A8 m c) (A9 m c) (A10 m c) (A11 m c) (A12 m c) := rfl

/-! ## The chain of boundaries

### Boundary 3: after the first stretch -/

theorem W3_main_arg0 : W3 m ρ c (Proc.devRef .tc main_arg0) = A0 m c :=
  (hostOps0_2_keep (W2 m ρ c) main_arg0 (by decide)).trans ((hostOps0_1_keep (W1 m ρ c) main_arg0 (by decide)).trans (hostOps0_keep (W0 m ρ c) main_arg0 (by decide)))
theorem W3_main_arg3 : W3 m ρ c (Proc.devRef .tc main_arg3) = A3 m c :=
  (hostOps0_2_keep (W2 m ρ c) main_arg3 (by decide)).trans ((hostOps0_1_keep (W1 m ρ c) main_arg3 (by decide)).trans (hostOps0_keep (W0 m ρ c) main_arg3 (by decide)))
theorem W3_main_v34 : W3 m ρ c (Proc.devRef .tc main_v34) = zrow30 :=
  first_v34 (W2 m ρ c)
theorem W3_main_v3 : W3 m ρ c (Proc.devRef .tc main_v3) = SRC m c :=
  (hostOps0_2_keep (W2 m ρ c) main_v3 (by decide)).trans ((hostOps0_1_keep (W1 m ρ c) main_v3 (by decide)).trans (first_v3 (W0 m ρ c)))
theorem W3_main_v32 : W3 m ρ c (Proc.devRef .tc main_v32) = NCOL m c :=
  first_v32 (W0 m ρ c)
theorem W3_main_v6 : W3 m ρ c (Proc.devRef .tc main_v6) = DST m c :=
  (hostOps0_2_keep (W2 m ρ c) main_v6 (by decide)).trans ((hostOps0_1_keep (W1 m ρ c) main_v6 (by decide)).trans (first_v6 (W0 m ρ c)))
theorem W3_main_arg4 : W3 m ρ c (Proc.devRef .tc main_arg4) = A4 m c :=
  (hostOps0_2_keep (W2 m ρ c) main_arg4 (by decide)).trans ((hostOps0_1_keep (W1 m ρ c) main_arg4 (by decide)).trans (hostOps0_keep (W0 m ρ c) main_arg4 (by decide)))
theorem W3_main_arg5 : W3 m ρ c (Proc.devRef .tc main_arg5) = A5 m c :=
  (hostOps0_2_keep (W2 m ρ c) main_arg5 (by decide)).trans ((hostOps0_1_keep (W1 m ρ c) main_arg5 (by decide)).trans (hostOps0_keep (W0 m ρ c) main_arg5 (by decide)))
theorem W3_main_arg6 : W3 m ρ c (Proc.devRef .tc main_arg6) = A6 m c :=
  (hostOps0_2_keep (W2 m ρ c) main_arg6 (by decide)).trans ((hostOps0_1_keep (W1 m ρ c) main_arg6 (by decide)).trans (hostOps0_keep (W0 m ρ c) main_arg6 (by decide)))
theorem W3_main_arg7 : W3 m ρ c (Proc.devRef .tc main_arg7) = A7 m c :=
  (hostOps0_2_keep (W2 m ρ c) main_arg7 (by decide)).trans ((hostOps0_1_keep (W1 m ρ c) main_arg7 (by decide)).trans (hostOps0_keep (W0 m ρ c) main_arg7 (by decide)))
theorem W3_main_arg8 : W3 m ρ c (Proc.devRef .tc main_arg8) = A8 m c :=
  (hostOps0_2_keep (W2 m ρ c) main_arg8 (by decide)).trans ((hostOps0_1_keep (W1 m ρ c) main_arg8 (by decide)).trans (hostOps0_keep (W0 m ρ c) main_arg8 (by decide)))
theorem W3_main_arg10 : W3 m ρ c (Proc.devRef .tc main_arg10) = A10 m c :=
  (hostOps0_2_keep (W2 m ρ c) main_arg10 (by decide)).trans ((hostOps0_1_keep (W1 m ρ c) main_arg10 (by decide)).trans (hostOps0_keep (W0 m ρ c) main_arg10 (by decide)))
theorem W3_main_arg9 : W3 m ρ c (Proc.devRef .tc main_arg9) = A9 m c :=
  (hostOps0_2_keep (W2 m ρ c) main_arg9 (by decide)).trans ((hostOps0_1_keep (W1 m ρ c) main_arg9 (by decide)).trans (hostOps0_keep (W0 m ρ c) main_arg9 (by decide)))
theorem W3_main_arg12 : W3 m ρ c (Proc.devRef .tc main_arg12) = A12 m c :=
  (hostOps0_2_keep (W2 m ρ c) main_arg12 (by decide)).trans ((hostOps0_1_keep (W1 m ρ c) main_arg12 (by decide)).trans (hostOps0_keep (W0 m ρ c) main_arg12 (by decide)))
theorem W3_main_arg11 : W3 m ρ c (Proc.devRef .tc main_arg11) = A11 m c :=
  (hostOps0_2_keep (W2 m ρ c) main_arg11 (by decide)).trans ((hostOps0_1_keep (W1 m ρ c) main_arg11 (by decide)).trans (hostOps0_keep (W0 m ρ c) main_arg11 (by decide)))

/-! ### Boundary 4 -/

theorem W4_main_v35 : W4 m ρ c (Proc.devRef .tc main_v35) = DOT1 m c :=
  (W4_arr m ρ c 3).trans ((Region0.final (V3 m ρ) c).trans
    (Convert.dot1 _ _ _ _ _ (W3_main_arg0 m ρ c) (W3_main_arg3 m ρ c) (W3_main_v34 m ρ c)))
theorem W4_main_v3 : W4 m ρ c (Proc.devRef .tc main_v3) = SRC m c :=
  (W4_of_ne m ρ c main_v3 (by decide)).trans (W3_main_v3 m ρ c)
theorem W4_main_v32 : W4 m ρ c (Proc.devRef .tc main_v32) = NCOL m c :=
  (W4_of_ne m ρ c main_v32 (by decide)).trans (W3_main_v32 m ρ c)
theorem W4_main_v6 : W4 m ρ c (Proc.devRef .tc main_v6) = DST m c :=
  (W4_of_ne m ρ c main_v6 (by decide)).trans (W3_main_v6 m ρ c)
theorem W4_main_arg4 : W4 m ρ c (Proc.devRef .tc main_arg4) = A4 m c :=
  (W4_of_ne m ρ c main_arg4 (by decide)).trans (W3_main_arg4 m ρ c)
theorem W4_main_arg5 : W4 m ρ c (Proc.devRef .tc main_arg5) = A5 m c :=
  (W4_of_ne m ρ c main_arg5 (by decide)).trans (W3_main_arg5 m ρ c)
theorem W4_main_arg6 : W4 m ρ c (Proc.devRef .tc main_arg6) = A6 m c :=
  (W4_of_ne m ρ c main_arg6 (by decide)).trans (W3_main_arg6 m ρ c)
theorem W4_main_arg7 : W4 m ρ c (Proc.devRef .tc main_arg7) = A7 m c :=
  (W4_of_ne m ρ c main_arg7 (by decide)).trans (W3_main_arg7 m ρ c)
theorem W4_main_arg8 : W4 m ρ c (Proc.devRef .tc main_arg8) = A8 m c :=
  (W4_of_ne m ρ c main_arg8 (by decide)).trans (W3_main_arg8 m ρ c)
theorem W4_main_arg10 : W4 m ρ c (Proc.devRef .tc main_arg10) = A10 m c :=
  (W4_of_ne m ρ c main_arg10 (by decide)).trans (W3_main_arg10 m ρ c)
theorem W4_main_arg9 : W4 m ρ c (Proc.devRef .tc main_arg9) = A9 m c :=
  (W4_of_ne m ρ c main_arg9 (by decide)).trans (W3_main_arg9 m ρ c)
theorem W4_main_arg12 : W4 m ρ c (Proc.devRef .tc main_arg12) = A12 m c :=
  (W4_of_ne m ρ c main_arg12 (by decide)).trans (W3_main_arg12 m ρ c)
theorem W4_main_arg11 : W4 m ρ c (Proc.devRef .tc main_arg11) = A11 m c :=
  (W4_of_ne m ρ c main_arg11 (by decide)).trans (W3_main_arg11 m ρ c)

/-! ### Boundary 5 -/

theorem W5_main_v42 : W5 m ρ c (Proc.devRef .tc main_v42) = G1 m c :=
  (hostOps1_main_v42 (W4 m ρ c)).trans (by rw [W4_main_v35 m ρ c, W4_main_v3 m ρ c])
theorem W5_main_v3 : W5 m ρ c (Proc.devRef .tc main_v3) = SRC m c :=
  (hostOps1_keep (W4 m ρ c) main_v3 (by decide)).trans (W4_main_v3 m ρ c)
theorem W5_main_v32 : W5 m ρ c (Proc.devRef .tc main_v32) = NCOL m c :=
  (hostOps1_keep (W4 m ρ c) main_v32 (by decide)).trans (W4_main_v32 m ρ c)
theorem W5_main_v6 : W5 m ρ c (Proc.devRef .tc main_v6) = DST m c :=
  (hostOps1_keep (W4 m ρ c) main_v6 (by decide)).trans (W4_main_v6 m ρ c)
theorem W5_main_arg4 : W5 m ρ c (Proc.devRef .tc main_arg4) = A4 m c :=
  (hostOps1_keep (W4 m ρ c) main_arg4 (by decide)).trans (W4_main_arg4 m ρ c)
theorem W5_main_arg5 : W5 m ρ c (Proc.devRef .tc main_arg5) = A5 m c :=
  (hostOps1_keep (W4 m ρ c) main_arg5 (by decide)).trans (W4_main_arg5 m ρ c)
theorem W5_main_arg6 : W5 m ρ c (Proc.devRef .tc main_arg6) = A6 m c :=
  (hostOps1_keep (W4 m ρ c) main_arg6 (by decide)).trans (W4_main_arg6 m ρ c)
theorem W5_main_arg7 : W5 m ρ c (Proc.devRef .tc main_arg7) = A7 m c :=
  (hostOps1_keep (W4 m ρ c) main_arg7 (by decide)).trans (W4_main_arg7 m ρ c)
theorem W5_main_arg8 : W5 m ρ c (Proc.devRef .tc main_arg8) = A8 m c :=
  (hostOps1_keep (W4 m ρ c) main_arg8 (by decide)).trans (W4_main_arg8 m ρ c)
theorem W5_main_arg10 : W5 m ρ c (Proc.devRef .tc main_arg10) = A10 m c :=
  (hostOps1_keep (W4 m ρ c) main_arg10 (by decide)).trans (W4_main_arg10 m ρ c)
theorem W5_main_arg9 : W5 m ρ c (Proc.devRef .tc main_arg9) = A9 m c :=
  (hostOps1_keep (W4 m ρ c) main_arg9 (by decide)).trans (W4_main_arg9 m ρ c)
theorem W5_main_arg12 : W5 m ρ c (Proc.devRef .tc main_arg12) = A12 m c :=
  (hostOps1_keep (W4 m ρ c) main_arg12 (by decide)).trans (W4_main_arg12 m ρ c)
theorem W5_main_arg11 : W5 m ρ c (Proc.devRef .tc main_arg11) = A11 m c :=
  (hostOps1_keep (W4 m ρ c) main_arg11 (by decide)).trans (W4_main_arg11 m ρ c)

/-! ### Boundary 6 -/

theorem W6_main_v43 : W6 m ρ c (Proc.devRef .tc main_v43) = M1 m c :=
  (W6_arr m ρ c 2).trans ((Region1.final (V5 m ρ) c).trans
    (Convert.scale _ _ _ _ (W5_main_v42 m ρ c) (W5_main_v32 m ρ c)))
theorem W6_main_v3 : W6 m ρ c (Proc.devRef .tc main_v3) = SRC m c :=
  (W6_of_ne m ρ c main_v3 (by decide)).trans (W5_main_v3 m ρ c)
theorem W6_main_v32 : W6 m ρ c (Proc.devRef .tc main_v32) = NCOL m c :=
  (W6_arr m ρ c 1).trans (((dat1 (V5 m ρ) c).arrAt_in 1 rfl _).trans ((A_eq1 (V5 m ρ) c 1).trans (W5_main_v32 m ρ c)))
theorem W6_main_v6 : W6 m ρ c (Proc.devRef .tc main_v6) = DST m c :=
  (W6_of_ne m ρ c main_v6 (by decide)).trans (W5_main_v6 m ρ c)
theorem W6_main_arg4 : W6 m ρ c (Proc.devRef .tc main_arg4) = A4 m c :=
  (W6_of_ne m ρ c main_arg4 (by decide)).trans (W5_main_arg4 m ρ c)
theorem W6_main_arg5 : W6 m ρ c (Proc.devRef .tc main_arg5) = A5 m c :=
  (W6_of_ne m ρ c main_arg5 (by decide)).trans (W5_main_arg5 m ρ c)
theorem W6_main_arg6 : W6 m ρ c (Proc.devRef .tc main_arg6) = A6 m c :=
  (W6_of_ne m ρ c main_arg6 (by decide)).trans (W5_main_arg6 m ρ c)
theorem W6_main_arg7 : W6 m ρ c (Proc.devRef .tc main_arg7) = A7 m c :=
  (W6_of_ne m ρ c main_arg7 (by decide)).trans (W5_main_arg7 m ρ c)
theorem W6_main_arg8 : W6 m ρ c (Proc.devRef .tc main_arg8) = A8 m c :=
  (W6_of_ne m ρ c main_arg8 (by decide)).trans (W5_main_arg8 m ρ c)
theorem W6_main_arg10 : W6 m ρ c (Proc.devRef .tc main_arg10) = A10 m c :=
  (W6_of_ne m ρ c main_arg10 (by decide)).trans (W5_main_arg10 m ρ c)
theorem W6_main_arg9 : W6 m ρ c (Proc.devRef .tc main_arg9) = A9 m c :=
  (W6_of_ne m ρ c main_arg9 (by decide)).trans (W5_main_arg9 m ρ c)
theorem W6_main_arg12 : W6 m ρ c (Proc.devRef .tc main_arg12) = A12 m c :=
  (W6_of_ne m ρ c main_arg12 (by decide)).trans (W5_main_arg12 m ρ c)
theorem W6_main_arg11 : W6 m ρ c (Proc.devRef .tc main_arg11) = A11 m c :=
  (W6_of_ne m ρ c main_arg11 (by decide)).trans (W5_main_arg11 m ρ c)

/-! ### Boundary 7 -/

theorem W7_main_v46 : W7 m ρ c (Proc.devRef .tc main_v46) = S1 m c :=
  (hostOps2_main_v46 (W6 m ρ c)).trans (by rw [W6_main_v43 m ρ c, W6_main_v6 m ρ c])
theorem W7_main_v47 : W7 m ρ c (Proc.devRef .tc main_v47) = shapeCast S1x30 (A4 m c) shapeCasts_S30_S1x30 :=
  (hostOps2_main_v47 (W6 m ρ c)).trans (by rw [W6_main_arg4 m ρ c])
theorem W7_main_v3 : W7 m ρ c (Proc.devRef .tc main_v3) = SRC m c :=
  (hostOps2_keep (W6 m ρ c) main_v3 (by decide)).trans (W6_main_v3 m ρ c)
theorem W7_main_v32 : W7 m ρ c (Proc.devRef .tc main_v32) = NCOL m c :=
  (hostOps2_keep (W6 m ρ c) main_v32 (by decide)).trans (W6_main_v32 m ρ c)
theorem W7_main_v6 : W7 m ρ c (Proc.devRef .tc main_v6) = DST m c :=
  (hostOps2_keep (W6 m ρ c) main_v6 (by decide)).trans (W6_main_v6 m ρ c)
theorem W7_main_arg5 : W7 m ρ c (Proc.devRef .tc main_arg5) = A5 m c :=
  (hostOps2_keep (W6 m ρ c) main_arg5 (by decide)).trans (W6_main_arg5 m ρ c)
theorem W7_main_arg6 : W7 m ρ c (Proc.devRef .tc main_arg6) = A6 m c :=
  (hostOps2_keep (W6 m ρ c) main_arg6 (by decide)).trans (W6_main_arg6 m ρ c)
theorem W7_main_arg7 : W7 m ρ c (Proc.devRef .tc main_arg7) = A7 m c :=
  (hostOps2_keep (W6 m ρ c) main_arg7 (by decide)).trans (W6_main_arg7 m ρ c)
theorem W7_main_arg8 : W7 m ρ c (Proc.devRef .tc main_arg8) = A8 m c :=
  (hostOps2_keep (W6 m ρ c) main_arg8 (by decide)).trans (W6_main_arg8 m ρ c)
theorem W7_main_arg10 : W7 m ρ c (Proc.devRef .tc main_arg10) = A10 m c :=
  (hostOps2_keep (W6 m ρ c) main_arg10 (by decide)).trans (W6_main_arg10 m ρ c)
theorem W7_main_arg9 : W7 m ρ c (Proc.devRef .tc main_arg9) = A9 m c :=
  (hostOps2_keep (W6 m ρ c) main_arg9 (by decide)).trans (W6_main_arg9 m ρ c)
theorem W7_main_arg12 : W7 m ρ c (Proc.devRef .tc main_arg12) = A12 m c :=
  (hostOps2_keep (W6 m ρ c) main_arg12 (by decide)).trans (W6_main_arg12 m ρ c)
theorem W7_main_arg11 : W7 m ρ c (Proc.devRef .tc main_arg11) = A11 m c :=
  (hostOps2_keep (W6 m ρ c) main_arg11 (by decide)).trans (W6_main_arg11 m ρ c)

/-! ### Boundary 8 -/

theorem W8_main_v48 : W8 m ρ c (Proc.devRef .tc main_v48) = H1 m c :=
  (W8_arr m ρ c 2).trans ((Region2.final (V7 m ρ) c).trans
    (Convert.bias _ _ _ _ _ (W7_main_v46 m ρ c) (W7_main_v47 m ρ c)))
theorem W8_main_v3 : W8 m ρ c (Proc.devRef .tc main_v3) = SRC m c :=
  (W8_of_ne m ρ c main_v3 (by decide)).trans (W7_main_v3 m ρ c)
theorem W8_main_v32 : W8 m ρ c (Proc.devRef .tc main_v32) = NCOL m c :=
  (W8_of_ne m ρ c main_v32 (by decide)).trans (W7_main_v32 m ρ c)
theorem W8_main_v6 : W8 m ρ c (Proc.devRef .tc main_v6) = DST m c :=
  (W8_of_ne m ρ c main_v6 (by decide)).trans (W7_main_v6 m ρ c)
theorem W8_main_arg5 : W8 m ρ c (Proc.devRef .tc main_arg5) = A5 m c :=
  (W8_of_ne m ρ c main_arg5 (by decide)).trans (W7_main_arg5 m ρ c)
theorem W8_main_arg6 : W8 m ρ c (Proc.devRef .tc main_arg6) = A6 m c :=
  (W8_of_ne m ρ c main_arg6 (by decide)).trans (W7_main_arg6 m ρ c)
theorem W8_main_arg7 : W8 m ρ c (Proc.devRef .tc main_arg7) = A7 m c :=
  (W8_of_ne m ρ c main_arg7 (by decide)).trans (W7_main_arg7 m ρ c)
theorem W8_main_arg8 : W8 m ρ c (Proc.devRef .tc main_arg8) = A8 m c :=
  (W8_of_ne m ρ c main_arg8 (by decide)).trans (W7_main_arg8 m ρ c)
theorem W8_main_arg10 : W8 m ρ c (Proc.devRef .tc main_arg10) = A10 m c :=
  (W8_of_ne m ρ c main_arg10 (by decide)).trans (W7_main_arg10 m ρ c)
theorem W8_main_arg9 : W8 m ρ c (Proc.devRef .tc main_arg9) = A9 m c :=
  (W8_of_ne m ρ c main_arg9 (by decide)).trans (W7_main_arg9 m ρ c)
theorem W8_main_arg12 : W8 m ρ c (Proc.devRef .tc main_arg12) = A12 m c :=
  (W8_of_ne m ρ c main_arg12 (by decide)).trans (W7_main_arg12 m ρ c)
theorem W8_main_arg11 : W8 m ρ c (Proc.devRef .tc main_arg11) = A11 m c :=
  (W8_of_ne m ρ c main_arg11 (by decide)).trans (W7_main_arg11 m ρ c)

/-! ### Boundary 9 -/

theorem W9_main_v50 : W9 m ρ c (Proc.devRef .tc main_v50) = zrow30 :=
  (hostOps3_main_v50 (W8 m ρ c))
theorem W9_main_v3 : W9 m ρ c (Proc.devRef .tc main_v3) = SRC m c :=
  (hostOps3_keep (W8 m ρ c) main_v3 (by decide)).trans (W8_main_v3 m ρ c)
theorem W9_main_v32 : W9 m ρ c (Proc.devRef .tc main_v32) = NCOL m c :=
  (hostOps3_keep (W8 m ρ c) main_v32 (by decide)).trans (W8_main_v32 m ρ c)
theorem W9_main_v6 : W9 m ρ c (Proc.devRef .tc main_v6) = DST m c :=
  (hostOps3_keep (W8 m ρ c) main_v6 (by decide)).trans (W8_main_v6 m ρ c)
theorem W9_main_arg5 : W9 m ρ c (Proc.devRef .tc main_arg5) = A5 m c :=
  (hostOps3_keep (W8 m ρ c) main_arg5 (by decide)).trans (W8_main_arg5 m ρ c)
theorem W9_main_arg6 : W9 m ρ c (Proc.devRef .tc main_arg6) = A6 m c :=
  (hostOps3_keep (W8 m ρ c) main_arg6 (by decide)).trans (W8_main_arg6 m ρ c)
theorem W9_main_arg7 : W9 m ρ c (Proc.devRef .tc main_arg7) = A7 m c :=
  (hostOps3_keep (W8 m ρ c) main_arg7 (by decide)).trans (W8_main_arg7 m ρ c)
theorem W9_main_arg8 : W9 m ρ c (Proc.devRef .tc main_arg8) = A8 m c :=
  (hostOps3_keep (W8 m ρ c) main_arg8 (by decide)).trans (W8_main_arg8 m ρ c)
theorem W9_main_arg10 : W9 m ρ c (Proc.devRef .tc main_arg10) = A10 m c :=
  (hostOps3_keep (W8 m ρ c) main_arg10 (by decide)).trans (W8_main_arg10 m ρ c)
theorem W9_main_arg9 : W9 m ρ c (Proc.devRef .tc main_arg9) = A9 m c :=
  (hostOps3_keep (W8 m ρ c) main_arg9 (by decide)).trans (W8_main_arg9 m ρ c)
theorem W9_main_arg12 : W9 m ρ c (Proc.devRef .tc main_arg12) = A12 m c :=
  (hostOps3_keep (W8 m ρ c) main_arg12 (by decide)).trans (W8_main_arg12 m ρ c)
theorem W9_main_arg11 : W9 m ρ c (Proc.devRef .tc main_arg11) = A11 m c :=
  (hostOps3_keep (W8 m ρ c) main_arg11 (by decide)).trans (W8_main_arg11 m ρ c)
theorem W9_main_v48 : W9 m ρ c (Proc.devRef .tc main_v48) = H1 m c :=
  (hostOps3_keep (W8 m ρ c) main_v48 (by decide)).trans (W8_main_v48 m ρ c)

/-! ### Boundary 10 -/

theorem W10_main_v51 : W10 m ρ c (Proc.devRef .tc main_v51) = DOT2 m c :=
  (W10_arr m ρ c 3).trans ((Region3.final (V9 m ρ) c).trans
    (Convert.dot2 _ _ _ _ _ (W9_main_v48 m ρ c) (W9_main_arg5 m ρ c) (W9_main_v50 m ρ c)))
theorem W10_main_v3 : W10 m ρ c (Proc.devRef .tc main_v3) = SRC m c :=
  (W10_of_ne m ρ c main_v3 (by decide)).trans (W9_main_v3 m ρ c)
theorem W10_main_v32 : W10 m ρ c (Proc.devRef .tc main_v32) = NCOL m c :=
  (W10_of_ne m ρ c main_v32 (by decide)).trans (W9_main_v32 m ρ c)
theorem W10_main_v6 : W10 m ρ c (Proc.devRef .tc main_v6) = DST m c :=
  (W10_of_ne m ρ c main_v6 (by decide)).trans (W9_main_v6 m ρ c)
theorem W10_main_arg6 : W10 m ρ c (Proc.devRef .tc main_arg6) = A6 m c :=
  (W10_of_ne m ρ c main_arg6 (by decide)).trans (W9_main_arg6 m ρ c)
theorem W10_main_arg7 : W10 m ρ c (Proc.devRef .tc main_arg7) = A7 m c :=
  (W10_of_ne m ρ c main_arg7 (by decide)).trans (W9_main_arg7 m ρ c)
theorem W10_main_arg8 : W10 m ρ c (Proc.devRef .tc main_arg8) = A8 m c :=
  (W10_of_ne m ρ c main_arg8 (by decide)).trans (W9_main_arg8 m ρ c)
theorem W10_main_arg10 : W10 m ρ c (Proc.devRef .tc main_arg10) = A10 m c :=
  (W10_of_ne m ρ c main_arg10 (by decide)).trans (W9_main_arg10 m ρ c)
theorem W10_main_arg9 : W10 m ρ c (Proc.devRef .tc main_arg9) = A9 m c :=
  (W10_of_ne m ρ c main_arg9 (by decide)).trans (W9_main_arg9 m ρ c)
theorem W10_main_arg12 : W10 m ρ c (Proc.devRef .tc main_arg12) = A12 m c :=
  (W10_of_ne m ρ c main_arg12 (by decide)).trans (W9_main_arg12 m ρ c)
theorem W10_main_arg11 : W10 m ρ c (Proc.devRef .tc main_arg11) = A11 m c :=
  (W10_of_ne m ρ c main_arg11 (by decide)).trans (W9_main_arg11 m ρ c)

/-! ### Boundary 11 -/

theorem W11_main_v58 : W11 m ρ c (Proc.devRef .tc main_v58) = G2 m c :=
  (hostOps4_main_v58 (W10 m ρ c)).trans (by rw [W10_main_v51 m ρ c, W10_main_v3 m ρ c])
theorem W11_main_v3 : W11 m ρ c (Proc.devRef .tc main_v3) = SRC m c :=
  (hostOps4_keep (W10 m ρ c) main_v3 (by decide)).trans (W10_main_v3 m ρ c)
theorem W11_main_v32 : W11 m ρ c (Proc.devRef .tc main_v32) = NCOL m c :=
  (hostOps4_keep (W10 m ρ c) main_v32 (by decide)).trans (W10_main_v32 m ρ c)
theorem W11_main_v6 : W11 m ρ c (Proc.devRef .tc main_v6) = DST m c :=
  (hostOps4_keep (W10 m ρ c) main_v6 (by decide)).trans (W10_main_v6 m ρ c)
theorem W11_main_arg6 : W11 m ρ c (Proc.devRef .tc main_arg6) = A6 m c :=
  (hostOps4_keep (W10 m ρ c) main_arg6 (by decide)).trans (W10_main_arg6 m ρ c)
theorem W11_main_arg7 : W11 m ρ c (Proc.devRef .tc main_arg7) = A7 m c :=
  (hostOps4_keep (W10 m ρ c) main_arg7 (by decide)).trans (W10_main_arg7 m ρ c)
theorem W11_main_arg8 : W11 m ρ c (Proc.devRef .tc main_arg8) = A8 m c :=
  (hostOps4_keep (W10 m ρ c) main_arg8 (by decide)).trans (W10_main_arg8 m ρ c)
theorem W11_main_arg10 : W11 m ρ c (Proc.devRef .tc main_arg10) = A10 m c :=
  (hostOps4_keep (W10 m ρ c) main_arg10 (by decide)).trans (W10_main_arg10 m ρ c)
theorem W11_main_arg9 : W11 m ρ c (Proc.devRef .tc main_arg9) = A9 m c :=
  (hostOps4_keep (W10 m ρ c) main_arg9 (by decide)).trans (W10_main_arg9 m ρ c)
theorem W11_main_arg12 : W11 m ρ c (Proc.devRef .tc main_arg12) = A12 m c :=
  (hostOps4_keep (W10 m ρ c) main_arg12 (by decide)).trans (W10_main_arg12 m ρ c)
theorem W11_main_arg11 : W11 m ρ c (Proc.devRef .tc main_arg11) = A11 m c :=
  (hostOps4_keep (W10 m ρ c) main_arg11 (by decide)).trans (W10_main_arg11 m ρ c)

/-! ### Boundary 12 -/

theorem W12_main_v59 : W12 m ρ c (Proc.devRef .tc main_v59) = M2 m c :=
  (W12_arr m ρ c 2).trans ((Region4.final (V11 m ρ) c).trans
    (Convert.scale _ _ _ _ (W11_main_v58 m ρ c) (W11_main_v32 m ρ c)))
theorem W12_main_v3 : W12 m ρ c (Proc.devRef .tc main_v3) = SRC m c :=
  (W12_of_ne m ρ c main_v3 (by decide)).trans (W11_main_v3 m ρ c)
theorem W12_main_v32 : W12 m ρ c (Proc.devRef .tc main_v32) = NCOL m c :=
  (W12_arr m ρ c 1).trans (((dat4 (V11 m ρ) c).arrAt_in 1 rfl _).trans ((A_eq4 (V11 m ρ) c 1).trans (W11_main_v32 m ρ c)))
theorem W12_main_v6 : W12 m ρ c (Proc.devRef .tc main_v6) = DST m c :=
  (W12_of_ne m ρ c main_v6 (by decide)).trans (W11_main_v6 m ρ c)
theorem W12_main_arg6 : W12 m ρ c (Proc.devRef .tc main_arg6) = A6 m c :=
  (W12_of_ne m ρ c main_arg6 (by decide)).trans (W11_main_arg6 m ρ c)
theorem W12_main_arg7 : W12 m ρ c (Proc.devRef .tc main_arg7) = A7 m c :=
  (W12_of_ne m ρ c main_arg7 (by decide)).trans (W11_main_arg7 m ρ c)
theorem W12_main_arg8 : W12 m ρ c (Proc.devRef .tc main_arg8) = A8 m c :=
  (W12_of_ne m ρ c main_arg8 (by decide)).trans (W11_main_arg8 m ρ c)
theorem W12_main_arg10 : W12 m ρ c (Proc.devRef .tc main_arg10) = A10 m c :=
  (W12_of_ne m ρ c main_arg10 (by decide)).trans (W11_main_arg10 m ρ c)
theorem W12_main_arg9 : W12 m ρ c (Proc.devRef .tc main_arg9) = A9 m c :=
  (W12_of_ne m ρ c main_arg9 (by decide)).trans (W11_main_arg9 m ρ c)
theorem W12_main_arg12 : W12 m ρ c (Proc.devRef .tc main_arg12) = A12 m c :=
  (W12_of_ne m ρ c main_arg12 (by decide)).trans (W11_main_arg12 m ρ c)
theorem W12_main_arg11 : W12 m ρ c (Proc.devRef .tc main_arg11) = A11 m c :=
  (W12_of_ne m ρ c main_arg11 (by decide)).trans (W11_main_arg11 m ρ c)

/-! ### Boundary 13 -/

theorem W13_main_v62 : W13 m ρ c (Proc.devRef .tc main_v62) = S2 m c :=
  (hostOps5_main_v62 (W12 m ρ c)).trans (by rw [W12_main_v59 m ρ c, W12_main_v6 m ρ c])
theorem W13_main_v63 : W13 m ρ c (Proc.devRef .tc main_v63) = shapeCast S1x30 (A6 m c) shapeCasts_S30_S1x30 :=
  (hostOps5_main_v63 (W12 m ρ c)).trans (by rw [W12_main_arg6 m ρ c])
theorem W13_main_v3 : W13 m ρ c (Proc.devRef .tc main_v3) = SRC m c :=
  (hostOps5_keep (W12 m ρ c) main_v3 (by decide)).trans (W12_main_v3 m ρ c)
theorem W13_main_v32 : W13 m ρ c (Proc.devRef .tc main_v32) = NCOL m c :=
  (hostOps5_keep (W12 m ρ c) main_v32 (by decide)).trans (W12_main_v32 m ρ c)
theorem W13_main_v6 : W13 m ρ c (Proc.devRef .tc main_v6) = DST m c :=
  (hostOps5_keep (W12 m ρ c) main_v6 (by decide)).trans (W12_main_v6 m ρ c)
theorem W13_main_arg7 : W13 m ρ c (Proc.devRef .tc main_arg7) = A7 m c :=
  (hostOps5_keep (W12 m ρ c) main_arg7 (by decide)).trans (W12_main_arg7 m ρ c)
theorem W13_main_arg8 : W13 m ρ c (Proc.devRef .tc main_arg8) = A8 m c :=
  (hostOps5_keep (W12 m ρ c) main_arg8 (by decide)).trans (W12_main_arg8 m ρ c)
theorem W13_main_arg10 : W13 m ρ c (Proc.devRef .tc main_arg10) = A10 m c :=
  (hostOps5_keep (W12 m ρ c) main_arg10 (by decide)).trans (W12_main_arg10 m ρ c)
theorem W13_main_arg9 : W13 m ρ c (Proc.devRef .tc main_arg9) = A9 m c :=
  (hostOps5_keep (W12 m ρ c) main_arg9 (by decide)).trans (W12_main_arg9 m ρ c)
theorem W13_main_arg12 : W13 m ρ c (Proc.devRef .tc main_arg12) = A12 m c :=
  (hostOps5_keep (W12 m ρ c) main_arg12 (by decide)).trans (W12_main_arg12 m ρ c)
theorem W13_main_arg11 : W13 m ρ c (Proc.devRef .tc main_arg11) = A11 m c :=
  (hostOps5_keep (W12 m ρ c) main_arg11 (by decide)).trans (W12_main_arg11 m ρ c)

/-! ### Boundary 14 -/

theorem W14_main_v64 : W14 m ρ c (Proc.devRef .tc main_v64) = H2 m c :=
  (W14_arr m ρ c 2).trans ((Region5.final (V13 m ρ) c).trans
    (Convert.biasRelu _ _ _ _ _ (W13_main_v62 m ρ c) (W13_main_v63 m ρ c)))
theorem W14_main_v3 : W14 m ρ c (Proc.devRef .tc main_v3) = SRC m c :=
  (W14_of_ne m ρ c main_v3 (by decide)).trans (W13_main_v3 m ρ c)
theorem W14_main_v32 : W14 m ρ c (Proc.devRef .tc main_v32) = NCOL m c :=
  (W14_of_ne m ρ c main_v32 (by decide)).trans (W13_main_v32 m ρ c)
theorem W14_main_v6 : W14 m ρ c (Proc.devRef .tc main_v6) = DST m c :=
  (W14_of_ne m ρ c main_v6 (by decide)).trans (W13_main_v6 m ρ c)
theorem W14_main_arg7 : W14 m ρ c (Proc.devRef .tc main_arg7) = A7 m c :=
  (W14_of_ne m ρ c main_arg7 (by decide)).trans (W13_main_arg7 m ρ c)
theorem W14_main_arg8 : W14 m ρ c (Proc.devRef .tc main_arg8) = A8 m c :=
  (W14_of_ne m ρ c main_arg8 (by decide)).trans (W13_main_arg8 m ρ c)
theorem W14_main_arg10 : W14 m ρ c (Proc.devRef .tc main_arg10) = A10 m c :=
  (W14_of_ne m ρ c main_arg10 (by decide)).trans (W13_main_arg10 m ρ c)
theorem W14_main_arg9 : W14 m ρ c (Proc.devRef .tc main_arg9) = A9 m c :=
  (W14_of_ne m ρ c main_arg9 (by decide)).trans (W13_main_arg9 m ρ c)
theorem W14_main_arg12 : W14 m ρ c (Proc.devRef .tc main_arg12) = A12 m c :=
  (W14_of_ne m ρ c main_arg12 (by decide)).trans (W13_main_arg12 m ρ c)
theorem W14_main_arg11 : W14 m ρ c (Proc.devRef .tc main_arg11) = A11 m c :=
  (W14_of_ne m ρ c main_arg11 (by decide)).trans (W13_main_arg11 m ρ c)

/-! ### Boundary 15 -/

theorem W15_main_v66 : W15 m ρ c (Proc.devRef .tc main_v66) = zrow30 :=
  (hostOps6_main_v66 (W14 m ρ c))
theorem W15_main_v3 : W15 m ρ c (Proc.devRef .tc main_v3) = SRC m c :=
  (hostOps6_keep (W14 m ρ c) main_v3 (by decide)).trans (W14_main_v3 m ρ c)
theorem W15_main_v32 : W15 m ρ c (Proc.devRef .tc main_v32) = NCOL m c :=
  (hostOps6_keep (W14 m ρ c) main_v32 (by decide)).trans (W14_main_v32 m ρ c)
theorem W15_main_v6 : W15 m ρ c (Proc.devRef .tc main_v6) = DST m c :=
  (hostOps6_keep (W14 m ρ c) main_v6 (by decide)).trans (W14_main_v6 m ρ c)
theorem W15_main_arg7 : W15 m ρ c (Proc.devRef .tc main_arg7) = A7 m c :=
  (hostOps6_keep (W14 m ρ c) main_arg7 (by decide)).trans (W14_main_arg7 m ρ c)
theorem W15_main_arg8 : W15 m ρ c (Proc.devRef .tc main_arg8) = A8 m c :=
  (hostOps6_keep (W14 m ρ c) main_arg8 (by decide)).trans (W14_main_arg8 m ρ c)
theorem W15_main_arg10 : W15 m ρ c (Proc.devRef .tc main_arg10) = A10 m c :=
  (hostOps6_keep (W14 m ρ c) main_arg10 (by decide)).trans (W14_main_arg10 m ρ c)
theorem W15_main_arg9 : W15 m ρ c (Proc.devRef .tc main_arg9) = A9 m c :=
  (hostOps6_keep (W14 m ρ c) main_arg9 (by decide)).trans (W14_main_arg9 m ρ c)
theorem W15_main_arg12 : W15 m ρ c (Proc.devRef .tc main_arg12) = A12 m c :=
  (hostOps6_keep (W14 m ρ c) main_arg12 (by decide)).trans (W14_main_arg12 m ρ c)
theorem W15_main_arg11 : W15 m ρ c (Proc.devRef .tc main_arg11) = A11 m c :=
  (hostOps6_keep (W14 m ρ c) main_arg11 (by decide)).trans (W14_main_arg11 m ρ c)
theorem W15_main_v64 : W15 m ρ c (Proc.devRef .tc main_v64) = H2 m c :=
  (hostOps6_keep (W14 m ρ c) main_v64 (by decide)).trans (W14_main_v64 m ρ c)

/-! ### Boundary 16 -/

theorem W16_main_v67 : W16 m ρ c (Proc.devRef .tc main_v67) = DOT3 m c :=
  (W16_arr m ρ c 3).trans ((Region6.final (V15 m ρ) c).trans
    (Convert.dot2 _ _ _ _ _ (W15_main_v64 m ρ c) (W15_main_arg7 m ρ c) (W15_main_v66 m ρ c)))
theorem W16_main_v3 : W16 m ρ c (Proc.devRef .tc main_v3) = SRC m c :=
  (W16_of_ne m ρ c main_v3 (by decide)).trans (W15_main_v3 m ρ c)
theorem W16_main_v32 : W16 m ρ c (Proc.devRef .tc main_v32) = NCOL m c :=
  (W16_of_ne m ρ c main_v32 (by decide)).trans (W15_main_v32 m ρ c)
theorem W16_main_v6 : W16 m ρ c (Proc.devRef .tc main_v6) = DST m c :=
  (W16_of_ne m ρ c main_v6 (by decide)).trans (W15_main_v6 m ρ c)
theorem W16_main_arg8 : W16 m ρ c (Proc.devRef .tc main_arg8) = A8 m c :=
  (W16_of_ne m ρ c main_arg8 (by decide)).trans (W15_main_arg8 m ρ c)
theorem W16_main_arg10 : W16 m ρ c (Proc.devRef .tc main_arg10) = A10 m c :=
  (W16_of_ne m ρ c main_arg10 (by decide)).trans (W15_main_arg10 m ρ c)
theorem W16_main_arg9 : W16 m ρ c (Proc.devRef .tc main_arg9) = A9 m c :=
  (W16_of_ne m ρ c main_arg9 (by decide)).trans (W15_main_arg9 m ρ c)
theorem W16_main_arg12 : W16 m ρ c (Proc.devRef .tc main_arg12) = A12 m c :=
  (W16_of_ne m ρ c main_arg12 (by decide)).trans (W15_main_arg12 m ρ c)
theorem W16_main_arg11 : W16 m ρ c (Proc.devRef .tc main_arg11) = A11 m c :=
  (W16_of_ne m ρ c main_arg11 (by decide)).trans (W15_main_arg11 m ρ c)

/-! ### Boundary 17 -/

theorem W17_main_v74 : W17 m ρ c (Proc.devRef .tc main_v74) = G3 m c :=
  (hostOps7_main_v74 (W16 m ρ c)).trans (by rw [W16_main_v67 m ρ c, W16_main_v3 m ρ c])
theorem W17_main_v32 : W17 m ρ c (Proc.devRef .tc main_v32) = NCOL m c :=
  (hostOps7_keep (W16 m ρ c) main_v32 (by decide)).trans (W16_main_v32 m ρ c)
theorem W17_main_v6 : W17 m ρ c (Proc.devRef .tc main_v6) = DST m c :=
  (hostOps7_keep (W16 m ρ c) main_v6 (by decide)).trans (W16_main_v6 m ρ c)
theorem W17_main_arg8 : W17 m ρ c (Proc.devRef .tc main_arg8) = A8 m c :=
  (hostOps7_keep (W16 m ρ c) main_arg8 (by decide)).trans (W16_main_arg8 m ρ c)
theorem W17_main_arg10 : W17 m ρ c (Proc.devRef .tc main_arg10) = A10 m c :=
  (hostOps7_keep (W16 m ρ c) main_arg10 (by decide)).trans (W16_main_arg10 m ρ c)
theorem W17_main_arg9 : W17 m ρ c (Proc.devRef .tc main_arg9) = A9 m c :=
  (hostOps7_keep (W16 m ρ c) main_arg9 (by decide)).trans (W16_main_arg9 m ρ c)
theorem W17_main_arg12 : W17 m ρ c (Proc.devRef .tc main_arg12) = A12 m c :=
  (hostOps7_keep (W16 m ρ c) main_arg12 (by decide)).trans (W16_main_arg12 m ρ c)
theorem W17_main_arg11 : W17 m ρ c (Proc.devRef .tc main_arg11) = A11 m c :=
  (hostOps7_keep (W16 m ρ c) main_arg11 (by decide)).trans (W16_main_arg11 m ρ c)

/-! ### Boundary 18 -/

theorem W18_main_v75 : W18 m ρ c (Proc.devRef .tc main_v75) = M3 m c :=
  (W18_arr m ρ c 2).trans ((Region7.final (V17 m ρ) c).trans
    (Convert.scale _ _ _ _ (W17_main_v74 m ρ c) (W17_main_v32 m ρ c)))
theorem W18_main_v6 : W18 m ρ c (Proc.devRef .tc main_v6) = DST m c :=
  (W18_of_ne m ρ c main_v6 (by decide)).trans (W17_main_v6 m ρ c)
theorem W18_main_arg8 : W18 m ρ c (Proc.devRef .tc main_arg8) = A8 m c :=
  (W18_of_ne m ρ c main_arg8 (by decide)).trans (W17_main_arg8 m ρ c)
theorem W18_main_arg10 : W18 m ρ c (Proc.devRef .tc main_arg10) = A10 m c :=
  (W18_of_ne m ρ c main_arg10 (by decide)).trans (W17_main_arg10 m ρ c)
theorem W18_main_arg9 : W18 m ρ c (Proc.devRef .tc main_arg9) = A9 m c :=
  (W18_of_ne m ρ c main_arg9 (by decide)).trans (W17_main_arg9 m ρ c)
theorem W18_main_arg12 : W18 m ρ c (Proc.devRef .tc main_arg12) = A12 m c :=
  (W18_of_ne m ρ c main_arg12 (by decide)).trans (W17_main_arg12 m ρ c)
theorem W18_main_arg11 : W18 m ρ c (Proc.devRef .tc main_arg11) = A11 m c :=
  (W18_of_ne m ρ c main_arg11 (by decide)).trans (W17_main_arg11 m ρ c)

/-! ### Boundary 19 -/

theorem W19_main_v78 : W19 m ρ c (Proc.devRef .tc main_v78) = S3 m c :=
  (hostOps8_main_v78 (W18 m ρ c)).trans (by rw [W18_main_v75 m ρ c, W18_main_v6 m ρ c])
theorem W19_main_v79 : W19 m ρ c (Proc.devRef .tc main_v79) = shapeCast S1x30 (A8 m c) shapeCasts_S30_S1x30 :=
  (hostOps8_main_v79 (W18 m ρ c)).trans (by rw [W18_main_arg8 m ρ c])
theorem W19_main_arg10 : W19 m ρ c (Proc.devRef .tc main_arg10) = A10 m c :=
  (hostOps8_keep (W18 m ρ c) main_arg10 (by decide)).trans (W18_main_arg10 m ρ c)
theorem W19_main_arg9 : W19 m ρ c (Proc.devRef .tc main_arg9) = A9 m c :=
  (hostOps8_keep (W18 m ρ c) main_arg9 (by decide)).trans (W18_main_arg9 m ρ c)
theorem W19_main_arg12 : W19 m ρ c (Proc.devRef .tc main_arg12) = A12 m c :=
  (hostOps8_keep (W18 m ρ c) main_arg12 (by decide)).trans (W18_main_arg12 m ρ c)
theorem W19_main_arg11 : W19 m ρ c (Proc.devRef .tc main_arg11) = A11 m c :=
  (hostOps8_keep (W18 m ρ c) main_arg11 (by decide)).trans (W18_main_arg11 m ρ c)

/-! ### Boundary 20 -/

theorem W20_main_v80 : W20 m ρ c (Proc.devRef .tc main_v80) = H3 m c :=
  (W20_arr m ρ c 2).trans ((Region8.final (V19 m ρ) c).trans
    (Convert.biasRelu _ _ _ _ _ (W19_main_v78 m ρ c) (W19_main_v79 m ρ c)))
theorem W20_main_arg10 : W20 m ρ c (Proc.devRef .tc main_arg10) = A10 m c :=
  (W20_of_ne m ρ c main_arg10 (by decide)).trans (W19_main_arg10 m ρ c)
theorem W20_main_arg9 : W20 m ρ c (Proc.devRef .tc main_arg9) = A9 m c :=
  (W20_of_ne m ρ c main_arg9 (by decide)).trans (W19_main_arg9 m ρ c)
theorem W20_main_arg12 : W20 m ρ c (Proc.devRef .tc main_arg12) = A12 m c :=
  (W20_of_ne m ρ c main_arg12 (by decide)).trans (W19_main_arg12 m ρ c)
theorem W20_main_arg11 : W20 m ρ c (Proc.devRef .tc main_arg11) = A11 m c :=
  (W20_of_ne m ρ c main_arg11 (by decide)).trans (W19_main_arg11 m ρ c)

/-! ### Boundary 21 -/

theorem W21_main_v81 : W21 m ρ c (Proc.devRef .tc main_v81) = shapeCast S1x10 (A10 m c) shapeCasts_S10_S1x10 :=
  (hostOps9_main_v81 (W20 m ρ c)).trans (by rw [W20_main_arg10 m ρ c])
theorem W21_main_arg9 : W21 m ρ c (Proc.devRef .tc main_arg9) = A9 m c :=
  (hostOps9_keep (W20 m ρ c) main_arg9 (by decide)).trans (W20_main_arg9 m ρ c)
theorem W21_main_arg12 : W21 m ρ c (Proc.devRef .tc main_arg12) = A12 m c :=
  (hostOps9_keep (W20 m ρ c) main_arg12 (by decide)).trans (W20_main_arg12 m ρ c)
theorem W21_main_arg11 : W21 m ρ c (Proc.devRef .tc main_arg11) = A11 m c :=
  (hostOps9_keep (W20 m ρ c) main_arg11 (by decide)).trans (W20_main_arg11 m ρ c)
theorem W21_main_v80 : W21 m ρ c (Proc.devRef .tc main_v80) = H3 m c :=
  (hostOps9_keep (W20 m ρ c) main_v80 (by decide)).trans (W20_main_v80 m ρ c)

/-! ### Boundary 22 -/

theorem W22_main_v82 : W22 m ρ c (Proc.devRef .tc main_v82) = HD1 m c :=
  (W22_arr m ρ c 3).trans ((Region9.final (V21 m ρ) c).trans
    (Convert.head1 _ _ _ _ _ _ _ (W21_main_v80 m ρ c) (W21_main_arg9 m ρ c) (W21_main_v81 m ρ c)))
theorem W22_main_arg12 : W22 m ρ c (Proc.devRef .tc main_arg12) = A12 m c :=
  (W22_of_ne m ρ c main_arg12 (by decide)).trans (W21_main_arg12 m ρ c)
theorem W22_main_arg11 : W22 m ρ c (Proc.devRef .tc main_arg11) = A11 m c :=
  (W22_of_ne m ρ c main_arg11 (by decide)).trans (W21_main_arg11 m ρ c)

/-! ### Boundary 23 -/

theorem W23_main_v83 : W23 m ρ c (Proc.devRef .tc main_v83) = shapeCast S1x4 (A12 m c) shapeCasts_S4_S1x4 :=
  (hostOps10_main_v83 (W22 m ρ c)).trans (by rw [W22_main_arg12 m ρ c])
theorem W23_main_arg11 : W23 m ρ c (Proc.devRef .tc main_arg11) = A11 m c :=
  (hostOps10_keep (W22 m ρ c) main_arg11 (by decide)).trans (W22_main_arg11 m ρ c)
theorem W23_main_v82 : W23 m ρ c (Proc.devRef .tc main_v82) = HD1 m c :=
  (hostOps10_keep (W22 m ρ c) main_v82 (by decide)).trans (W22_main_v82 m ρ c)

/-! ### Boundary 24 -/

theorem W24_main_v84 : W24 m ρ c (Proc.devRef .tc main_v84) = OUT m c :=
  (W24_arr m ρ c 3).trans ((Region10.final (V23 m ρ) c).trans
    (Convert.head2 _ _ _ _ _ _ _ (W23_main_v82 m ρ c) (W23_main_arg11 m ρ c) (W23_main_v83 m ρ c)))

/-- THE RESULT: the last boundary holds the network of the arguments in the result array. -/
theorem result : W24 m ρ c (Proc.devRef .tc main_v84) = Cert.Spec.out (A0 m c) (A1 m c) (A2 m c) (A3 m c) (A4 m c) (A5 m c) (A6 m c) (A7 m c) (A8 m c) (A9 m c) (A10 m c) (A11 m c) (A12 m c) :=
  (W24_main_v84 m ρ c).trans (OUT_eq m c)

end Cert.KernelIdeal.Chain

end
-- ==== Proof.RefValue.lean ====
/-
  THE REFERENCE'S RESULT IS THE NETWORK OF ITS ARGUMENTS.

  The reference program is a straight line of host operations; its run ends with the result array at the operations'
  composed term of the argument arrays.  That term, read from the outside in, is the read-out of the third convolution of
  the second of the first, each convolution recomputing the degrees and the normalisations from the same edge lists:
  it is `Spec.out` of the arguments, name for name.
-/
import proofs.«163669_j81638738363110_2_alg».proof.Proof.Gen.ReferenceIdeal.Run
import proofs.«163669_j81638738363110_2_alg».proof.Proof.Spec

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem

set_option maxHeartbeats 4000000 in
/-- The composed term of the reference's run is the network of the argument arrays. -/
theorem res_eq (m : (ℓ : Loc nD τ sig) → Buf (Elt Ideal) ℓ) (c : Dev nD) :
    res_main_v139 (F := Ideal) m c = Cert.Spec.out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) := by
  unfold res_main_v139
  rfl

end Cert.ReferenceIdeal.RefValue

end
-- ==== Proof.lean ====
/-
  THE CERTIFICATE: a three-layer graph convolution with a two-layer read-out, computed by eleven calls on the vector
  unit among host gathers and scatters, against the same network written with host operations only.

  Both programs build the same edge lists (every node given a self loop of weight one), the same degrees, factors and
  edge normalisations, and apply the same three convolutions and read-out in the same order.  They differ in where the
  dense arithmetic runs.  The kernel program computes each product, each weighting of the gathered rows and each bias
  (and rectifier) in a call that walks blocks of rows; because every one of these acts on each row by itself, the blocks
  together are the operation on the whole array.  The kernel program's products add a zero bias, which changes no
  extended real; its casts to a narrower format are the identity at the ideal values; and it computes the normalisations
  once where the reference recomputes them for every layer from the same lists.  So both results are one function of the
  arguments, `Spec.out`: no sum is regrouped and no input needs to be finite.

  The frames of the two kernel programs are the generated runs; the reference's frame is its generated run with the
  result dropped; the idealisation rewrote no operation.
-/
import proofs.«163669_j81638738363110_2_alg».proof.Defs
import proofs.«163669_j81638738363110_2_alg».proof.Proof.Gen.Kernel
import proofs.«163669_j81638738363110_2_alg».proof.Proof.Gen.Kernel.Frame
import proofs.«163669_j81638738363110_2_alg».proof.Proof.Gen.KernelIdeal
import proofs.«163669_j81638738363110_2_alg».proof.Proof.Gen.KernelIdeal.Frame
import proofs.«163669_j81638738363110_2_alg».proof.Proof.Gen.ReferenceIdeal
import proofs.«163669_j81638738363110_2_alg».proof.Proof.Gen.ReferenceIdeal.Run
import proofs.«163669_j81638738363110_2_alg».proof.Proof.Gen.Pre_finite_inputs
import proofs.«163669_j81638738363110_2_alg».proof.Proof.KernelRun
import proofs.«163669_j81638738363110_2_alg».proof.Proof.Chain
import proofs.«163669_j81638738363110_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- The reference runs and leaves its arguments as launched: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network of the arguments in their result
    arrays: the kernel program by its chain of boundaries, the reference by its composed term. -/
theorem algebraic : Cert.algebraic_KernelIdeal_ReferenceIdeal := by
  intro m ρ m' ρ' _ hagree
  refine ⟨fun c => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Chain.result m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.RefValue.res_eq m' c, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
